-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x64 .f32) (main_arg1 : IVec S2x800000 32) (main_arg2 : FVec F S4x64x64 .f32) (main_arg3 : FVec F S4x64 .f32) (main_arg4 : FVec F S4x64x64 .f32) (main_arg5 : FVec F S64x1 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_v13 main_v16
-- ==== Kernel.lean ====
abbrev S100000x64 : Shape := ⟨2, ![100000, 64]⟩
abbrev S2x800000 : Shape := ⟨2, ![2, 800000]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S4000x64 : Shape := ⟨2, ![4000, 64]⟩
abbrev S1x1 : Shape := ⟨2, ![1, 1]⟩
abbrev S100000x1 : Shape := ⟨2, ![100000, 1]⟩
abbrev S4000x1 : Shape := ⟨2, ![4000, 1]⟩
abbrev S100000 : Shape := ⟨1, ![100000]⟩

abbrev nBuf : Space → Nat
  | .hbm => 98
  | .vmem => 50
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S4x64x64, .f32⟩
  | .hbm, ⟨3, _⟩ => ⟨S4x64, .f32⟩
  | .hbm, ⟨4, _⟩ => ⟨S4x64x64, .f32⟩
  | .hbm, ⟨5, _⟩ => ⟨S64x1, .f32⟩
  | .hbm, ⟨6, _⟩ => ⟨S1, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S100000x64, .f32⟩
  | .hbm, ⟨22, _⟩ => ⟨S800000x1, .i32⟩
  | .hbm, ⟨23, _⟩ => ⟨S100000x64, .f32⟩
  | .hbm, ⟨24, _⟩ => ⟨S1x64x64, .f32⟩
  | .hbm, ⟨25, _⟩ => ⟨S64x64, .f32⟩
  | .hbm, ⟨26, _⟩ => ⟨S1x64, .f32⟩
  | .hbm, ⟨27, _⟩ => ⟨S64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .f32⟩
  | .hbm, ⟨42, _⟩ => ⟨S100000x64, .f32⟩
  | .hbm, ⟨43, _⟩ => ⟨S800000x1, .i32⟩
  | .hbm, ⟨44, _⟩ => ⟨S100000x64, .f32⟩
  | .hbm, ⟨45, _⟩ => ⟨S1x64x64, .f32⟩
  | .hbm, ⟨46, _⟩ => ⟨S64x64, .f32⟩
  | .hbm, ⟨47, _⟩ => ⟨S1x64, .f32⟩
  | .hbm, ⟨48, _⟩ => ⟨S64, .f32⟩
  | .hbm, ⟨49, _⟩ => ⟨S1x64x64, .f32⟩
  | .hbm, ⟨50, _⟩ => ⟨S64x64, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S100000x64, .f32⟩
  | .hbm, ⟨64, _⟩ => ⟨S800000x1, .i32⟩
  | .hbm, ⟨65, _⟩ => ⟨S100000x64, .f32⟩
  | .hbm, ⟨66, _⟩ => ⟨S1x64x64, .f32⟩
  | .hbm, ⟨67, _⟩ => ⟨S64x64, .f32⟩
  | .hbm, ⟨68, _⟩ => ⟨S1x64, .f32⟩
  | .hbm, ⟨69, _⟩ => ⟨S64, .f32⟩
  | .hbm, ⟨70, _⟩ => ⟨S1x64x64, .f32⟩
  | .hbm, ⟨71, _⟩ => ⟨S64x64, .f32⟩
  | .hbm, ⟨72, _⟩ => ⟨S1x64, .f32⟩
  | .hbm, ⟨73, _⟩ => ⟨S100000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S_, .f32⟩
  | .hbm, ⟨84, _⟩ => ⟨S100000x64, .f32⟩
  | .hbm, ⟨85, _⟩ => ⟨S800000x1, .i32⟩
  | .hbm, ⟨86, _⟩ => ⟨S100000x64, .f32⟩
  | .hbm, ⟨87, _⟩ => ⟨S1x64x64, .f32⟩
  | .hbm, ⟨88, _⟩ => ⟨S64x64, .f32⟩
  | .hbm, ⟨89, _⟩ => ⟨S1x64, .f32⟩
  | .hbm, ⟨90, _⟩ => ⟨S64, .f32⟩
  | .hbm, ⟨91, _⟩ => ⟨S1x64x64, .f32⟩
  | .hbm, ⟨92, _⟩ => ⟨S64x64, .f32⟩
  | .hbm, ⟨93, _⟩ => ⟨S1x64, .f32⟩
  | .hbm, ⟨94, _⟩ => ⟨S100000x64, .f32⟩
  | .hbm, ⟨95, _⟩ => ⟨S1x1, .f32⟩
  | .hbm, ⟨96, _⟩ => ⟨S100000x1, .f32⟩
  | .hbm, ⟨97, _⟩ => ⟨S100000, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S64x64, .f32⟩
  | .local _ .vmem, ⟨40, _⟩ => ⟨S1x64, .f32⟩
  | .local _ .vmem, ⟨41, _⟩ => ⟨S64x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S64x1, .f32⟩
  | .local _ .vmem, ⟨47, _⟩ => ⟨S1x1, .f32⟩
  | .local _ .vmem, ⟨48, _⟩ => ⟨S4000x1, .f32⟩
  | .local _ .vmem, ⟨49, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_7 : Ref sig .tc := ⟨.hbm, 74, rfl⟩
abbrev main_v58 : Ref sig .tc := ⟨.hbm, 75, rfl⟩
abbrev main_v59 : Ref sig .tc := ⟨.hbm, 76, rfl⟩
abbrev main_c_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg3_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem3_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S100000x64.size a
  hwx3_6 : ∀ i : grid3.Coords, EltTy.bits .f32 = 32 ∨ (Rect.block (s := S100000x64) S4000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x1.size a ≤ S100000x1.size a
  hwx4_3 : ∀ i : grid4.Coords, EltTy.bits .f32 = 32 ∨ (Rect.block (s := S100000x1) S4000x1.size (cc4_transform_3 i) (hinb4_3 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v13) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v69) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v75) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S4000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x1 : Shape := ⟨2, ![100000, 1]⟩
abbrev S1x1 : Shape := ⟨2, ![1, 1]⟩
abbrev S100000 : Shape := ⟨1, ![100000]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x800000, .i32⟩
  | 2 => ⟨S4x64x64, .f32⟩
  | 3 => ⟨S4x64, .f32⟩
  | 4 => ⟨S4x64x64, .f32⟩
  | 5 => ⟨S64x1, .f32⟩
  | 6 => ⟨S1, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S_, .f32⟩
  | 21 => ⟨S100000x64, .f32⟩
  | 22 => ⟨S800000x1, .i32⟩
  | 23 => ⟨S100000x64, .f32⟩
  | 24 => ⟨S1x64x64, .f32⟩
  | 25 => ⟨S64x64, .f32⟩
  | 26 => ⟨S100000x64, .f32⟩
  | 27 => ⟨S1x64, .f32⟩
  | 28 => ⟨S64, .f32⟩
  | 29 => ⟨S1x64, .f32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S_, .f32⟩
  | 50 => ⟨S100000x64, .f32⟩
  | 51 => ⟨S800000x1, .i32⟩
  | 52 => ⟨S100000x64, .f32⟩
  | 53 => ⟨S1x64x64, .f32⟩
  | 54 => ⟨S64x64, .f32⟩
  | 55 => ⟨S100000x64, .f32⟩
  | 56 => ⟨S1x64, .f32⟩
  | 57 => ⟨S64, .f32⟩
  | 58 => ⟨S1x64, .f32⟩
  | 59 => ⟨S100000x64, .f32⟩
  | 60 => ⟨S100000x64, .f32⟩
  | 61 => ⟨S1x64x64, .f32⟩
  | 62 => ⟨S64x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S_, .f32⟩
  | 79 => ⟨S100000x64, .f32⟩
  | 80 => ⟨S800000x1, .i32⟩
  | 81 => ⟨S100000x64, .f32⟩
  | 82 => ⟨S1x64x64, .f32⟩
  | 83 => ⟨S64x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S1x64x64, .f32⟩
  | 91 => ⟨S64x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S_, .f32⟩
  | 108 => ⟨S100000x64, .f32⟩
  | 109 => ⟨S800000x1, .i32⟩
  | 110 => ⟨S100000x64, .f32⟩
  | 111 => ⟨S1x64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S1x64x64, .f32⟩
  | 120 => ⟨S64x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x1, .f32⟩
  | _ => ⟨S100000x64, .f32⟩

abbrev hbmTy0_1 (i : Nat) : BufTy := match i % 128 with
  | 0 => ⟨S1x1, .f32⟩
  | 1 => ⟨S100000x1, .f32⟩
  | 2 => ⟨S100000x1, .f32⟩
  | 3 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_v50 : Ref sig .tc := ⟨.hbm, 67, rfl⟩
abbrev main_v51 : Ref sig .tc := ⟨.hbm, 68, rfl⟩
abbrev main_c_4 : Ref sig .tc := ⟨.hbm, 69, rfl⟩
abbrev main_v52 : Ref sig .tc := ⟨.hbm, 70, rfl⟩
abbrev main_v53 : Ref sig .tc := ⟨.hbm, 71, rfl⟩
abbrev main_c_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_call2_cst : Ref sig .tc := ⟨.hbm, 94, rfl⟩
abbrev main_call2_v0 : Ref sig .tc := ⟨.hbm, 95, rfl⟩
abbrev main_v74 : Ref sig .tc := ⟨.hbm, 96, rfl⟩
abbrev main_v75 : Ref sig .tc := ⟨.hbm, 97, rfl⟩
abbrev main_c_7 : Ref sig .tc := ⟨.hbm, 98, rfl⟩
abbrev main_v76 : Ref sig .tc := ⟨.hbm, 99, rfl⟩
abbrev main_v77 : Ref sig .tc := ⟨.hbm, 100, rfl⟩
abbrev main_c_8 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_call3_cst : Ref sig .tc := ⟨.hbm, 123, rfl⟩
abbrev main_call3_v0 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.K_Layer0.lean ====
/-
  Layer 0 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.Kernel.Launch
import proofs.«108808_j5119601017047_1_alg».proof.Proof.Gen.Kernel.Skeleton
import proofs.«108808_j5119601017047_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block whenever the body runs, freshly fetched or kept from the point
    before (a block index that did not move), given that the body leaves the block in place. -/
theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k0_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid0.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc0__layer_kernel i a1 h1 a2 h2 a3 h3 a4 h4 a5 h5 a6 h6 a7 h7) K := by
  simp only [cc0__layer_kernel_eq_skeleton]; unfold cc0__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- In this first layer the current features ARE the input features: windows 1 and 2 read one array, and each holds half
    of it; every other input array is held whole. -/
def inputShare : Fin cfg0.W → PosShare TreeShare
  | ⟨1, _⟩ => fullShare.left
  | ⟨2, _⟩ => fullShare.right
  | _ => fullShare

/-- On core c: the arrays as the region finds them; after the body at point t every input buffer still at its block and
    the result buffer at `result` of the six blocks; the rest of the core's scoped memory and its generator register pass
    through untouched; nothing is owed to another core; the input arrays are held at `inputShare`. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec0 c
  q := inputShare
  owed _ := 0

theorem dat_A (c : Dev nD) (w : Fin cfg0.W) : (dat V c).A w = V c (Pipeline.arrRef spec0 w) := by dsimp only [dat]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) :
    (dat V c).after 6 t = result (blk V c 0 t) (blk V c 1 t) (blk V c 2 t) (blk V c 3 t) (blk V c 4 t) (blk V c 5 t) := by dsimp only [dat]
theorem before0 (c : Dev nD) (t : Fin cfg0.N) (d) : (dat V c).before 0 t d = blk V c 0 t :=
  found0 V (dat V c) (dat_A V c 0) (after0 V c) t d
theorem before1 (c : Dev nD) (t : Fin cfg0.N) (d) : (dat V c).before 1 t d = blk V c 1 t :=
  found1 V (dat V c) (dat_A V c 1) (after1 V c) t d
theorem before2 (c : Dev nD) (t : Fin cfg0.N) (d) : (dat V c).before 2 t d = blk V c 2 t :=
  found2 V (dat V c) (dat_A V c 2) (after2 V c) t d
theorem before3 (c : Dev nD) (t : Fin cfg0.N) (d) : (dat V c).before 3 t d = blk V c 3 t :=
  found3 V (dat V c) (dat_A V c 3) (after3 V c) t d
theorem before4 (c : Dev nD) (t : Fin cfg0.N) (d) : (dat V c).before 4 t d = blk V c 4 t :=
  found4 V (dat V c) (dat_A V c 4) (after4 V c) t d
theorem before5 (c : Dev nD) (t : Fin cfg0.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W0, bigSep_W0]
  exact body_at V c t

end Cert.Kernel.Layer0

end
-- ==== Proof.K_Layer1.lean ====
/-
  Layer 1 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.Kernel.Launch
import proofs.«108808_j5119601017047_1_alg».proof.Proof.Gen.Kernel.Skeleton
import proofs.«108808_j5119601017047_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block whenever the body runs, freshly fetched or kept from the point
    before (a block index that did not move), given that the body leaves the block in place. -/
theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k1_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid1.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc1__layer_kernel i a1 h1 a2 h2 a3 h3 a4 h4 a5 h5 a6 h6 a7 h7) K := by
  simp only [cc1__layer_kernel_eq_skeleton]; unfold cc1__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- On core c: the arrays as the region finds them; after the body at point t every input buffer still at its block and
    the result buffer at `result` of the six blocks; the rest of the core's scoped memory and its generator register pass
    through untouched; nothing is owed to another core; every array is held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by dsimp only [dat]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) :
    (dat V c).after 6 t = result (blk V c 0 t) (blk V c 1 t) (blk V c 2 t) (blk V c 3 t) (blk V c 4 t) (blk V c 5 t) := by dsimp only [dat]
theorem before0 (c : Dev nD) (t : Fin cfg1.N) (d) : (dat V c).before 0 t d = blk V c 0 t :=
  found0 V (dat V c) (dat_A V c 0) (after0 V c) t d
theorem before1 (c : Dev nD) (t : Fin cfg1.N) (d) : (dat V c).before 1 t d = blk V c 1 t :=
  found1 V (dat V c) (dat_A V c 1) (after1 V c) t d
theorem before2 (c : Dev nD) (t : Fin cfg1.N) (d) : (dat V c).before 2 t d = blk V c 2 t :=
  found2 V (dat V c) (dat_A V c 2) (after2 V c) t d
theorem before3 (c : Dev nD) (t : Fin cfg1.N) (d) : (dat V c).before 3 t d = blk V c 3 t :=
  found3 V (dat V c) (dat_A V c 3) (after3 V c) t d
theorem before4 (c : Dev nD) (t : Fin cfg1.N) (d) : (dat V c).before 4 t d = blk V c 4 t :=
  found4 V (dat V c) (dat_A V c 4) (after4 V c) t d
theorem before5 (c : Dev nD) (t : Fin cfg1.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W1, bigSep_W1]
  exact body_at V c t

end Cert.Kernel.Layer1

end
-- ==== Proof.K_Layer2.lean ====
/-
  Layer 2 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.Kernel.Launch
import proofs.«108808_j5119601017047_1_alg».proof.Proof.Gen.Kernel.Skeleton
import proofs.«108808_j5119601017047_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block whenever the body runs, freshly fetched or kept from the point
    before (a block index that did not move), given that the body leaves the block in place. -/
theorem found0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k2_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid2.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc2__layer_kernel i a1 h1 a2 h2 a3 h3 a4 h4 a5 h5 a6 h6 a7 h7) K := by
  simp only [cc2__layer_kernel_eq_skeleton]; unfold cc2__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- On core c: the arrays as the region finds them; after the body at point t every input buffer still at its block and
    the result buffer at `result` of the six blocks; the rest of the core's scoped memory and its generator register pass
    through untouched; nothing is owed to another core; every array is held whole. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec2 c
  q _ := fullShare
  owed _ := 0

theorem dat_A (c : Dev nD) (w : Fin cfg2.W) : (dat V c).A w = V c (Pipeline.arrRef spec2 w) := by dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) :
    (dat V c).after 6 t = result (blk V c 0 t) (blk V c 1 t) (blk V c 2 t) (blk V c 3 t) (blk V c 4 t) (blk V c 5 t) := by dsimp only [dat]
theorem before0 (c : Dev nD) (t : Fin cfg2.N) (d) : (dat V c).before 0 t d = blk V c 0 t :=
  found0 V (dat V c) (dat_A V c 0) (after0 V c) t d
theorem before1 (c : Dev nD) (t : Fin cfg2.N) (d) : (dat V c).before 1 t d = blk V c 1 t :=
  found1 V (dat V c) (dat_A V c 1) (after1 V c) t d
theorem before2 (c : Dev nD) (t : Fin cfg2.N) (d) : (dat V c).before 2 t d = blk V c 2 t :=
  found2 V (dat V c) (dat_A V c 2) (after2 V c) t d
theorem before3 (c : Dev nD) (t : Fin cfg2.N) (d) : (dat V c).before 3 t d = blk V c 3 t :=
  found3 V (dat V c) (dat_A V c 3) (after3 V c) t d
theorem before4 (c : Dev nD) (t : Fin cfg2.N) (d) : (dat V c).before 4 t d = blk V c 4 t :=
  found4 V (dat V c) (dat_A V c 4) (after4 V c) t d
theorem before5 (c : Dev nD) (t : Fin cfg2.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact body_at V c t

end Cert.Kernel.Layer2

end
-- ==== Proof.K_Layer3.lean ====
/-
  Layer 3 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.Kernel.Launch
import proofs.«108808_j5119601017047_1_alg».proof.Proof.Gen.Kernel.Skeleton
import proofs.«108808_j5119601017047_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block whenever the body runs, freshly fetched or kept from the point
    before (a block index that did not move), given that the body leaves the block in place. -/
theorem found0 {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k3_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid3.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc3__layer_kernel i a1 h1 a2 h2 a3 h3 a4 h4 a5 h5 a6 h6 a7 h7) K := by
  simp only [cc3__layer_kernel_eq_skeleton]; unfold cc3__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- On core c: the arrays as the region finds them; after the body at point t every input buffer still at its block and
    the result buffer at `result` of the six blocks; the rest of the core's scoped memory and its generator register pass
    through untouched; nothing is owed to another core; every array is held whole. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec3 c
  q _ := fullShare
  owed _ := 0

theorem dat_A (c : Dev nD) (w : Fin cfg3.W) : (dat V c).A w = V c (Pipeline.arrRef spec3 w) := by dsimp only [dat]
theorem after0 (c : Dev nD) (t : Fin cfg3.N) : (dat V c).after 0 t = blk V c 0 t := by dsimp only [dat]
theorem after1 (c : Dev nD) (t : Fin cfg3.N) : (dat V c).after 1 t = blk V c 1 t := by dsimp only [dat]
theorem after2 (c : Dev nD) (t : Fin cfg3.N) : (dat V c).after 2 t = blk V c 2 t := by dsimp only [dat]
theorem after3 (c : Dev nD) (t : Fin cfg3.N) : (dat V c).after 3 t = blk V c 3 t := by dsimp only [dat]
theorem after4 (c : Dev nD) (t : Fin cfg3.N) : (dat V c).after 4 t = blk V c 4 t := by dsimp only [dat]
theorem after5 (c : Dev nD) (t : Fin cfg3.N) : (dat V c).after 5 t = blk V c 5 t := by dsimp only [dat]
theorem after6 (c : Dev nD) (t : Fin cfg3.N) :
    (dat V c).after 6 t = result (blk V c 0 t) (blk V c 1 t) (blk V c 2 t) (blk V c 3 t) (blk V c 4 t) (blk V c 5 t) := by dsimp only [dat]
theorem before0 (c : Dev nD) (t : Fin cfg3.N) (d) : (dat V c).before 0 t d = blk V c 0 t :=
  found0 V (dat V c) (dat_A V c 0) (after0 V c) t d
theorem before1 (c : Dev nD) (t : Fin cfg3.N) (d) : (dat V c).before 1 t d = blk V c 1 t :=
  found1 V (dat V c) (dat_A V c 1) (after1 V c) t d
theorem before2 (c : Dev nD) (t : Fin cfg3.N) (d) : (dat V c).before 2 t d = blk V c 2 t :=
  found2 V (dat V c) (dat_A V c 2) (after2 V c) t d
theorem before3 (c : Dev nD) (t : Fin cfg3.N) (d) : (dat V c).before 3 t d = blk V c 3 t :=
  found3 V (dat V c) (dat_A V c 3) (after3 V c) t d
theorem before4 (c : Dev nD) (t : Fin cfg3.N) (d) : (dat V c).before 4 t d = blk V c 4 t :=
  found4 V (dat V c) (dat_A V c 4) (after4 V c) t d
theorem before5 (c : Dev nD) (t : Fin cfg3.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W3, bigSep_W3]
  exact body_at V c t

end Cert.Kernel.Layer3

end
-- ==== Proof.K_Project.lean ====
/-
  The final projection, one block of 4000 nodes at a time, on any float instance.

  At grid point t the body is handed rows 4000·t … 4000·t+3999 of the last layer's features (window 0), the 64×1
  weight column and the 1×1 bias (windows 1 and 2: one block each, the same at every point) and the buffer of the same
  4000 rows of the 100000×1 result (window 3); it overwrites the result buffer whole with  h·w + b  of what it read.
  As for the layers: the body's Hoare triple, what every buffer holds after the body at every point, and the staged
  pipeline's obligation on the body, all at a parameter V, the core's arrays when the region is entered.
-/
import proofs.«108808_j5119601017047_1_alg».proof.Proof.Gen.Kernel.Launch
import proofs.«108808_j5119601017047_1_alg».proof.Proof.Gen.Kernel.Skeleton
import proofs.«108808_j5119601017047_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t, read off the array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block whenever the body runs, freshly fetched or kept from the point
    before, given that the body leaves the block in place. -/
theorem found0 {c : Dev nD} (dat : Dat τ (Elt F) Unit ℕ (UR sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before, given that the body leaves the block in place. -/
theorem found1 {c : Dev nD} (dat : Dat τ (Elt F) Unit ℕ (UR sig nD τ) ℕ cfg4 c) (hA : dat.A 1 = V c (Pipeline.arrRef spec4 1))
    (hafter : ∀ t, dat.after 1 t = blk V c 1 t) (t : Fin cfg4.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before, given that the body leaves the block in place. -/
theorem found2 {c : Dev nD} (dat : Dat τ (Elt F) Unit ℕ (UR sig nD τ) ℕ cfg4 c) (hA : dat.A 2 = V c (Pipeline.arrRef spec4 2))
    (hafter : ∀ t, dat.after 2 t = blk V c 2 t) (t : Fin cfg4.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body computes -/

abbrev rowsRect : Rect S4000x64 := Rect.unit (s := S4000x64) ![0, 0] S4000x64.size inb_S4000x64_S4000x64_0_0
abbrev weightRect : Rect S64x1 := Rect.unit (s := S64x1) ![0, 0] S64x1.size inb_S64x1_S64x1_0_0
abbrev biasRect : Rect S1x1 := Rect.unit (s := S1x1) ![0, 0] S1x1.size inb_S1x1_S1x1_0_0
abbrev outRect : Rect S4000x1 := Rect.unit (s := S4000x1) ![0, 0] S4000x1.size inb_S4000x1_S4000x1_0_0

/-- The result buffer after the body, from the three input blocks: one store of the whole buffer. -/
def result (h : Vec F S4000x64 .f32) (w : Vec F S64x1 .f32) (b : Vec F S1x1 .f32) : Vec F S4000x1 .f32 :=
  View.canon [⟨outRect, k4_pay1 (View.ld h rowsRect) (View.ld w weightRect) (View.ld b biasRect)⟩]

theorem result_cover (p0 : Vec F S4000x1 .f32) (y : S4000x1.Idx) :
    ∃ pc ∈ ([⟨outRect, p0⟩] : List (View.Piece (Elt F) S4000x1 .f32)), y ∈ pc.1.set :=
  View.cover_of_tiled [⟨outRect, p0⟩] S4000x1.size (by rfl) y

set_option maxHeartbeats 1000000 in
/-- The body on whole staging buffers: the inputs end as they were, the result buffer at `result` of them. -/
theorem body_triple (c : Dev nD) (E : Set ℕ) (i : grid4.Coords)
    (a1 : Memref sig .tc .vmem S4000x64 .f32) (h1 : a1.IsWhole) (a2 : Memref sig .tc .vmem S64x1 .f32) (h2 : a2.IsWhole)
    (a3 : Memref sig .tc .vmem S1x1 .f32) (h3 : a3.IsWhole) (a4 : Memref sig .tc .vmem S4000x1 .f32) (h4 : a4.IsWhole)
    (h : Vec F S4000x64 .f32) (w : Vec F S64x1 .f32) (b : Vec F S1x1 .f32) (K : PUnit → sProp 𝕄) :
    iprop(owns (c : Thread nD τ) a1 fullShare h ∗ owns (c : Thread nD τ) a2 fullShare w ∗ owns (c : Thread nD τ) a3 fullShare b
        ∗ (∃ d, owns (c : Thread nD τ) a4 fullShare d)
        ∗ (iprop(owns (c : Thread nD τ) a1 fullShare h ∗ owns (c : Thread nD τ) a2 fullShare w ∗ owns (c : Thread nD τ) a3 fullShare b
            ∗ owns (c : Thread nD τ) a4 fullShare (result h w b)) -∗ K ⟨⟩))
      ⊢ wp frame (wpE (defs₀ (F := F)) Variants.none c none) E (cc4__fc_kernel i a1 h1 a2 h2 a3 h3 a4 h4) K := by
  simp only [cc4__fc_kernel_eq_skeleton]; unfold cc4__fc_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (result_cover _)

/-! ## The staged pipeline's proof data -/

def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => result (blk V c 0 t) (blk V c 1 t) (blk V c 2 t)
  Φ _ := Pipeline.ΦA spec4 c
  q _ := fullShare
  owed _ := 0

theorem dat_A (c : Dev nD) (w : Fin cfg4.W) : (dat V c).A w = V c (Pipeline.arrRef spec4 w) := by dsimp only [dat]
theorem after0 (c : Dev nD) (t : Fin cfg4.N) : (dat V c).after 0 t = blk V c 0 t := by dsimp only [dat]
theorem after1 (c : Dev nD) (t : Fin cfg4.N) : (dat V c).after 1 t = blk V c 1 t := by dsimp only [dat]
theorem after2 (c : Dev nD) (t : Fin cfg4.N) : (dat V c).after 2 t = blk V c 2 t := by dsimp only [dat]
theorem after3 (c : Dev nD) (t : Fin cfg4.N) : (dat V c).after 3 t = result (blk V c 0 t) (blk V c 1 t) (blk V c 2 t) := by dsimp only [dat]
theorem before0 (c : Dev nD) (t : Fin cfg4.N) (d) : (dat V c).before 0 t d = blk V c 0 t :=
  found0 V (dat V c) (dat_A V c 0) (after0 V c) t d
theorem before1 (c : Dev nD) (t : Fin cfg4.N) (d) : (dat V c).before 1 t d = blk V c 1 t :=
  found1 V (dat V c) (dat_A V c 1) (after1 V c) t d
theorem before2 (c : Dev nD) (t : Fin cfg4.N) (d) : (dat V c).before 2 t d = blk V c 2 t :=
  found2 V (dat V c) (dat_A V c 2) (after2 V c) t d

/-! ## The pipeline's obligation on the body -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t))

theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W4, bigSep_W4]
  exact body_at V c t

end Cert.Kernel.Project

end
-- ==== Proof.K_Shared.lean ====
/-
  The first layer's arrays, where the input features x stand behind two windows.

  The staged pipeline of layer 0 reads seven windows but only six arrays: the current features and the input features
  are both x. The core holds x whole; the pipeline wants one points-to per window. Splitting the whole of x into its
  left and right halves (and every other array taken as it is) makes the windows' arrays out of the six buffers, and
  joining the halves makes the buffers again: both windows are read-only, so both halves come back at x's contents.
-/
import proofs.«108808_j5119601017047_1_alg».proof.Proof.K_Layer0

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct arrays behind the seven windows. -/
theorem arr_image : Finset.univ.image (Pipeline.arrRef spec0)
    = ([main_v13, main_arg0, main_v15, main_v20, main_v19, main_v21] : List (Ref sig .tc)).toFinset := by decide

set_option maxHeartbeats 1000000 in
/-- The six buffers, each whole at the contents Vc, are the seven windows' arrays at those contents: x's buffer split in two. -/
theorem arrays_of_buffers (c : Dev nD) (Vc : (b : Ref sig .tc) → Buf (Elt F) ((c : Thread nD τ).loc b))
    :
    (Pipeline.arrBufs spec0 c Vc : sProp 𝕄) ⊢ (dat V c).arrays (fun w => Vc (Pipeline.arrRef spec0 w)) := by
  unfold Pipeline.arrBufs Dat.arrays
  rw [bigSep_eq_bigSepL_of_eq _ arr_image (by decide), bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  simp only [e0, e1, e2, e3, e4, e5, e6]
  rw [show (dat V c).share 0 = fullShare from rfl, show (dat V c).share 1 = fullShare.left from rfl,
    show (dat V c).share 2 = fullShare.right from rfl, show (dat V c).share 3 = fullShare from rfl,
    show (dat V c).share 4 = fullShare from rfl, show (dat V c).share 5 = fullShare from rfl,
    show (dat V c).share 6 = fullShare from rfl]
  rw [show ∀ Φ : Ref sig .tc → sProp 𝕄, bigSepL [main_v13, main_arg0, main_v15, main_v20, main_v19, main_v21] Φ
      = iprop(Φ main_v13 ∗ Φ main_arg0 ∗ Φ main_v15 ∗ Φ main_v20 ∗ Φ main_v19 ∗ Φ main_v21) from fun _ => rfl]
  iintro ⟨Hagg, Hx, Hw, Hb, Hr, Ho⟩
  ihave Hs := (pointsTo_share (PosShare.mem_left_op_right fullShare)).1 $$ Hx
  icases Hs with ⟨Hl, Hrt⟩
  isplitl [Hagg]; · iexact Hagg
  isplitl [Hl]; · iexact Hl
  isplitl [Hrt]; · iexact Hrt
  isplitl [Hw]; · iexact Hw
  isplitl [Hb]; · iexact Hb
  isplitl [Hr]; · iexact Hr
  iexact Ho

set_option maxHeartbeats 1000000 in
/-- and back: the seven windows' arrays at Vc's contents are the six buffers at Vc, x's halves joined. -/
theorem buffers_of_arrays (c : Dev nD) (Vc : (b : Ref sig .tc) → Buf (Elt F) ((c : Thread nD τ).loc b)) :
    (dat V c).arrays (fun w => Vc (Pipeline.arrRef spec0 w)) ⊢ (Pipeline.arrBufs spec0 c Vc : sProp 𝕄) := by
  unfold Pipeline.arrBufs Dat.arrays
  rw [bigSep_eq_bigSepL_of_eq _ arr_image (by decide), bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  simp only [e0, e1, e2, e3, e4, e5, e6]
  rw [show (dat V c).share 0 = fullShare from rfl, show (dat V c).share 1 = fullShare.left from rfl,
    show (dat V c).share 2 = fullShare.right from rfl, show (dat V c).share 3 = fullShare from rfl,
    show (dat V c).share 4 = fullShare from rfl, show (dat V c).share 5 = fullShare from rfl,
    show (dat V c).share 6 = fullShare from rfl]
  rw [show ∀ Φ : Ref sig .tc → sProp 𝕄, bigSepL [main_v13, main_arg0, main_v15, main_v20, main_v19, main_v21] Φ
      = iprop(Φ main_v13 ∗ Φ main_arg0 ∗ Φ main_v15 ∗ Φ main_v20 ∗ Φ main_v19 ∗ Φ main_v21) from fun _ => rfl]
  iintro ⟨Hagg, Hl, Hrt, Hw, Hb, Hr, Ho⟩
  ihave Hx := (pointsTo_share (PosShare.mem_left_op_right fullShare)).2 $$ [Hl Hrt]
  · isplitl [Hl]; · iexact Hl
    iexact Hrt
  isplitl [Hagg]; · iexact Hagg
  isplitl [Hx]; · iexact Hx
  isplitl [Hw]; · iexact Hw
  isplitl [Hb]; · iexact Hb
  isplitl [Hr]; · iexact Hr
  iexact Ho

/-- The core's unscoped buffers are the six arrays' buffers and the rest. -/
theorem unscoped_split (c : Dev nD) (Vc : (b : Ref sig .tc) → Buf (Elt F) ((c : Thread nD τ).loc b)) :
    (unscopedBufs c Vc : sProp 𝕄) = iprop(Pipeline.arrBufs spec0 c Vc ∗ Pipeline.unscopedRest spec0 c Vc) := by
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

end Cert.Kernel.Layer0

end
-- ==== Proof.K_Run.lean ====
/-
  The whole program as eleven items in a row: six stretches of host operations and, between them, the four layers and
  the final projection, each a staged pipeline over 25 blocks of 4000 nodes.

  Core c's unscoped buffers are followed from the launch to the return: `B0` is the launch memory; after a stretch of
  host operations the buffers are the operations' results over what was there (`B1, B3, …, B11`); after a region they are
  as before except for the region's result array, which holds what the pipeline's 25 write-backs leave (`B2, B4, …, B10`).
  Each region is entered from "every unscoped buffer at the boundary's contents, the generator register at some state,
  nothing owed to another core" and left in the same form at the next boundary's contents; so is each host stretch. The
  launch theorem for a list of such segments then says: every weakly fair execution ends, without a fault, with every
  unscoped buffer at `B11`. What `B11` holds at the arguments (their launch contents: nothing writes an argument) is
  read off at the end of this module; what it holds at the result is the business of the modules after it.
-/
import proofs.«108808_j5119601017047_1_alg».proof.Proof.K_Layer0
import proofs.«108808_j5119601017047_1_alg».proof.Proof.K_Layer1
import proofs.«108808_j5119601017047_1_alg».proof.Proof.K_Layer2
import proofs.«108808_j5119601017047_1_alg».proof.Proof.K_Layer3
import proofs.«108808_j5119601017047_1_alg».proof.Proof.K_Project
import proofs.«108808_j5119601017047_1_alg».proof.Proof.K_Shared
import proofs.«108808_j5119601017047_1_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers at each boundary -/

/-- Core c's buffers at launch. -/
abbrev B0 (c : Dev nD) : Valuation τ sig (Elt F) := fun b => m (c, b)
/-- After host stretch 0: what region 0 is entered from, -/
abbrev B1 (c : Dev nD) : Valuation τ sig (Elt F) := StableHlo.after hostOps0 (B0 m c)
/-- the same read at the TensorCore's references, -/
abbrev in0 : (c : Dev nD) → (b : Ref sig .tc) → Buf (Elt F) ((c : Thread nD τ).loc b) := fun c b => B1 m c b
/-- and after region 0: its result array at what the write-backs leave, every other buffer as entered. -/
def B2 (c : Dev nD) : Valuation τ sig (Elt F) :=
  Function.update (B1 m c) (Proc.devRef .tc main_v21) ((Layer0.dat (in0 m) c).arrAt 6 cfg0.N)
abbrev out0 : (c : Dev nD) → (b : Ref sig .tc) → Buf (Elt F) ((c : Thread nD τ).loc b) := fun c b => B2 m c b
theorem B2_result (c : Dev nD) : B2 m c (Proc.devRef .tc main_v21) = (Layer0.dat (in0 m) c).arrAt 6 cfg0.N := by
  unfold B2; exact Function.update_self ..
theorem B2_keep (c : Dev nD) (b : Ref sig .tc) (hb : b ≠ main_v21) : B2 m c (Proc.devRef .tc b) = B1 m c (Proc.devRef .tc b) := by
  unfold B2; exact Function.update_of_ne (StableHlo.devRef_ne_of_ne hb) ..
set_option maxHeartbeats 2000000 in
/-- Region 0's arrays at its exit: an input array as entered (nothing writes it back), the result array by definition. -/
theorem left0 (c : Dev nD) (w : Fin cfg0.W) : (Layer0.dat (in0 m) c).arrAt w cfg0.N = out0 m c (Pipeline.arrRef spec0 w) := by
  match w with
  | ⟨0, _⟩ => exact (((Layer0.dat (in0 m) c).arrAt_in 0 rfl _).trans (Layer0.dat_A (in0 m) c 0)).trans (B2_keep m c _ (by decide)).symm
  | ⟨1, _⟩ => exact (((Layer0.dat (in0 m) c).arrAt_in 1 rfl _).trans (Layer0.dat_A (in0 m) c 1)).trans (B2_keep m c _ (by decide)).symm
  | ⟨2, _⟩ => exact (((Layer0.dat (in0 m) c).arrAt_in 2 rfl _).trans (Layer0.dat_A (in0 m) c 2)).trans (B2_keep m c _ (by decide)).symm
  | ⟨3, _⟩ => exact (((Layer0.dat (in0 m) c).arrAt_in 3 rfl _).trans (Layer0.dat_A (in0 m) c 3)).trans (B2_keep m c _ (by decide)).symm
  | ⟨4, _⟩ => exact (((Layer0.dat (in0 m) c).arrAt_in 4 rfl _).trans (Layer0.dat_A (in0 m) c 4)).trans (B2_keep m c _ (by decide)).symm
  | ⟨5, _⟩ => exact (((Layer0.dat (in0 m) c).arrAt_in 5 rfl _).trans (Layer0.dat_A (in0 m) c 5)).trans (B2_keep m c _ (by decide)).symm
  | ⟨6, _⟩ => exact (B2_result m c).symm
theorem rest0 (c : Dev nD) : ∀ b, b ∉ Finset.univ.image (Pipeline.arrRef spec0) → out0 m c b = in0 m c b :=
  fun b hb => B2_keep m c b fun e => hb (e ▸ (by decide))
/-- After host stretch 1: what region 1 is entered from, -/
abbrev B3 (c : Dev nD) : Valuation τ sig (Elt F) := StableHlo.after hostOps1 (B2 m c)
/-- the same read at the TensorCore's references, -/
abbrev in1 : (c : Dev nD) → (b : Ref sig .tc) → Buf (Elt F) ((c : Thread nD τ).loc b) := fun c b => B3 m c b
/-- and after region 1: its result array at what the write-backs leave, every other buffer as entered. -/
def B4 (c : Dev nD) : Valuation τ sig (Elt F) :=
  Function.update (B3 m c) (Proc.devRef .tc main_v39) ((Layer1.dat (in1 m) c).arrAt 6 cfg1.N)
abbrev out1 : (c : Dev nD) → (b : Ref sig .tc) → Buf (Elt F) ((c : Thread nD τ).loc b) := fun c b => B4 m c b
theorem B4_result (c : Dev nD) : B4 m c (Proc.devRef .tc main_v39) = (Layer1.dat (in1 m) c).arrAt 6 cfg1.N := by
  unfold B4; exact Function.update_self ..
theorem B4_keep (c : Dev nD) (b : Ref sig .tc) (hb : b ≠ main_v39) : B4 m c (Proc.devRef .tc b) = B3 m c (Proc.devRef .tc b) := by
  unfold B4; exact Function.update_of_ne (StableHlo.devRef_ne_of_ne hb) ..
set_option maxHeartbeats 2000000 in
/-- Region 1's arrays at its exit: an input array as entered (nothing writes it back), the result array by definition. -/
theorem left1 (c : Dev nD) (w : Fin cfg1.W) : (Layer1.dat (in1 m) c).arrAt w cfg1.N = out1 m c (Pipeline.arrRef spec1 w) := by
  match w with
  | ⟨0, _⟩ => exact (((Layer1.dat (in1 m) c).arrAt_in 0 rfl _).trans (Layer1.dat_A (in1 m) c 0)).trans (B4_keep m c _ (by decide)).symm
  | ⟨1, _⟩ => exact (((Layer1.dat (in1 m) c).arrAt_in 1 rfl _).trans (Layer1.dat_A (in1 m) c 1)).trans (B4_keep m c _ (by decide)).symm
  | ⟨2, _⟩ => exact (((Layer1.dat (in1 m) c).arrAt_in 2 rfl _).trans (Layer1.dat_A (in1 m) c 2)).trans (B4_keep m c _ (by decide)).symm
  | ⟨3, _⟩ => exact (((Layer1.dat (in1 m) c).arrAt_in 3 rfl _).trans (Layer1.dat_A (in1 m) c 3)).trans (B4_keep m c _ (by decide)).symm
  | ⟨4, _⟩ => exact (((Layer1.dat (in1 m) c).arrAt_in 4 rfl _).trans (Layer1.dat_A (in1 m) c 4)).trans (B4_keep m c _ (by decide)).symm
  | ⟨5, _⟩ => exact (((Layer1.dat (in1 m) c).arrAt_in 5 rfl _).trans (Layer1.dat_A (in1 m) c 5)).trans (B4_keep m c _ (by decide)).symm
  | ⟨6, _⟩ => exact (B4_result m c).symm
theorem rest1 (c : Dev nD) : ∀ b, b ∉ Finset.univ.image (Pipeline.arrRef spec1) → out1 m c b = in1 m c b :=
  fun b hb => B4_keep m c b fun e => hb (e ▸ (by decide))
/-- After host stretch 2: what region 2 is entered from, -/
abbrev B5 (c : Dev nD) : Valuation τ sig (Elt F) := StableHlo.after hostOps2 (B4 m c)
/-- the same read at the TensorCore's references, -/
abbrev in2 : (c : Dev nD) → (b : Ref sig .tc) → Buf (Elt F) ((c : Thread nD τ).loc b) := fun c b => B5 m c b
/-- and after region 2: its result array at what the write-backs leave, every other buffer as entered. -/
def B6 (c : Dev nD) : Valuation τ sig (Elt F) :=
  Function.update (B5 m c) (Proc.devRef .tc main_v57) ((Layer2.dat (in2 m) c).arrAt 6 cfg2.N)
abbrev out2 : (c : Dev nD) → (b : Ref sig .tc) → Buf (Elt F) ((c : Thread nD τ).loc b) := fun c b => B6 m c b
theorem B6_result (c : Dev nD) : B6 m c (Proc.devRef .tc main_v57) = (Layer2.dat (in2 m) c).arrAt 6 cfg2.N := by
  unfold B6; exact Function.update_self ..
theorem B6_keep (c : Dev nD) (b : Ref sig .tc) (hb : b ≠ main_v57) : B6 m c (Proc.devRef .tc b) = B5 m c (Proc.devRef .tc b) := by
  unfold B6; exact Function.update_of_ne (StableHlo.devRef_ne_of_ne hb) ..
set_option maxHeartbeats 2000000 in
/-- Region 2's arrays at its exit: an input array as entered (nothing writes it back), the result array by definition. -/
theorem left2 (c : Dev nD) (w : Fin cfg2.W) : (Layer2.dat (in2 m) c).arrAt w cfg2.N = out2 m c (Pipeline.arrRef spec2 w) := by
  match w with
  | ⟨0, _⟩ => exact (((Layer2.dat (in2 m) c).arrAt_in 0 rfl _).trans (Layer2.dat_A (in2 m) c 0)).trans (B6_keep m c _ (by decide)).symm
  | ⟨1, _⟩ => exact (((Layer2.dat (in2 m) c).arrAt_in 1 rfl _).trans (Layer2.dat_A (in2 m) c 1)).trans (B6_keep m c _ (by decide)).symm
  | ⟨2, _⟩ => exact (((Layer2.dat (in2 m) c).arrAt_in 2 rfl _).trans (Layer2.dat_A (in2 m) c 2)).trans (B6_keep m c _ (by decide)).symm
  | ⟨3, _⟩ => exact (((Layer2.dat (in2 m) c).arrAt_in 3 rfl _).trans (Layer2.dat_A (in2 m) c 3)).trans (B6_keep m c _ (by decide)).symm
  | ⟨4, _⟩ => exact (((Layer2.dat (in2 m) c).arrAt_in 4 rfl _).trans (Layer2.dat_A (in2 m) c 4)).trans (B6_keep m c _ (by decide)).symm
  | ⟨5, _⟩ => exact (((Layer2.dat (in2 m) c).arrAt_in 5 rfl _).trans (Layer2.dat_A (in2 m) c 5)).trans (B6_keep m c _ (by decide)).symm
  | ⟨6, _⟩ => exact (B6_result m c).symm
theorem rest2 (c : Dev nD) : ∀ b, b ∉ Finset.univ.image (Pipeline.arrRef spec2) → out2 m c b = in2 m c b :=
  fun b hb => B6_keep m c b fun e => hb (e ▸ (by decide))
/-- After host stretch 3: what region 3 is entered from, -/
abbrev B7 (c : Dev nD) : Valuation τ sig (Elt F) := StableHlo.after hostOps3 (B6 m c)
/-- the same read at the TensorCore's references, -/
abbrev in3 : (c : Dev nD) → (b : Ref sig .tc) → Buf (Elt F) ((c : Thread nD τ).loc b) := fun c b => B7 m c b
/-- and after region 3: its result array at what the write-backs leave, every other buffer as entered. -/
def B8 (c : Dev nD) : Valuation τ sig (Elt F) :=
  Function.update (B7 m c) (Proc.devRef .tc main_v75) ((Layer3.dat (in3 m) c).arrAt 6 cfg3.N)
abbrev out3 : (c : Dev nD) → (b : Ref sig .tc) → Buf (Elt F) ((c : Thread nD τ).loc b) := fun c b => B8 m c b
theorem B8_result (c : Dev nD) : B8 m c (Proc.devRef .tc main_v75) = (Layer3.dat (in3 m) c).arrAt 6 cfg3.N := by
  unfold B8; exact Function.update_self ..
theorem B8_keep (c : Dev nD) (b : Ref sig .tc) (hb : b ≠ main_v75) : B8 m c (Proc.devRef .tc b) = B7 m c (Proc.devRef .tc b) := by
  unfold B8; exact Function.update_of_ne (StableHlo.devRef_ne_of_ne hb) ..
set_option maxHeartbeats 2000000 in
/-- Region 3's arrays at its exit: an input array as entered (nothing writes it back), the result array by definition. -/
theorem left3 (c : Dev nD) (w : Fin cfg3.W) : (Layer3.dat (in3 m) c).arrAt w cfg3.N = out3 m c (Pipeline.arrRef spec3 w) := by
  match w with
  | ⟨0, _⟩ => exact (((Layer3.dat (in3 m) c).arrAt_in 0 rfl _).trans (Layer3.dat_A (in3 m) c 0)).trans (B8_keep m c _ (by decide)).symm
  | ⟨1, _⟩ => exact (((Layer3.dat (in3 m) c).arrAt_in 1 rfl _).trans (Layer3.dat_A (in3 m) c 1)).trans (B8_keep m c _ (by decide)).symm
  | ⟨2, _⟩ => exact (((Layer3.dat (in3 m) c).arrAt_in 2 rfl _).trans (Layer3.dat_A (in3 m) c 2)).trans (B8_keep m c _ (by decide)).symm
  | ⟨3, _⟩ => exact (((Layer3.dat (in3 m) c).arrAt_in 3 rfl _).trans (Layer3.dat_A (in3 m) c 3)).trans (B8_keep m c _ (by decide)).symm
  | ⟨4, _⟩ => exact (((Layer3.dat (in3 m) c).arrAt_in 4 rfl _).trans (Layer3.dat_A (in3 m) c 4)).trans (B8_keep m c _ (by decide)).symm
  | ⟨5, _⟩ => exact (((Layer3.dat (in3 m) c).arrAt_in 5 rfl _).trans (Layer3.dat_A (in3 m) c 5)).trans (B8_keep m c _ (by decide)).symm
  | ⟨6, _⟩ => exact (B8_result m c).symm
theorem rest3 (c : Dev nD) : ∀ b, b ∉ Finset.univ.image (Pipeline.arrRef spec3) → out3 m c b = in3 m c b :=
  fun b hb => B8_keep m c b fun e => hb (e ▸ (by decide))
/-- After host stretch 4: what region 4 is entered from, -/
abbrev B9 (c : Dev nD) : Valuation τ sig (Elt F) := StableHlo.after hostOps4 (B8 m c)
/-- the same read at the TensorCore's references, -/
abbrev in4 : (c : Dev nD) → (b : Ref sig .tc) → Buf (Elt F) ((c : Thread nD τ).loc b) := fun c b => B9 m c b
/-- and after region 4: its result array at what the write-backs leave, every other buffer as entered. -/
def B10 (c : Dev nD) : Valuation τ sig (Elt F) :=
  Function.update (B9 m c) (Proc.devRef .tc main_v77) ((Project.dat (in4 m) c).arrAt 3 cfg4.N)
abbrev out4 : (c : Dev nD) → (b : Ref sig .tc) → Buf (Elt F) ((c : Thread nD τ).loc b) := fun c b => B10 m c b
theorem B10_result (c : Dev nD) : B10 m c (Proc.devRef .tc main_v77) = (Project.dat (in4 m) c).arrAt 3 cfg4.N := by
  unfold B10; exact Function.update_self ..
theorem B10_keep (c : Dev nD) (b : Ref sig .tc) (hb : b ≠ main_v77) : B10 m c (Proc.devRef .tc b) = B9 m c (Proc.devRef .tc b) := by
  unfold B10; exact Function.update_of_ne (StableHlo.devRef_ne_of_ne hb) ..
set_option maxHeartbeats 2000000 in
/-- Region 4's arrays at its exit: an input array as entered (nothing writes it back), the result array by definition. -/
theorem left4 (c : Dev nD) (w : Fin cfg4.W) : (Project.dat (in4 m) c).arrAt w cfg4.N = out4 m c (Pipeline.arrRef spec4 w) := by
  match w with
  | ⟨0, _⟩ => exact (((Project.dat (in4 m) c).arrAt_in 0 rfl _).trans (Project.dat_A (in4 m) c 0)).trans (B10_keep m c _ (by decide)).symm
  | ⟨1, _⟩ => exact (((Project.dat (in4 m) c).arrAt_in 1 rfl _).trans (Project.dat_A (in4 m) c 1)).trans (B10_keep m c _ (by decide)).symm
  | ⟨2, _⟩ => exact (((Project.dat (in4 m) c).arrAt_in 2 rfl _).trans (Project.dat_A (in4 m) c 2)).trans (B10_keep m c _ (by decide)).symm
  | ⟨3, _⟩ => exact (B10_result m c).symm
theorem rest4 (c : Dev nD) : ∀ b, b ∉ Finset.univ.image (Pipeline.arrRef spec4) → out4 m c b = in4 m c b :=
  fun b hb => B10_keep m c b fun e => hb (e ▸ (by decide))
/-- After the last host stretch: the return. -/
abbrev B11 (c : Dev nD) : Valuation τ sig (Elt F) := StableHlo.after hostOps5 (B10 m c)

/-! ## The proof data of the five pipelines, and what rides beside the buffers -/

def pdats : (p : Fin 5) → (c : Dev nD) → Dat τ (Elt F) Unit ℕ (UR sig nD τ) ℕ (Pipeline.pin (pcfgs (F := F)) adm p) c
  | ⟨0, _⟩ => fun c => Layer0.dat (in0 m) c
  | ⟨1, _⟩ => fun c => Layer1.dat (in1 m) c
  | ⟨2, _⟩ => fun c => Layer2.dat (in2 m) c
  | ⟨3, _⟩ => fun c => Layer3.dat (in3 m) c
  | ⟨4, _⟩ => fun c => Project.dat (in4 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and nothing owed. -/
abbrev Beside (c : Dev nD) : sProp 𝕄 := iprop((∃ r, prngReg c r) ∗ ∃ W, owes (c : Thread nD τ) (0 : CellTallies nD τ sig Unit) W)
/-- The thread state at a boundary. -/
abbrev At (B : Dev nD → Valuation τ sig (Elt F)) (c : Dev nD) : sProp 𝕄 :=
  iprop(StableHlo.held (c : Thread nD τ) (Pipeline.ucRefs τ sig) (B c) ∗ Beside c)
/-- A stretch of host operations as a segment, from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- LAYER 0: entered from `B1`, left at `B2`. Its six arrays' buffers are taken out of the core's unscoped buffers, x's split
    between the two windows that read it, and put back at the exit contents; the generator register goes into the
    pipeline's invariant and comes back. -/
def layer0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Layer0.body_obligation (in0 m) c).loose
  hwaits := Pipeline.hwaits_of_owed_zero _ _ _ _ L lv 0 fun _ _ => rfl
  pre := At (B1 m)
  post := At (B2 m)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit : (unscopedBufs c (in0 m c) : sProp 𝕄)
        ⊢ iprop((pdats m 0 c).arrays ((pdats m 0 c).arrAt · 0) ∗ Pipeline.unscopedRest spec0 c (in0 m c)) := by
      rw [Layer0.unscoped_split]
      exact sep_mono (Layer0.arrays_of_buffers (in0 m) c (in0 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (in0 m c))
        ⊢ (unscopedBufs c (out0 m c) : sProp 𝕄) := by
      have hfun : ((pdats m 0 c).arrAt · cfg0.N) = fun w => out0 m c (Pipeline.arrRef spec0 w) := funext (left0 m c)
      rw [Layer0.unscoped_split, hfun]
      refine sep_mono (Layer0.buffers_of_arrays (in0 m) c (out0 m c)) (Entails.of_eq ?_)
      unfold Pipeline.unscopedRest
      exact bigSep_congr fun b hb => by rw [rest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1: entered from `B3`, left at `B4`. Its arrays (distinct buffers, each held whole) are taken out of the
    core's unscoped buffers and put back at the exit contents; the generator register goes into the invariant and back. -/
def layer1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (in1 m) c).loose
  hwaits := Pipeline.hwaits_of_owed_zero _ _ _ _ L lv 1 fun _ _ => rfl
  pre := At (B3 m)
  post := At (B4 m)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (out1 m c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2: entered from `B5`, left at `B6`. Its arrays (distinct buffers, each held whole) are taken out of the
    core's unscoped buffers and put back at the exit contents; the generator register goes into the invariant and back. -/
def layer2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (in2 m) c).loose
  hwaits := Pipeline.hwaits_of_owed_zero _ _ _ _ L lv 2 fun _ _ => rfl
  pre := At (B5 m)
  post := At (B6 m)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (out2 m c) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 3: entered from `B7`, left at `B8`. Its arrays (distinct buffers, each held whole) are taken out of the
    core's unscoped buffers and put back at the exit contents; the generator register goes into the invariant and back. -/
def layer3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Layer3.body_obligation (in3 m) c).loose
  hwaits := Pipeline.hwaits_of_owed_zero _ _ _ _ L lv 3 fun _ _ => rfl
  pre := At (B7 m)
  post := At (B8 m)
  X c := iprop(∃ r, prngReg c r)
  Y c := iprop(∃ r, prngReg c r)
  Z c := Pipeline.unscopedRest (Ix := Unit) (Name := ℕ) (U := UR sig nD τ) (Lvl := ℕ) spec3 c (in3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (in3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (in3 m c) (out3 m c) ((pdats m 3 c).arrAt · cfg3.N) (left3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PROJECTION: entered from `B9`, left at `B10`. Its arrays (distinct buffers, each held whole) are taken out of the
    core's unscoped buffers and put back at the exit contents; the generator register goes into the invariant and back. -/
def project : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Project.body_obligation (in4 m) c).loose
  hwaits := Pipeline.hwaits_of_owed_zero _ _ _ _ L lv 4 fun _ _ => rfl
  pre := At (B9 m)
  post := At (B10 m)
  X c := iprop(∃ r, prngReg c r)
  Y c := iprop(∃ r, prngReg c r)
  Z c := Pipeline.unscopedRest (Ix := Unit) (Name := ℕ) (U := UR sig nD τ) (Lvl := ℕ) spec4 c (in4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (in4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (in4 m c) (out4 m c) ((pdats m 4 c).arrAt · cfg4.N) (left4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev items : List (Pipeline.Seg (pcfgs (F := F)) adm (pdats m) () defs₀ 𝒱₀ L lv) :=
  [ .host (stretch hostOps0 hostOps0_sub hostOps0_fresh (B0 m)),
    .region (layer0 m),
    .host (stretch hostOps1 hostOps1_sub hostOps1_fresh (B2 m)),
    .region (layer1 m),
    .host (stretch hostOps2 hostOps2_sub hostOps2_fresh (B4 m)),
    .region (layer2 m),
    .host (stretch hostOps3 hostOps3_sub hostOps3_fresh (B6 m)),
    .region (layer3 m),
    .host (stretch hostOps4 hostOps4_sub hostOps4_fresh (B8 m)),
    .region (project m),
    .host (stretch hostOps5 hostOps5_sub hostOps5_fresh (B10 m)) ]

/-- The printed program IS the run of these items. -/
theorem main_items (c : Dev nD) : main (F := F) c = Pipeline.Seg.run (items m) := (main_chain c).trans (by chain_rfl)

set_option backward.isDefEq.respectTransparency.types false in
/-- THE RUN, on any float instance: from any memory with zero counters every weakly fair execution on the TensorCores
    terminates, nothing faulting, and every final memory holds every unscoped buffer of every core at `B11`. -/
theorem run (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (B0 m))
    (Tₙ := fun c => iprop(StableHlo.held (c : Thread nD τ) (Pipeline.ucRefs τ sig) (B11 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (B11 m c) ∗ Beside c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h => h)

/-! ## Nothing writes an argument -/

theorem B1_keep (c : Dev nD) (r : Ref sig .tc) (h : r ∉ hostOps0_W) : B1 m c (Proc.devRef .tc r) = B0 m c (Proc.devRef .tc r) :=
  StableHlo.after_of_writes_sub hostOps0 _ hostOps0_writes h
theorem B3_keep (c : Dev nD) (r : Ref sig .tc) (h : r ∉ hostOps1_W) : B3 m c (Proc.devRef .tc r) = B2 m c (Proc.devRef .tc r) :=
  StableHlo.after_of_writes_sub hostOps1 _ hostOps1_writes h
theorem B5_keep (c : Dev nD) (r : Ref sig .tc) (h : r ∉ hostOps2_W) : B5 m c (Proc.devRef .tc r) = B4 m c (Proc.devRef .tc r) :=
  StableHlo.after_of_writes_sub hostOps2 _ hostOps2_writes h
theorem B7_keep (c : Dev nD) (r : Ref sig .tc) (h : r ∉ hostOps3_W) : B7 m c (Proc.devRef .tc r) = B6 m c (Proc.devRef .tc r) :=
  StableHlo.after_of_writes_sub hostOps3 _ hostOps3_writes h
theorem B9_keep (c : Dev nD) (r : Ref sig .tc) (h : r ∉ hostOps4_W) : B9 m c (Proc.devRef .tc r) = B8 m c (Proc.devRef .tc r) :=
  StableHlo.after_of_writes_sub hostOps4 _ hostOps4_writes h
theorem B11_keep (c : Dev nD) (r : Ref sig .tc) (h : r ∉ hostOps5_W) : B11 m c (Proc.devRef .tc r) = B10 m c (Proc.devRef .tc r) :=
  StableHlo.after_of_writes_sub hostOps5 _ hostOps5_writes h
/-- A buffer that no host operation writes and that is no region's result array reaches the return as launched. -/
theorem B11_launch (c : Dev nD) (r : Ref sig .tc) (h0 : r ∉ hostOps0_W) (h1 : r ∉ hostOps1_W) (h2 : r ∉ hostOps2_W) (h3 : r ∉ hostOps3_W)
    (h4 : r ∉ hostOps4_W) (h5 : r ∉ hostOps5_W) (g0 : r ≠ main_v21) (g1 : r ≠ main_v39) (g2 : r ≠ main_v57) (g3 : r ≠ main_v75) (g4 : r ≠ main_v77) :
    B11 m c (Proc.devRef .tc r) = m ((c : Thread nD τ).loc r) :=
  (B11_keep m c r h5).trans <| (B10_keep m c r g4).trans <| (B9_keep m c r h4).trans <| (B8_keep m c r g3).trans <|
  (B7_keep m c r h3).trans <| (B6_keep m c r g2).trans <| (B5_keep m c r h2).trans <| (B4_keep m c r g1).trans <|
  (B3_keep m c r h1).trans <| (B2_keep m c r g0).trans <| (B1_keep m c r h0).trans rfl

/-- THE FRAME, on any float instance: the run above, read at the seven argument arrays. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (B11_launch m c main_arg0 (by decide) (by decide) (by decide) (by decide) (by decide) (by decide) (by decide) (by decide) (by decide) (by decide) (by decide)),
    (h c _ (mem_uc main_arg1 (by decide))).trans (B11_launch m c main_arg1 (by decide) (by decide) (by decide) (by decide) (by decide) (by decide) (by decide) (by decide) (by decide) (by decide) (by decide)),
    (h c _ (mem_uc main_arg2 (by decide))).trans (B11_launch m c main_arg2 (by decide) (by decide) (by decide) (by decide) (by decide) (by decide) (by decide) (by decide) (by decide) (by decide) (by decide)),
    (h c _ (mem_uc main_arg3 (by decide))).trans (B11_launch m c main_arg3 (by decide) (by decide) (by decide) (by decide) (by decide) (by decide) (by decide) (by decide) (by decide) (by decide) (by decide)),
    (h c _ (mem_uc main_arg4 (by decide))).trans (B11_launch m c main_arg4 (by decide) (by decide) (by decide) (by decide) (by decide) (by decide) (by decide) (by decide) (by decide) (by decide) (by decide)),
    (h c _ (mem_uc main_arg5 (by decide))).trans (B11_launch m c main_arg5 (by decide) (by decide) (by decide) (by decide) (by decide) (by decide) (by decide) (by decide) (by decide) (by decide) (by decide)),
    (h c _ (mem_uc main_arg6 (by decide))).trans (B11_launch m c main_arg6 (by decide) (by decide) (by decide) (by decide) (by decide) (by decide) (by decide) (by decide) (by decide) (by decide) (by decide))⟩) (run m ρ)

end Cert.Kernel.Whole

end
-- ==== Proof.KI_Layer0.lean ====
/-
  Layer 0 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.KernelIdeal.Launch
import proofs.«108808_j5119601017047_1_alg».proof.Proof.Gen.KernelIdeal.Skeleton
import proofs.«108808_j5119601017047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block whenever the body runs, freshly fetched or kept from the point
    before (a block index that did not move), given that the body leaves the block in place. -/
theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k0_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid0.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc0__layer_kernel i a1 h1 a2 h2 a3 h3 a4 h4 a5 h5 a6 h6 a7 h7) K := by
  simp only [cc0__layer_kernel_eq_skeleton]; unfold cc0__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- In this first layer the current features ARE the input features: windows 1 and 2 read one array, and each holds half
    of it; every other input array is held whole. -/
def inputShare : Fin cfg0.W → PosShare TreeShare
  | ⟨1, _⟩ => fullShare.left
  | ⟨2, _⟩ => fullShare.right
  | _ => fullShare

/-- On core c: the arrays as the region finds them; after the body at point t every input buffer still at its block and
    the result buffer at `result` of the six blocks; the rest of the core's scoped memory and its generator register pass
    through untouched; nothing is owed to another core; the input arrays are held at `inputShare`. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec0 c
  q := inputShare
  owed _ := 0

theorem dat_A (c : Dev nD) (w : Fin cfg0.W) : (dat V c).A w = V c (Pipeline.arrRef spec0 w) := by dsimp only [dat]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) :
    (dat V c).after 6 t = result (blk V c 0 t) (blk V c 1 t) (blk V c 2 t) (blk V c 3 t) (blk V c 4 t) (blk V c 5 t) := by dsimp only [dat]
theorem before0 (c : Dev nD) (t : Fin cfg0.N) (d) : (dat V c).before 0 t d = blk V c 0 t :=
  found0 V (dat V c) (dat_A V c 0) (after0 V c) t d
theorem before1 (c : Dev nD) (t : Fin cfg0.N) (d) : (dat V c).before 1 t d = blk V c 1 t :=
  found1 V (dat V c) (dat_A V c 1) (after1 V c) t d
theorem before2 (c : Dev nD) (t : Fin cfg0.N) (d) : (dat V c).before 2 t d = blk V c 2 t :=
  found2 V (dat V c) (dat_A V c 2) (after2 V c) t d
theorem before3 (c : Dev nD) (t : Fin cfg0.N) (d) : (dat V c).before 3 t d = blk V c 3 t :=
  found3 V (dat V c) (dat_A V c 3) (after3 V c) t d
theorem before4 (c : Dev nD) (t : Fin cfg0.N) (d) : (dat V c).before 4 t d = blk V c 4 t :=
  found4 V (dat V c) (dat_A V c 4) (after4 V c) t d
theorem before5 (c : Dev nD) (t : Fin cfg0.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W0, bigSep_W0]
  exact body_at V c t

end Cert.KernelIdeal.Layer0

end
-- ==== Proof.KI_Layer1.lean ====
/-
  Layer 1 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.KernelIdeal.Launch
import proofs.«108808_j5119601017047_1_alg».proof.Proof.Gen.KernelIdeal.Skeleton
import proofs.«108808_j5119601017047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block whenever the body runs, freshly fetched or kept from the point
    before (a block index that did not move), given that the body leaves the block in place. -/
theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k1_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid1.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc1__layer_kernel i a1 h1 a2 h2 a3 h3 a4 h4 a5 h5 a6 h6 a7 h7) K := by
  simp only [cc1__layer_kernel_eq_skeleton]; unfold cc1__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- On core c: the arrays as the region finds them; after the body at point t every input buffer still at its block and
    the result buffer at `result` of the six blocks; the rest of the core's scoped memory and its generator register pass
    through untouched; nothing is owed to another core; every array is held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by dsimp only [dat]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) :
    (dat V c).after 6 t = result (blk V c 0 t) (blk V c 1 t) (blk V c 2 t) (blk V c 3 t) (blk V c 4 t) (blk V c 5 t) := by dsimp only [dat]
theorem before0 (c : Dev nD) (t : Fin cfg1.N) (d) : (dat V c).before 0 t d = blk V c 0 t :=
  found0 V (dat V c) (dat_A V c 0) (after0 V c) t d
theorem before1 (c : Dev nD) (t : Fin cfg1.N) (d) : (dat V c).before 1 t d = blk V c 1 t :=
  found1 V (dat V c) (dat_A V c 1) (after1 V c) t d
theorem before2 (c : Dev nD) (t : Fin cfg1.N) (d) : (dat V c).before 2 t d = blk V c 2 t :=
  found2 V (dat V c) (dat_A V c 2) (after2 V c) t d
theorem before3 (c : Dev nD) (t : Fin cfg1.N) (d) : (dat V c).before 3 t d = blk V c 3 t :=
  found3 V (dat V c) (dat_A V c 3) (after3 V c) t d
theorem before4 (c : Dev nD) (t : Fin cfg1.N) (d) : (dat V c).before 4 t d = blk V c 4 t :=
  found4 V (dat V c) (dat_A V c 4) (after4 V c) t d
theorem before5 (c : Dev nD) (t : Fin cfg1.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W1, bigSep_W1]
  exact body_at V c t

end Cert.KernelIdeal.Layer1

end
-- ==== Proof.KI_Layer2.lean ====
/-
  Layer 2 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.KernelIdeal.Launch
import proofs.«108808_j5119601017047_1_alg».proof.Proof.Gen.KernelIdeal.Skeleton
import proofs.«108808_j5119601017047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block whenever the body runs, freshly fetched or kept from the point
    before (a block index that did not move), given that the body leaves the block in place. -/
theorem found0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k2_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid2.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc2__layer_kernel i a1 h1 a2 h2 a3 h3 a4 h4 a5 h5 a6 h6 a7 h7) K := by
  simp only [cc2__layer_kernel_eq_skeleton]; unfold cc2__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- On core c: the arrays as the region finds them; after the body at point t every input buffer still at its block and
    the result buffer at `result` of the six blocks; the rest of the core's scoped memory and its generator register pass
    through untouched; nothing is owed to another core; every array is held whole. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec2 c
  q _ := fullShare
  owed _ := 0

theorem dat_A (c : Dev nD) (w : Fin cfg2.W) : (dat V c).A w = V c (Pipeline.arrRef spec2 w) := by dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) :
    (dat V c).after 6 t = result (blk V c 0 t) (blk V c 1 t) (blk V c 2 t) (blk V c 3 t) (blk V c 4 t) (blk V c 5 t) := by dsimp only [dat]
theorem before0 (c : Dev nD) (t : Fin cfg2.N) (d) : (dat V c).before 0 t d = blk V c 0 t :=
  found0 V (dat V c) (dat_A V c 0) (after0 V c) t d
theorem before1 (c : Dev nD) (t : Fin cfg2.N) (d) : (dat V c).before 1 t d = blk V c 1 t :=
  found1 V (dat V c) (dat_A V c 1) (after1 V c) t d
theorem before2 (c : Dev nD) (t : Fin cfg2.N) (d) : (dat V c).before 2 t d = blk V c 2 t :=
  found2 V (dat V c) (dat_A V c 2) (after2 V c) t d
theorem before3 (c : Dev nD) (t : Fin cfg2.N) (d) : (dat V c).before 3 t d = blk V c 3 t :=
  found3 V (dat V c) (dat_A V c 3) (after3 V c) t d
theorem before4 (c : Dev nD) (t : Fin cfg2.N) (d) : (dat V c).before 4 t d = blk V c 4 t :=
  found4 V (dat V c) (dat_A V c 4) (after4 V c) t d
theorem before5 (c : Dev nD) (t : Fin cfg2.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact body_at V c t

end Cert.KernelIdeal.Layer2

end
-- ==== Proof.KI_Layer3.lean ====
/-
  Layer 3 of the network, one block of 4000 nodes at a time, on any float instance.

  At grid point t the body is handed seven staging buffers: rows 4000·t … 4000·t+3999 of the aggregated
  neighbour features, of the current features h and of the input features x (windows 0, 1, 2), the two 64×64
  weight matrices and the 1×64 bias (windows 3, 5 and 4: one block each, the same at every point), and the
  buffer of the same rows of the layer's result (window 6). It reads the six inputs whole, and overwrites the
  result buffer whole with
      max(agg·W_rel + bias + h·W_root, 0) + x
  of what it read. This module says so as a Hoare triple about the body, names what every buffer holds after
  the body at every point (the proof data of the staged pipeline), and concludes the pipeline's obligation on
  the body at every point. Everything is stated at a parameter V: the contents of the core's arrays when the
  region is entered.
-/
import proofs.«108808_j5119601017047_1_alg».proof.Proof.Gen.KernelIdeal.Launch
import proofs.«108808_j5119601017047_1_alg».proof.Proof.Gen.KernelIdeal.Skeleton
import proofs.«108808_j5119601017047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t: 4000 consecutive rows of a node array, or the whole of a weight array, read off
    the array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block whenever the body runs, freshly fetched or kept from the point
    before (a block index that did not move), given that the body leaves the block in place. -/
theorem found0 {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before (a block index that did not move), given that the body leaves the block in place. -/
theorem found1 {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before (a block index that did not move), given that the body leaves the block in place. -/
theorem found2 {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block whenever the body runs, freshly fetched or kept from the point
    before (a block index that did not move), given that the body leaves the block in place. -/
theorem found3 {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block whenever the body runs, freshly fetched or kept from the point
    before (a block index that did not move), given that the body leaves the block in place. -/
theorem found4 {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's staging buffer holds its block whenever the body runs, freshly fetched or kept from the point
    before (a block index that did not move), given that the body leaves the block in place. -/
theorem found5 {c : Dev nD} (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body computes -/

/-- The whole of a 4000×64 buffer, of a 64×64 buffer and of a 1×64 buffer: the only rectangles the body touches. -/
abbrev rowsRect : Rect S4000x64 := Rect.unit (s := S4000x64) ![0, 0] S4000x64.size inb_S4000x64_S4000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-- The result buffer after the body, from the six input blocks: one store of the whole buffer. -/
def result (agg h x : Vec F S4000x64 .f32) (wRel : Vec F S64x64 .f32) (bias : Vec F S1x64 .f32) (wRoot : Vec F S64x64 .f32) : Vec F S4000x64 .f32 :=
  View.canon [⟨rowsRect, k3_pay1 (View.ld agg rowsRect) (View.ld h rowsRect) (View.ld wRel weightRect) (View.ld wRoot weightRect) (View.ld bias biasRect) (View.ld x rowsRect)⟩]

/-- That one store covers the buffer. -/
theorem result_cover (p0 : Vec F S4000x64 .f32) (y : S4000x64.Idx) :
    ∃ pc ∈ ([⟨rowsRect, p0⟩] : List (View.Piece (Elt F) S4000x64 .f32)), y ∈ pc.1.set :=
  View.cover_of_tiled [⟨rowsRect, p0⟩] S4000x64.size (by rfl) y

set_option maxHeartbeats 1000000 in
/-- The body on whole staging buffers: from the six inputs at any contents and the result buffer at anything, it ends with
    the inputs as they were and the result buffer at `result` of them. -/
theorem body_triple (c : Dev nD) (E : Set ℕ) (i : grid3.Coords)
    (a1 : Memref sig .tc .vmem S4000x64 .f32) (h1 : a1.IsWhole) (a2 : Memref sig .tc .vmem S4000x64 .f32) (h2 : a2.IsWhole)
    (a3 : Memref sig .tc .vmem S4000x64 .f32) (h3 : a3.IsWhole) (a4 : Memref sig .tc .vmem S64x64 .f32) (h4 : a4.IsWhole)
    (a5 : Memref sig .tc .vmem S1x64 .f32) (h5 : a5.IsWhole) (a6 : Memref sig .tc .vmem S64x64 .f32) (h6 : a6.IsWhole)
    (a7 : Memref sig .tc .vmem S4000x64 .f32) (h7 : a7.IsWhole)
    (agg h x : Vec F S4000x64 .f32) (wRel : Vec F S64x64 .f32) (bias : Vec F S1x64 .f32) (wRoot : Vec F S64x64 .f32) (K : PUnit → sProp 𝕄) :
    iprop(owns (c : Thread nD τ) a1 fullShare agg ∗ owns (c : Thread nD τ) a2 fullShare h ∗ owns (c : Thread nD τ) a3 fullShare x
        ∗ owns (c : Thread nD τ) a4 fullShare wRel ∗ owns (c : Thread nD τ) a5 fullShare bias ∗ owns (c : Thread nD τ) a6 fullShare wRoot
        ∗ (∃ d, owns (c : Thread nD τ) a7 fullShare d)
        ∗ (iprop(owns (c : Thread nD τ) a1 fullShare agg ∗ owns (c : Thread nD τ) a2 fullShare h ∗ owns (c : Thread nD τ) a3 fullShare x
            ∗ owns (c : Thread nD τ) a4 fullShare wRel ∗ owns (c : Thread nD τ) a5 fullShare bias ∗ owns (c : Thread nD τ) a6 fullShare wRoot
            ∗ owns (c : Thread nD τ) a7 fullShare (result agg h x wRel bias wRoot)) -∗ K ⟨⟩))
      ⊢ wp frame (wpE (defs₀ (F := F)) Variants.none c none) E (cc3__layer_kernel i a1 h1 a2 h2 a3 h3 a4 h4 a5 h5 a6 h6 a7 h7) K := by
  simp only [cc3__layer_kernel_eq_skeleton]; unfold cc3__layer_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (result_cover _)

/-! ## The staged pipeline's proof data -/

/-- On core c: the arrays as the region finds them; after the body at point t every input buffer still at its block and
    the result buffer at `result` of the six blocks; the rest of the core's scoped memory and its generator register pass
    through untouched; nothing is owed to another core; every array is held whole. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => result (blk V c 0 t) (blk V c 1 t) (blk V c 2 t) (blk V c 3 t) (blk V c 4 t) (blk V c 5 t)
  Φ _ := Pipeline.ΦA spec3 c
  q _ := fullShare
  owed _ := 0

theorem dat_A (c : Dev nD) (w : Fin cfg3.W) : (dat V c).A w = V c (Pipeline.arrRef spec3 w) := by dsimp only [dat]
theorem after0 (c : Dev nD) (t : Fin cfg3.N) : (dat V c).after 0 t = blk V c 0 t := by dsimp only [dat]
theorem after1 (c : Dev nD) (t : Fin cfg3.N) : (dat V c).after 1 t = blk V c 1 t := by dsimp only [dat]
theorem after2 (c : Dev nD) (t : Fin cfg3.N) : (dat V c).after 2 t = blk V c 2 t := by dsimp only [dat]
theorem after3 (c : Dev nD) (t : Fin cfg3.N) : (dat V c).after 3 t = blk V c 3 t := by dsimp only [dat]
theorem after4 (c : Dev nD) (t : Fin cfg3.N) : (dat V c).after 4 t = blk V c 4 t := by dsimp only [dat]
theorem after5 (c : Dev nD) (t : Fin cfg3.N) : (dat V c).after 5 t = blk V c 5 t := by dsimp only [dat]
theorem after6 (c : Dev nD) (t : Fin cfg3.N) :
    (dat V c).after 6 t = result (blk V c 0 t) (blk V c 1 t) (blk V c 2 t) (blk V c 3 t) (blk V c 4 t) (blk V c 5 t) := by dsimp only [dat]
theorem before0 (c : Dev nD) (t : Fin cfg3.N) (d) : (dat V c).before 0 t d = blk V c 0 t :=
  found0 V (dat V c) (dat_A V c 0) (after0 V c) t d
theorem before1 (c : Dev nD) (t : Fin cfg3.N) (d) : (dat V c).before 1 t d = blk V c 1 t :=
  found1 V (dat V c) (dat_A V c 1) (after1 V c) t d
theorem before2 (c : Dev nD) (t : Fin cfg3.N) (d) : (dat V c).before 2 t d = blk V c 2 t :=
  found2 V (dat V c) (dat_A V c 2) (after2 V c) t d
theorem before3 (c : Dev nD) (t : Fin cfg3.N) (d) : (dat V c).before 3 t d = blk V c 3 t :=
  found3 V (dat V c) (dat_A V c 3) (after3 V c) t d
theorem before4 (c : Dev nD) (t : Fin cfg3.N) (d) : (dat V c).before 4 t d = blk V c 4 t :=
  found4 V (dat V c) (dat_A V c 4) (after4 V c) t d
theorem before5 (c : Dev nD) (t : Fin cfg3.N) (d) : (dat V c).before 5 t d = blk V c 5 t :=
  found5 V (dat V c) (dat_A V c 5) (after5 V c) t d

/-! ## The pipeline's obligation on the body -/

/-- What the body is called with at point t, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W3, bigSep_W3]
  exact body_at V c t

end Cert.KernelIdeal.Layer3

end
-- ==== Proof.KI_Project.lean ====
/-
  The final projection, one block of 4000 nodes at a time, on any float instance.

  At grid point t the body is handed rows 4000·t … 4000·t+3999 of the last layer's features (window 0), the 64×1
  weight column and the 1×1 bias (windows 1 and 2: one block each, the same at every point) and the buffer of the same
  4000 rows of the 100000×1 result (window 3); it overwrites the result buffer whole with  h·w + b  of what it read.
  As for the layers: the body's Hoare triple, what every buffer holds after the body at every point, and the staged
  pipeline's obligation on the body, all at a parameter V, the core's arrays when the region is entered.
-/
import proofs.«108808_j5119601017047_1_alg».proof.Proof.Gen.KernelIdeal.Launch
import proofs.«108808_j5119601017047_1_alg».proof.Proof.Gen.KernelIdeal.Skeleton
import proofs.«108808_j5119601017047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window hands the body -/

/-- Window w's block at point t, read off the array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block whenever the body runs, freshly fetched or kept from the point
    before, given that the body leaves the block in place. -/
theorem found0 {c : Dev nD} (dat : Dat τ (Elt F) Unit ℕ (UR sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block whenever the body runs, freshly fetched or kept from the point
    before, given that the body leaves the block in place. -/
theorem found1 {c : Dev nD} (dat : Dat τ (Elt F) Unit ℕ (UR sig nD τ) ℕ cfg4 c) (hA : dat.A 1 = V c (Pipeline.arrRef spec4 1))
    (hafter : ∀ t, dat.after 1 t = blk V c 1 t) (t : Fin cfg4.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block whenever the body runs, freshly fetched or kept from the point
    before, given that the body leaves the block in place. -/
theorem found2 {c : Dev nD} (dat : Dat τ (Elt F) Unit ℕ (UR sig nD τ) ℕ cfg4 c) (hA : dat.A 2 = V c (Pipeline.arrRef spec4 2))
    (hafter : ∀ t, dat.after 2 t = blk V c 2 t) (t : Fin cfg4.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body computes -/

abbrev rowsRect : Rect S4000x64 := Rect.unit (s := S4000x64) ![0, 0] S4000x64.size inb_S4000x64_S4000x64_0_0
abbrev weightRect : Rect S64x1 := Rect.unit (s := S64x1) ![0, 0] S64x1.size inb_S64x1_S64x1_0_0
abbrev biasRect : Rect S1x1 := Rect.unit (s := S1x1) ![0, 0] S1x1.size inb_S1x1_S1x1_0_0
abbrev outRect : Rect S4000x1 := Rect.unit (s := S4000x1) ![0, 0] S4000x1.size inb_S4000x1_S4000x1_0_0

/-- The result buffer after the body, from the three input blocks: one store of the whole buffer. -/
def result (h : Vec F S4000x64 .f32) (w : Vec F S64x1 .f32) (b : Vec F S1x1 .f32) : Vec F S4000x1 .f32 :=
  View.canon [⟨outRect, k4_pay1 (View.ld h rowsRect) (View.ld w weightRect) (View.ld b biasRect)⟩]

theorem result_cover (p0 : Vec F S4000x1 .f32) (y : S4000x1.Idx) :
    ∃ pc ∈ ([⟨outRect, p0⟩] : List (View.Piece (Elt F) S4000x1 .f32)), y ∈ pc.1.set :=
  View.cover_of_tiled [⟨outRect, p0⟩] S4000x1.size (by rfl) y

set_option maxHeartbeats 1000000 in
/-- The body on whole staging buffers: the inputs end as they were, the result buffer at `result` of them. -/
theorem body_triple (c : Dev nD) (E : Set ℕ) (i : grid4.Coords)
    (a1 : Memref sig .tc .vmem S4000x64 .f32) (h1 : a1.IsWhole) (a2 : Memref sig .tc .vmem S64x1 .f32) (h2 : a2.IsWhole)
    (a3 : Memref sig .tc .vmem S1x1 .f32) (h3 : a3.IsWhole) (a4 : Memref sig .tc .vmem S4000x1 .f32) (h4 : a4.IsWhole)
    (h : Vec F S4000x64 .f32) (w : Vec F S64x1 .f32) (b : Vec F S1x1 .f32) (K : PUnit → sProp 𝕄) :
    iprop(owns (c : Thread nD τ) a1 fullShare h ∗ owns (c : Thread nD τ) a2 fullShare w ∗ owns (c : Thread nD τ) a3 fullShare b
        ∗ (∃ d, owns (c : Thread nD τ) a4 fullShare d)
        ∗ (iprop(owns (c : Thread nD τ) a1 fullShare h ∗ owns (c : Thread nD τ) a2 fullShare w ∗ owns (c : Thread nD τ) a3 fullShare b
            ∗ owns (c : Thread nD τ) a4 fullShare (result h w b)) -∗ K ⟨⟩))
      ⊢ wp frame (wpE (defs₀ (F := F)) Variants.none c none) E (cc4__fc_kernel i a1 h1 a2 h2 a3 h3 a4 h4) K := by
  simp only [cc4__fc_kernel_eq_skeleton]; unfold cc4__fc_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (result_cover _)

/-! ## The staged pipeline's proof data -/

def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => result (blk V c 0 t) (blk V c 1 t) (blk V c 2 t)
  Φ _ := Pipeline.ΦA spec4 c
  q _ := fullShare
  owed _ := 0

theorem dat_A (c : Dev nD) (w : Fin cfg4.W) : (dat V c).A w = V c (Pipeline.arrRef spec4 w) := by dsimp only [dat]
theorem after0 (c : Dev nD) (t : Fin cfg4.N) : (dat V c).after 0 t = blk V c 0 t := by dsimp only [dat]
theorem after1 (c : Dev nD) (t : Fin cfg4.N) : (dat V c).after 1 t = blk V c 1 t := by dsimp only [dat]
theorem after2 (c : Dev nD) (t : Fin cfg4.N) : (dat V c).after 2 t = blk V c 2 t := by dsimp only [dat]
theorem after3 (c : Dev nD) (t : Fin cfg4.N) : (dat V c).after 3 t = result (blk V c 0 t) (blk V c 1 t) (blk V c 2 t) := by dsimp only [dat]
theorem before0 (c : Dev nD) (t : Fin cfg4.N) (d) : (dat V c).before 0 t d = blk V c 0 t :=
  found0 V (dat V c) (dat_A V c 0) (after0 V c) t d
theorem before1 (c : Dev nD) (t : Fin cfg4.N) (d) : (dat V c).before 1 t d = blk V c 1 t :=
  found1 V (dat V c) (dat_A V c 1) (after1 V c) t d
theorem before2 (c : Dev nD) (t : Fin cfg4.N) (d) : (dat V c).before 2 t d = blk V c 2 t :=
  found2 V (dat V c) (dat_A V c 2) (after2 V c) t d

/-! ## The pipeline's obligation on the body -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t))

theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W4, bigSep_W4]
  exact body_at V c t

end Cert.KernelIdeal.Project

end
-- ==== Proof.KI_Shared.lean ====
/-
  The first layer's arrays, where the input features x stand behind two windows.

  The staged pipeline of layer 0 reads seven windows but only six arrays: the current features and the input features
  are both x. The core holds x whole; the pipeline wants one points-to per window. Splitting the whole of x into its
  left and right halves (and every other array taken as it is) makes the windows' arrays out of the six buffers, and
  joining the halves makes the buffers again: both windows are read-only, so both halves come back at x's contents.
-/
import proofs.«108808_j5119601017047_1_alg».proof.Proof.KI_Layer0

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct arrays behind the seven windows. -/
theorem arr_image : Finset.univ.image (Pipeline.arrRef spec0)
    = ([main_v13, main_arg0, main_v15, main_v20, main_v19, main_v21] : List (Ref sig .tc)).toFinset := by decide

set_option maxHeartbeats 1000000 in
/-- The six buffers, each whole at the contents Vc, are the seven windows' arrays at those contents: x's buffer split in two. -/
theorem arrays_of_buffers (c : Dev nD) (Vc : (b : Ref sig .tc) → Buf (Elt F) ((c : Thread nD τ).loc b))
    :
    (Pipeline.arrBufs spec0 c Vc : sProp 𝕄) ⊢ (dat V c).arrays (fun w => Vc (Pipeline.arrRef spec0 w)) := by
  unfold Pipeline.arrBufs Dat.arrays
  rw [bigSep_eq_bigSepL_of_eq _ arr_image (by decide), bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  simp only [e0, e1, e2, e3, e4, e5, e6]
  rw [show (dat V c).share 0 = fullShare from rfl, show (dat V c).share 1 = fullShare.left from rfl,
    show (dat V c).share 2 = fullShare.right from rfl, show (dat V c).share 3 = fullShare from rfl,
    show (dat V c).share 4 = fullShare from rfl, show (dat V c).share 5 = fullShare from rfl,
    show (dat V c).share 6 = fullShare from rfl]
  rw [show ∀ Φ : Ref sig .tc → sProp 𝕄, bigSepL [main_v13, main_arg0, main_v15, main_v20, main_v19, main_v21] Φ
      = iprop(Φ main_v13 ∗ Φ main_arg0 ∗ Φ main_v15 ∗ Φ main_v20 ∗ Φ main_v19 ∗ Φ main_v21) from fun _ => rfl]
  iintro ⟨Hagg, Hx, Hw, Hb, Hr, Ho⟩
  ihave Hs := (pointsTo_share (PosShare.mem_left_op_right fullShare)).1 $$ Hx
  icases Hs with ⟨Hl, Hrt⟩
  isplitl [Hagg]; · iexact Hagg
  isplitl [Hl]; · iexact Hl
  isplitl [Hrt]; · iexact Hrt
  isplitl [Hw]; · iexact Hw
  isplitl [Hb]; · iexact Hb
  isplitl [Hr]; · iexact Hr
  iexact Ho

set_option maxHeartbeats 1000000 in
/-- and back: the seven windows' arrays at Vc's contents are the six buffers at Vc, x's halves joined. -/
theorem buffers_of_arrays (c : Dev nD) (Vc : (b : Ref sig .tc) → Buf (Elt F) ((c : Thread nD τ).loc b)) :
    (dat V c).arrays (fun w => Vc (Pipeline.arrRef spec0 w)) ⊢ (Pipeline.arrBufs spec0 c Vc : sProp 𝕄) := by
  unfold Pipeline.arrBufs Dat.arrays
  rw [bigSep_eq_bigSepL_of_eq _ arr_image (by decide), bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  simp only [e0, e1, e2, e3, e4, e5, e6]
  rw [show (dat V c).share 0 = fullShare from rfl, show (dat V c).share 1 = fullShare.left from rfl,
    show (dat V c).share 2 = fullShare.right from rfl, show (dat V c).share 3 = fullShare from rfl,
    show (dat V c).share 4 = fullShare from rfl, show (dat V c).share 5 = fullShare from rfl,
    show (dat V c).share 6 = fullShare from rfl]
  rw [show ∀ Φ : Ref sig .tc → sProp 𝕄, bigSepL [main_v13, main_arg0, main_v15, main_v20, main_v19, main_v21] Φ
      = iprop(Φ main_v13 ∗ Φ main_arg0 ∗ Φ main_v15 ∗ Φ main_v20 ∗ Φ main_v19 ∗ Φ main_v21) from fun _ => rfl]
  iintro ⟨Hagg, Hl, Hrt, Hw, Hb, Hr, Ho⟩
  ihave Hx := (pointsTo_share (PosShare.mem_left_op_right fullShare)).2 $$ [Hl Hrt]
  · isplitl [Hl]; · iexact Hl
    iexact Hrt
  isplitl [Hagg]; · iexact Hagg
  isplitl [Hx]; · iexact Hx
  isplitl [Hw]; · iexact Hw
  isplitl [Hb]; · iexact Hb
  isplitl [Hr]; · iexact Hr
  iexact Ho

/-- The core's unscoped buffers are the six arrays' buffers and the rest. -/
theorem unscoped_split (c : Dev nD) (Vc : (b : Ref sig .tc) → Buf (Elt F) ((c : Thread nD τ).loc b)) :
    (unscopedBufs c Vc : sProp 𝕄) = iprop(Pipeline.arrBufs spec0 c Vc ∗ Pipeline.unscopedRest spec0 c Vc) := by
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

end Cert.KernelIdeal.Layer0

end
-- ==== Proof.KI_Run.lean ====
/-
  The whole program as eleven items in a row: six stretches of host operations and, between them, the four layers and
  the final projection, each a staged pipeline over 25 blocks of 4000 nodes.

  Core c's unscoped buffers are followed from the launch to the return: `B0` is the launch memory; after a stretch of
  host operations the buffers are the operations' results over what was there (`B1, B3, …, B11`); after a region they are
  as before except for the region's result array, which holds what the pipeline's 25 write-backs leave (`B2, B4, …, B10`).
  Each region is entered from "every unscoped buffer at the boundary's contents, the generator register at some state,
  nothing owed to another core" and left in the same form at the next boundary's contents; so is each host stretch. The
  launch theorem for a list of such segments then says: every weakly fair execution ends, without a fault, with every
  unscoped buffer at `B11`. What `B11` holds at the arguments (their launch contents: nothing writes an argument) is
  read off at the end of this module; what it holds at the result is the business of the modules after it.
-/
import proofs.«108808_j5119601017047_1_alg».proof.Proof.KI_Layer0
import proofs.«108808_j5119601017047_1_alg».proof.Proof.KI_Layer1
import proofs.«108808_j5119601017047_1_alg».proof.Proof.KI_Layer2
import proofs.«108808_j5119601017047_1_alg».proof.Proof.KI_Layer3
import proofs.«108808_j5119601017047_1_alg».proof.Proof.KI_Project
import proofs.«108808_j5119601017047_1_alg».proof.Proof.KI_Shared
import proofs.«108808_j5119601017047_1_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers at each boundary -/

/-- Core c's buffers at launch. -/
abbrev B0 (c : Dev nD) : Valuation τ sig (Elt F) := fun b => m (c, b)
/-- After host stretch 0: what region 0 is entered from, -/
abbrev B1 (c : Dev nD) : Valuation τ sig (Elt F) := StableHlo.after hostOps0 (B0 m c)
/-- the same read at the TensorCore's references, -/
abbrev in0 : (c : Dev nD) → (b : Ref sig .tc) → Buf (Elt F) ((c : Thread nD τ).loc b) := fun c b => B1 m c b
/-- and after region 0: its result array at what the write-backs leave, every other buffer as entered. -/
def B2 (c : Dev nD) : Valuation τ sig (Elt F) :=
  Function.update (B1 m c) (Proc.devRef .tc main_v21) ((Layer0.dat (in0 m) c).arrAt 6 cfg0.N)
abbrev out0 : (c : Dev nD) → (b : Ref sig .tc) → Buf (Elt F) ((c : Thread nD τ).loc b) := fun c b => B2 m c b
theorem B2_result (c : Dev nD) : B2 m c (Proc.devRef .tc main_v21) = (Layer0.dat (in0 m) c).arrAt 6 cfg0.N := by
  unfold B2; exact Function.update_self ..
theorem B2_keep (c : Dev nD) (b : Ref sig .tc) (hb : b ≠ main_v21) : B2 m c (Proc.devRef .tc b) = B1 m c (Proc.devRef .tc b) := by
  unfold B2; exact Function.update_of_ne (StableHlo.devRef_ne_of_ne hb) ..
set_option maxHeartbeats 2000000 in
/-- Region 0's arrays at its exit: an input array as entered (nothing writes it back), the result array by definition. -/
theorem left0 (c : Dev nD) (w : Fin cfg0.W) : (Layer0.dat (in0 m) c).arrAt w cfg0.N = out0 m c (Pipeline.arrRef spec0 w) := by
  match w with
  | ⟨0, _⟩ => exact (((Layer0.dat (in0 m) c).arrAt_in 0 rfl _).trans (Layer0.dat_A (in0 m) c 0)).trans (B2_keep m c _ (by decide)).symm
  | ⟨1, _⟩ => exact (((Layer0.dat (in0 m) c).arrAt_in 1 rfl _).trans (Layer0.dat_A (in0 m) c 1)).trans (B2_keep m c _ (by decide)).symm
  | ⟨2, _⟩ => exact (((Layer0.dat (in0 m) c).arrAt_in 2 rfl _).trans (Layer0.dat_A (in0 m) c 2)).trans (B2_keep m c _ (by decide)).symm
  | ⟨3, _⟩ => exact (((Layer0.dat (in0 m) c).arrAt_in 3 rfl _).trans (Layer0.dat_A (in0 m) c 3)).trans (B2_keep m c _ (by decide)).symm
  | ⟨4, _⟩ => exact (((Layer0.dat (in0 m) c).arrAt_in 4 rfl _).trans (Layer0.dat_A (in0 m) c 4)).trans (B2_keep m c _ (by decide)).symm
  | ⟨5, _⟩ => exact (((Layer0.dat (in0 m) c).arrAt_in 5 rfl _).trans (Layer0.dat_A (in0 m) c 5)).trans (B2_keep m c _ (by decide)).symm
  | ⟨6, _⟩ => exact (B2_result m c).symm
theorem rest0 (c : Dev nD) : ∀ b, b ∉ Finset.univ.image (Pipeline.arrRef spec0) → out0 m c b = in0 m c b :=
  fun b hb => B2_keep m c b fun e => hb (e ▸ (by decide))
/-- After host stretch 1: what region 1 is entered from, -/
abbrev B3 (c : Dev nD) : Valuation τ sig (Elt F) := StableHlo.after hostOps1 (B2 m c)
/-- the same read at the TensorCore's references, -/
abbrev in1 : (c : Dev nD) → (b : Ref sig .tc) → Buf (Elt F) ((c : Thread nD τ).loc b) := fun c b => B3 m c b
/-- and after region 1: its result array at what the write-backs leave, every other buffer as entered. -/
def B4 (c : Dev nD) : Valuation τ sig (Elt F) :=
  Function.update (B3 m c) (Proc.devRef .tc main_v39) ((Layer1.dat (in1 m) c).arrAt 6 cfg1.N)
abbrev out1 : (c : Dev nD) → (b : Ref sig .tc) → Buf (Elt F) ((c : Thread nD τ).loc b) := fun c b => B4 m c b
theorem B4_result (c : Dev nD) : B4 m c (Proc.devRef .tc main_v39) = (Layer1.dat (in1 m) c).arrAt 6 cfg1.N := by
  unfold B4; exact Function.update_self ..
theorem B4_keep (c : Dev nD) (b : Ref sig .tc) (hb : b ≠ main_v39) : B4 m c (Proc.devRef .tc b) = B3 m c (Proc.devRef .tc b) := by
  unfold B4; exact Function.update_of_ne (StableHlo.devRef_ne_of_ne hb) ..
set_option maxHeartbeats 2000000 in
/-- Region 1's arrays at its exit: an input array as entered (nothing writes it back), the result array by definition. -/
theorem left1 (c : Dev nD) (w : Fin cfg1.W) : (Layer1.dat (in1 m) c).arrAt w cfg1.N = out1 m c (Pipeline.arrRef spec1 w) := by
  match w with
  | ⟨0, _⟩ => exact (((Layer1.dat (in1 m) c).arrAt_in 0 rfl _).trans (Layer1.dat_A (in1 m) c 0)).trans (B4_keep m c _ (by decide)).symm
  | ⟨1, _⟩ => exact (((Layer1.dat (in1 m) c).arrAt_in 1 rfl _).trans (Layer1.dat_A (in1 m) c 1)).trans (B4_keep m c _ (by decide)).symm
  | ⟨2, _⟩ => exact (((Layer1.dat (in1 m) c).arrAt_in 2 rfl _).trans (Layer1.dat_A (in1 m) c 2)).trans (B4_keep m c _ (by decide)).symm
  | ⟨3, _⟩ => exact (((Layer1.dat (in1 m) c).arrAt_in 3 rfl _).trans (Layer1.dat_A (in1 m) c 3)).trans (B4_keep m c _ (by decide)).symm
  | ⟨4, _⟩ => exact (((Layer1.dat (in1 m) c).arrAt_in 4 rfl _).trans (Layer1.dat_A (in1 m) c 4)).trans (B4_keep m c _ (by decide)).symm
  | ⟨5, _⟩ => exact (((Layer1.dat (in1 m) c).arrAt_in 5 rfl _).trans (Layer1.dat_A (in1 m) c 5)).trans (B4_keep m c _ (by decide)).symm
  | ⟨6, _⟩ => exact (B4_result m c).symm
theorem rest1 (c : Dev nD) : ∀ b, b ∉ Finset.univ.image (Pipeline.arrRef spec1) → out1 m c b = in1 m c b :=
  fun b hb => B4_keep m c b fun e => hb (e ▸ (by decide))
/-- After host stretch 2: what region 2 is entered from, -/
abbrev B5 (c : Dev nD) : Valuation τ sig (Elt F) := StableHlo.after hostOps2 (B4 m c)
/-- the same read at the TensorCore's references, -/
abbrev in2 : (c : Dev nD) → (b : Ref sig .tc) → Buf (Elt F) ((c : Thread nD τ).loc b) := fun c b => B5 m c b
/-- and after region 2: its result array at what the write-backs leave, every other buffer as entered. -/
def B6 (c : Dev nD) : Valuation τ sig (Elt F) :=
  Function.update (B5 m c) (Proc.devRef .tc main_v57) ((Layer2.dat (in2 m) c).arrAt 6 cfg2.N)
abbrev out2 : (c : Dev nD) → (b : Ref sig .tc) → Buf (Elt F) ((c : Thread nD τ).loc b) := fun c b => B6 m c b
theorem B6_result (c : Dev nD) : B6 m c (Proc.devRef .tc main_v57) = (Layer2.dat (in2 m) c).arrAt 6 cfg2.N := by
  unfold B6; exact Function.update_self ..
theorem B6_keep (c : Dev nD) (b : Ref sig .tc) (hb : b ≠ main_v57) : B6 m c (Proc.devRef .tc b) = B5 m c (Proc.devRef .tc b) := by
  unfold B6; exact Function.update_of_ne (StableHlo.devRef_ne_of_ne hb) ..
set_option maxHeartbeats 2000000 in
/-- Region 2's arrays at its exit: an input array as entered (nothing writes it back), the result array by definition. -/
theorem left2 (c : Dev nD) (w : Fin cfg2.W) : (Layer2.dat (in2 m) c).arrAt w cfg2.N = out2 m c (Pipeline.arrRef spec2 w) := by
  match w with
  | ⟨0, _⟩ => exact (((Layer2.dat (in2 m) c).arrAt_in 0 rfl _).trans (Layer2.dat_A (in2 m) c 0)).trans (B6_keep m c _ (by decide)).symm
  | ⟨1, _⟩ => exact (((Layer2.dat (in2 m) c).arrAt_in 1 rfl _).trans (Layer2.dat_A (in2 m) c 1)).trans (B6_keep m c _ (by decide)).symm
  | ⟨2, _⟩ => exact (((Layer2.dat (in2 m) c).arrAt_in 2 rfl _).trans (Layer2.dat_A (in2 m) c 2)).trans (B6_keep m c _ (by decide)).symm
  | ⟨3, _⟩ => exact (((Layer2.dat (in2 m) c).arrAt_in 3 rfl _).trans (Layer2.dat_A (in2 m) c 3)).trans (B6_keep m c _ (by decide)).symm
  | ⟨4, _⟩ => exact (((Layer2.dat (in2 m) c).arrAt_in 4 rfl _).trans (Layer2.dat_A (in2 m) c 4)).trans (B6_keep m c _ (by decide)).symm
  | ⟨5, _⟩ => exact (((Layer2.dat (in2 m) c).arrAt_in 5 rfl _).trans (Layer2.dat_A (in2 m) c 5)).trans (B6_keep m c _ (by decide)).symm
  | ⟨6, _⟩ => exact (B6_result m c).symm
theorem rest2 (c : Dev nD) : ∀ b, b ∉ Finset.univ.image (Pipeline.arrRef spec2) → out2 m c b = in2 m c b :=
  fun b hb => B6_keep m c b fun e => hb (e ▸ (by decide))
/-- After host stretch 3: what region 3 is entered from, -/
abbrev B7 (c : Dev nD) : Valuation τ sig (Elt F) := StableHlo.after hostOps3 (B6 m c)
/-- the same read at the TensorCore's references, -/
abbrev in3 : (c : Dev nD) → (b : Ref sig .tc) → Buf (Elt F) ((c : Thread nD τ).loc b) := fun c b => B7 m c b
/-- and after region 3: its result array at what the write-backs leave, every other buffer as entered. -/
def B8 (c : Dev nD) : Valuation τ sig (Elt F) :=
  Function.update (B7 m c) (Proc.devRef .tc main_v75) ((Layer3.dat (in3 m) c).arrAt 6 cfg3.N)
abbrev out3 : (c : Dev nD) → (b : Ref sig .tc) → Buf (Elt F) ((c : Thread nD τ).loc b) := fun c b => B8 m c b
theorem B8_result (c : Dev nD) : B8 m c (Proc.devRef .tc main_v75) = (Layer3.dat (in3 m) c).arrAt 6 cfg3.N := by
  unfold B8; exact Function.update_self ..
theorem B8_keep (c : Dev nD) (b : Ref sig .tc) (hb : b ≠ main_v75) : B8 m c (Proc.devRef .tc b) = B7 m c (Proc.devRef .tc b) := by
  unfold B8; exact Function.update_of_ne (StableHlo.devRef_ne_of_ne hb) ..
set_option maxHeartbeats 2000000 in
/-- Region 3's arrays at its exit: an input array as entered (nothing writes it back), the result array by definition. -/
theorem left3 (c : Dev nD) (w : Fin cfg3.W) : (Layer3.dat (in3 m) c).arrAt w cfg3.N = out3 m c (Pipeline.arrRef spec3 w) := by
  match w with
  | ⟨0, _⟩ => exact (((Layer3.dat (in3 m) c).arrAt_in 0 rfl _).trans (Layer3.dat_A (in3 m) c 0)).trans (B8_keep m c _ (by decide)).symm
  | ⟨1, _⟩ => exact (((Layer3.dat (in3 m) c).arrAt_in 1 rfl _).trans (Layer3.dat_A (in3 m) c 1)).trans (B8_keep m c _ (by decide)).symm
  | ⟨2, _⟩ => exact (((Layer3.dat (in3 m) c).arrAt_in 2 rfl _).trans (Layer3.dat_A (in3 m) c 2)).trans (B8_keep m c _ (by decide)).symm
  | ⟨3, _⟩ => exact (((Layer3.dat (in3 m) c).arrAt_in 3 rfl _).trans (Layer3.dat_A (in3 m) c 3)).trans (B8_keep m c _ (by decide)).symm
  | ⟨4, _⟩ => exact (((Layer3.dat (in3 m) c).arrAt_in 4 rfl _).trans (Layer3.dat_A (in3 m) c 4)).trans (B8_keep m c _ (by decide)).symm
  | ⟨5, _⟩ => exact (((Layer3.dat (in3 m) c).arrAt_in 5 rfl _).trans (Layer3.dat_A (in3 m) c 5)).trans (B8_keep m c _ (by decide)).symm
  | ⟨6, _⟩ => exact (B8_result m c).symm
theorem rest3 (c : Dev nD) : ∀ b, b ∉ Finset.univ.image (Pipeline.arrRef spec3) → out3 m c b = in3 m c b :=
  fun b hb => B8_keep m c b fun e => hb (e ▸ (by decide))
/-- After host stretch 4: what region 4 is entered from, -/
abbrev B9 (c : Dev nD) : Valuation τ sig (Elt F) := StableHlo.after hostOps4 (B8 m c)
/-- the same read at the TensorCore's references, -/
abbrev in4 : (c : Dev nD) → (b : Ref sig .tc) → Buf (Elt F) ((c : Thread nD τ).loc b) := fun c b => B9 m c b
/-- and after region 4: its result array at what the write-backs leave, every other buffer as entered. -/
def B10 (c : Dev nD) : Valuation τ sig (Elt F) :=
  Function.update (B9 m c) (Proc.devRef .tc main_v77) ((Project.dat (in4 m) c).arrAt 3 cfg4.N)
abbrev out4 : (c : Dev nD) → (b : Ref sig .tc) → Buf (Elt F) ((c : Thread nD τ).loc b) := fun c b => B10 m c b
theorem B10_result (c : Dev nD) : B10 m c (Proc.devRef .tc main_v77) = (Project.dat (in4 m) c).arrAt 3 cfg4.N := by
  unfold B10; exact Function.update_self ..
theorem B10_keep (c : Dev nD) (b : Ref sig .tc) (hb : b ≠ main_v77) : B10 m c (Proc.devRef .tc b) = B9 m c (Proc.devRef .tc b) := by
  unfold B10; exact Function.update_of_ne (StableHlo.devRef_ne_of_ne hb) ..
set_option maxHeartbeats 2000000 in
/-- Region 4's arrays at its exit: an input array as entered (nothing writes it back), the result array by definition. -/
theorem left4 (c : Dev nD) (w : Fin cfg4.W) : (Project.dat (in4 m) c).arrAt w cfg4.N = out4 m c (Pipeline.arrRef spec4 w) := by
  match w with
  | ⟨0, _⟩ => exact (((Project.dat (in4 m) c).arrAt_in 0 rfl _).trans (Project.dat_A (in4 m) c 0)).trans (B10_keep m c _ (by decide)).symm
  | ⟨1, _⟩ => exact (((Project.dat (in4 m) c).arrAt_in 1 rfl _).trans (Project.dat_A (in4 m) c 1)).trans (B10_keep m c _ (by decide)).symm
  | ⟨2, _⟩ => exact (((Project.dat (in4 m) c).arrAt_in 2 rfl _).trans (Project.dat_A (in4 m) c 2)).trans (B10_keep m c _ (by decide)).symm
  | ⟨3, _⟩ => exact (B10_result m c).symm
theorem rest4 (c : Dev nD) : ∀ b, b ∉ Finset.univ.image (Pipeline.arrRef spec4) → out4 m c b = in4 m c b :=
  fun b hb => B10_keep m c b fun e => hb (e ▸ (by decide))
/-- After the last host stretch: the return. -/
abbrev B11 (c : Dev nD) : Valuation τ sig (Elt F) := StableHlo.after hostOps5 (B10 m c)

/-! ## The proof data of the five pipelines, and what rides beside the buffers -/

def pdats : (p : Fin 5) → (c : Dev nD) → Dat τ (Elt F) Unit ℕ (UR sig nD τ) ℕ (Pipeline.pin (pcfgs (F := F)) adm p) c
  | ⟨0, _⟩ => fun c => Layer0.dat (in0 m) c
  | ⟨1, _⟩ => fun c => Layer1.dat (in1 m) c
  | ⟨2, _⟩ => fun c => Layer2.dat (in2 m) c
  | ⟨3, _⟩ => fun c => Layer3.dat (in3 m) c
  | ⟨4, _⟩ => fun c => Project.dat (in4 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and nothing owed. -/
abbrev Beside (c : Dev nD) : sProp 𝕄 := iprop((∃ r, prngReg c r) ∗ ∃ W, owes (c : Thread nD τ) (0 : CellTallies nD τ sig Unit) W)
/-- The thread state at a boundary. -/
abbrev At (B : Dev nD → Valuation τ sig (Elt F)) (c : Dev nD) : sProp 𝕄 :=
  iprop(StableHlo.held (c : Thread nD τ) (Pipeline.ucRefs τ sig) (B c) ∗ Beside c)
/-- A stretch of host operations as a segment, from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- LAYER 0: entered from `B1`, left at `B2`. Its six arrays' buffers are taken out of the core's unscoped buffers, x's split
    between the two windows that read it, and put back at the exit contents; the generator register goes into the
    pipeline's invariant and comes back. -/
def layer0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Layer0.body_obligation (in0 m) c).loose
  hwaits := Pipeline.hwaits_of_owed_zero _ _ _ _ L lv 0 fun _ _ => rfl
  pre := At (B1 m)
  post := At (B2 m)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit : (unscopedBufs c (in0 m c) : sProp 𝕄)
        ⊢ iprop((pdats m 0 c).arrays ((pdats m 0 c).arrAt · 0) ∗ Pipeline.unscopedRest spec0 c (in0 m c)) := by
      rw [Layer0.unscoped_split]
      exact sep_mono (Layer0.arrays_of_buffers (in0 m) c (in0 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (in0 m c))
        ⊢ (unscopedBufs c (out0 m c) : sProp 𝕄) := by
      have hfun : ((pdats m 0 c).arrAt · cfg0.N) = fun w => out0 m c (Pipeline.arrRef spec0 w) := funext (left0 m c)
      rw [Layer0.unscoped_split, hfun]
      refine sep_mono (Layer0.buffers_of_arrays (in0 m) c (out0 m c)) (Entails.of_eq ?_)
      unfold Pipeline.unscopedRest
      exact bigSep_congr fun b hb => by rw [rest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1: entered from `B3`, left at `B4`. Its arrays (distinct buffers, each held whole) are taken out of the
    core's unscoped buffers and put back at the exit contents; the generator register goes into the invariant and back. -/
def layer1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (in1 m) c).loose
  hwaits := Pipeline.hwaits_of_owed_zero _ _ _ _ L lv 1 fun _ _ => rfl
  pre := At (B3 m)
  post := At (B4 m)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (out1 m c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2: entered from `B5`, left at `B6`. Its arrays (distinct buffers, each held whole) are taken out of the
    core's unscoped buffers and put back at the exit contents; the generator register goes into the invariant and back. -/
def layer2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (in2 m) c).loose
  hwaits := Pipeline.hwaits_of_owed_zero _ _ _ _ L lv 2 fun _ _ => rfl
  pre := At (B5 m)
  post := At (B6 m)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (out2 m c) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 3: entered from `B7`, left at `B8`. Its arrays (distinct buffers, each held whole) are taken out of the
    core's unscoped buffers and put back at the exit contents; the generator register goes into the invariant and back. -/
def layer3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Layer3.body_obligation (in3 m) c).loose
  hwaits := Pipeline.hwaits_of_owed_zero _ _ _ _ L lv 3 fun _ _ => rfl
  pre := At (B7 m)
  post := At (B8 m)
  X c := iprop(∃ r, prngReg c r)
  Y c := iprop(∃ r, prngReg c r)
  Z c := Pipeline.unscopedRest (Ix := Unit) (Name := ℕ) (U := UR sig nD τ) (Lvl := ℕ) spec3 c (in3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (in3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (in3 m c) (out3 m c) ((pdats m 3 c).arrAt · cfg3.N) (left3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PROJECTION: entered from `B9`, left at `B10`. Its arrays (distinct buffers, each held whole) are taken out of the
    core's unscoped buffers and put back at the exit contents; the generator register goes into the invariant and back. -/
def project : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Project.body_obligation (in4 m) c).loose
  hwaits := Pipeline.hwaits_of_owed_zero _ _ _ _ L lv 4 fun _ _ => rfl
  pre := At (B9 m)
  post := At (B10 m)
  X c := iprop(∃ r, prngReg c r)
  Y c := iprop(∃ r, prngReg c r)
  Z c := Pipeline.unscopedRest (Ix := Unit) (Name := ℕ) (U := UR sig nD τ) (Lvl := ℕ) spec4 c (in4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (in4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (in4 m c) (out4 m c) ((pdats m 4 c).arrAt · cfg4.N) (left4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev items : List (Pipeline.Seg (pcfgs (F := F)) adm (pdats m) () defs₀ 𝒱₀ L lv) :=
  [ .host (stretch hostOps0 hostOps0_sub hostOps0_fresh (B0 m)),
    .region (layer0 m),
    .host (stretch hostOps1 hostOps1_sub hostOps1_fresh (B2 m)),
    .region (layer1 m),
    .host (stretch hostOps2 hostOps2_sub hostOps2_fresh (B4 m)),
    .region (layer2 m),
    .host (stretch hostOps3 hostOps3_sub hostOps3_fresh (B6 m)),
    .region (layer3 m),
    .host (stretch hostOps4 hostOps4_sub hostOps4_fresh (B8 m)),
    .region (project m),
    .host (stretch hostOps5 hostOps5_sub hostOps5_fresh (B10 m)) ]

/-- The printed program IS the run of these items. -/
theorem main_items (c : Dev nD) : main (F := F) c = Pipeline.Seg.run (items m) := (main_chain c).trans (by chain_rfl)

set_option backward.isDefEq.respectTransparency.types false in
/-- THE RUN, on any float instance: from any memory with zero counters every weakly fair execution on the TensorCores
    terminates, nothing faulting, and every final memory holds every unscoped buffer of every core at `B11`. -/
theorem run (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (B0 m))
    (Tₙ := fun c => iprop(StableHlo.held (c : Thread nD τ) (Pipeline.ucRefs τ sig) (B11 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (B11 m c) ∗ Beside c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h => h)

/-! ## Nothing writes an argument -/

theorem B1_keep (c : Dev nD) (r : Ref sig .tc) (h : r ∉ hostOps0_W) : B1 m c (Proc.devRef .tc r) = B0 m c (Proc.devRef .tc r) :=
  StableHlo.after_of_writes_sub hostOps0 _ hostOps0_writes h
theorem B3_keep (c : Dev nD) (r : Ref sig .tc) (h : r ∉ hostOps1_W) : B3 m c (Proc.devRef .tc r) = B2 m c (Proc.devRef .tc r) :=
  StableHlo.after_of_writes_sub hostOps1 _ hostOps1_writes h
theorem B5_keep (c : Dev nD) (r : Ref sig .tc) (h : r ∉ hostOps2_W) : B5 m c (Proc.devRef .tc r) = B4 m c (Proc.devRef .tc r) :=
  StableHlo.after_of_writes_sub hostOps2 _ hostOps2_writes h
theorem B7_keep (c : Dev nD) (r : Ref sig .tc) (h : r ∉ hostOps3_W) : B7 m c (Proc.devRef .tc r) = B6 m c (Proc.devRef .tc r) :=
  StableHlo.after_of_writes_sub hostOps3 _ hostOps3_writes h
theorem B9_keep (c : Dev nD) (r : Ref sig .tc) (h : r ∉ hostOps4_W) : B9 m c (Proc.devRef .tc r) = B8 m c (Proc.devRef .tc r) :=
  StableHlo.after_of_writes_sub hostOps4 _ hostOps4_writes h
theorem B11_keep (c : Dev nD) (r : Ref sig .tc) (h : r ∉ hostOps5_W) : B11 m c (Proc.devRef .tc r) = B10 m c (Proc.devRef .tc r) :=
  StableHlo.after_of_writes_sub hostOps5 _ hostOps5_writes h
/-- A buffer that no host operation writes and that is no region's result array reaches the return as launched. -/
theorem B11_launch (c : Dev nD) (r : Ref sig .tc) (h0 : r ∉ hostOps0_W) (h1 : r ∉ hostOps1_W) (h2 : r ∉ hostOps2_W) (h3 : r ∉ hostOps3_W)
    (h4 : r ∉ hostOps4_W) (h5 : r ∉ hostOps5_W) (g0 : r ≠ main_v21) (g1 : r ≠ main_v39) (g2 : r ≠ main_v57) (g3 : r ≠ main_v75) (g4 : r ≠ main_v77) :
    B11 m c (Proc.devRef .tc r) = m ((c : Thread nD τ).loc r) :=
  (B11_keep m c r h5).trans <| (B10_keep m c r g4).trans <| (B9_keep m c r h4).trans <| (B8_keep m c r g3).trans <|
  (B7_keep m c r h3).trans <| (B6_keep m c r g2).trans <| (B5_keep m c r h2).trans <| (B4_keep m c r g1).trans <|
  (B3_keep m c r h1).trans <| (B2_keep m c r g0).trans <| (B1_keep m c r h0).trans rfl

/-- THE FRAME, on any float instance: the run above, read at the seven argument arrays. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (B11_launch m c main_arg0 (by decide) (by decide) (by decide) (by decide) (by decide) (by decide) (by decide) (by decide) (by decide) (by decide) (by decide)),
    (h c _ (mem_uc main_arg1 (by decide))).trans (B11_launch m c main_arg1 (by decide) (by decide) (by decide) (by decide) (by decide) (by decide) (by decide) (by decide) (by decide) (by decide) (by decide)),
    (h c _ (mem_uc main_arg2 (by decide))).trans (B11_launch m c main_arg2 (by decide) (by decide) (by decide) (by decide) (by decide) (by decide) (by decide) (by decide) (by decide) (by decide) (by decide)),
    (h c _ (mem_uc main_arg3 (by decide))).trans (B11_launch m c main_arg3 (by decide) (by decide) (by decide) (by decide) (by decide) (by decide) (by decide) (by decide) (by decide) (by decide) (by decide)),
    (h c _ (mem_uc main_arg4 (by decide))).trans (B11_launch m c main_arg4 (by decide) (by decide) (by decide) (by decide) (by decide) (by decide) (by decide) (by decide) (by decide) (by decide) (by decide)),
    (h c _ (mem_uc main_arg5 (by decide))).trans (B11_launch m c main_arg5 (by decide) (by decide) (by decide) (by decide) (by decide) (by decide) (by decide) (by decide) (by decide) (by decide) (by decide)),
    (h c _ (mem_uc main_arg6 (by decide))).trans (B11_launch m c main_arg6 (by decide) (by decide) (by decide) (by decide) (by decide) (by decide) (by decide) (by decide) (by decide) (by decide) (by decide))⟩) (run m ρ)

end Cert.KernelIdeal.Whole

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowsProduct.lean ====
/-
  A product of an M×K array with a K×N matrix as ONE function of the two arrays: entry (p, q) is row p of the left
  array times the matrix, at column q, and depends on no other row.  The host's dot_general of the plain dimension
  numbers is that function.  So when the rows are cut into consecutive blocks and each block is multiplied by the whole
  matrix, the blocks laid end to end are the whole product.
-/
import Idealize.ShloMosaic.Lib.ValueIdx
import Idealize.ShloMosaic.PureOps.Ideal.Laws
import proofs.«108808_j5119601017047_1_alg».proof.Proof.LibRowDot

noncomputable section

open scoped BigOperators

namespace Cert.RowsProduct

open Idealize.ShloMosaic Idealize.ShloMosaic.ValueIdx Cert.RowDot

/-- The whole product: entry i is (row (i 0) of x) · w at column (i 1). -/
def rowsTimes {M K N : Nat} (x : (⟨2, ![M, K]⟩ : Shape).Idx → EReal) (w : (⟨2, ![K, N]⟩ : Shape).Idx → EReal) :
    (⟨2, ![M, N]⟩ : Shape).Idx → EReal :=
  fun i => rowDot (rowOf x (i 0)) w (i 1)

/-- The host's product of the plain dimension numbers is the whole product. -/
theorem hostDot_eq_rowsTimes {M K N : Nat} (prec : Option ContractPrecision)
    (x : FVec Ideal (⟨2, ![M, K]⟩ : Shape) .f32) (w : FVec Ideal (⟨2, ![K, N]⟩ : Shape) .f32) :
    Host.dotGeneral (F := Ideal) (DotDims.plain M K N) prec x w = rowsTimes x w :=
  funext fun j => dotGeneral_plain_apply prec .single x w j

/-- The vector unit's product into zero of a block of rows, after the changes of float format that keep every value:
    entry j is row (j 0) of the block times the matrix at column (j 1). -/
theorem blockDot_apply {M K N : Nat} {ψ₁ ψ₂ : FTy} (prec : Option ContractPrecision) (h₁ : ψ₁.bits < FTy.f32.bits) (h₂ : ψ₂.bits < FTy.f32.bits)
    (a : FVec Ideal (⟨2, ![M, K]⟩ : Shape) .f32) (w : FVec Ideal (⟨2, ![K, N]⟩ : Shape) .f32) (j : (⟨2, ![M, N]⟩ : Shape).Idx) :
    matmul (DotDims.plain M K N) prec (truncf ψ₁ a h₁) (truncf ψ₂ w h₂)
        (constant (F := Ideal) ⟨2, ![M, N]⟩ .f32 0x00000000#32) j
      = rowDot (rowOf a (j 0)) w (j 1) :=
  matmul_plain_zero_apply prec (φ₁ := ψ₁) (φ₂ := ψ₂) a w j

end Cert.RowsProduct

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.LibResidualLayer.lean ====
/-
  One message-passing layer with a residual, as ONE function of whole arrays, at the exact (extended-real) values.

  For an M×K array agg of aggregated neighbour features, an M×K array h of current features, an M×N array x, two K×N
  matrices W and W' and a 1×N bias row b, the layer's entry (p, q) is

      max( (agg_p · W)(q) + b(q) + (h_p · W')(q), 0 ) + x(p, q),

  row p of agg and of h times the matrices: no other row enters. Two spellings of it occur. The host's works on the
  whole arrays: two dot_generals, the bias given as a length-N vector and spread over the rows, the maximum with a
  spread zero, the sum with x. The vector unit's works on a block of M' of the rows: both operands of each product
  changed to a narrower float format (which keeps every value), the product into a zero accumulator, the bias kept as
  a 1×N row and spread over the block's rows, the maximum with a splat zero, the sum with the block of x. Both are
  `layer`; and because rows do not mix, the layer of a block of rows is the block of rows of the layer.

  The final projection  h_p · w + b  (K×1 column w, one bias number) is the same without the second product, the
  rectifier and the residual: `affine`.
-/
import Idealize.ShloMosaic.Lib.ValueIdx
import Idealize.ShloMosaic.Lib.Pipeline.Value
import Idealize.ShloMosaic.PureOps.Ideal.Laws
import proofs.«108808_j5119601017047_1_alg».proof.Proof.LibRowsProduct
import proofs.«108808_j5119601017047_1_alg».proof.Proof.LibRowBias

noncomputable section

open scoped BigOperators

namespace Cert.ResidualLayer

open Idealize.ShloMosaic Idealize.ShloMosaic.ValueIdx Cert.RowDot Cert.RowsProduct Cert.RowBias

variable {M K N : Nat}

/-- Rows times a matrix, plus a bias row on every row. -/
def affine (h : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => rowsTimes h W i + b (ix2 0 (i 1))

/-- The layer on whole arrays. -/
def layer (agg h : (⟨2, ![M, K]⟩ : Shape).Idx → EReal) (x : (⟨2, ![M, N]⟩ : Shape).Idx → EReal)
    (W W' : (⟨2, ![K, N]⟩ : Shape).Idx → EReal) (b : (⟨2, ![1, N]⟩ : Shape).Idx → EReal) : (⟨2, ![M, N]⟩ : Shape).Idx → EReal :=
  fun i => max (affine agg W b i + rowsTimes h W' i) (Ideal.ofBits .f32 0x00000000#32) + x i

/-! ## The host's spelling -/

theorem host_affine_eq (prec : Option ContractPrecision) (h : FVec Ideal (⟨2, ![M, K]⟩ : Shape) .f32)
    (W : FVec Ideal (⟨2, ![K, N]⟩ : Shape) .f32) (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral (F := Ideal) (DotDims.plain M K N) prec h W)
        (broadcastInDim ⟨2, ![M, N]⟩ ![0, 1] h2 (broadcastInDim ⟨2, ![1, N]⟩ ![1] h1 b))
      = affine h W (shapeCast ⟨2, ![1, N]⟩ b hc) := by
  rw [hostDot_eq_rowsTimes, addf_hostSpread_eq _ _ h1 h2 hc]
  rfl

theorem host_layer_eq (prec : Option ContractPrecision) (agg h : FVec Ideal (⟨2, ![M, K]⟩ : Shape) .f32)
    (x : FVec Ideal (⟨2, ![M, N]⟩ : Shape) .f32) (W W' : FVec Ideal (⟨2, ![K, N]⟩ : Shape) .f32)
    (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ ![]) :
    addf (maximumf (addf (addf (Host.dotGeneral (F := Ideal) (DotDims.plain M K N) prec agg W)
            (broadcastInDim ⟨2, ![M, N]⟩ ![0, 1] h2 (broadcastInDim ⟨2, ![1, N]⟩ ![1] h1 b)))
          (Host.dotGeneral (F := Ideal) (DotDims.plain M K N) prec h W'))
        (broadcastInDim ⟨2, ![M, N]⟩ ![] h0 (constant (F := Ideal) ⟨0, ![]⟩ .f32 0x00000000#32))) x
      = layer agg h x W W' (shapeCast ⟨2, ![1, N]⟩ b hc) := by
  rw [host_affine_eq prec agg W b h1 h2 hc, hostDot_eq_rowsTimes, maximumf_hostSplat_eq]
  rfl

/-! ## The vector unit's spelling, on a block of rows -/

theorem block_affine_eq {ψ₁ ψ₂ : FTy} (prec : Option ContractPrecision) (hψ₁ : ψ₁.bits < FTy.f32.bits) (hψ₂ : ψ₂.bits < FTy.f32.bits)
    (a : FVec Ideal (⟨2, ![M, K]⟩ : Shape) .f32) (W : FVec Ideal (⟨2, ![K, N]⟩ : Shape) .f32)
    (b : FVec Ideal (⟨2, ![1, N]⟩ : Shape) .f32) (hB : (⟨2, ![1, N]⟩ : Shape).Broadcasts ⟨2, ![M, N]⟩) :
    addf (matmul (DotDims.plain M K N) prec (truncf ψ₁ a hψ₁) (truncf ψ₂ W hψ₂) (constant (F := Ideal) ⟨2, ![M, N]⟩ .f32 0x00000000#32))
        (broadcastTo ⟨2, ![M, N]⟩ b hB)
      = affine a W b := by
  funext j
  show matmul (DotDims.plain M K N) prec (truncf ψ₁ a hψ₁) (truncf ψ₂ W hψ₂) (constant (F := Ideal) ⟨2, ![M, N]⟩ .f32 0x00000000#32) j
      + broadcastTo ⟨2, ![M, N]⟩ b hB j = _
  rw [blockDot_apply, spreadRow_apply]
  rfl

theorem block_layer_eq {ψ₁ ψ₂ : FTy} (prec : Option ContractPrecision) (hψ₁ : ψ₁.bits < FTy.f32.bits) (hψ₂ : ψ₂.bits < FTy.f32.bits)
    (a ah : FVec Ideal (⟨2, ![M, K]⟩ : Shape) .f32) (ax : FVec Ideal (⟨2, ![M, N]⟩ : Shape) .f32)
    (W W' : FVec Ideal (⟨2, ![K, N]⟩ : Shape) .f32) (b : FVec Ideal (⟨2, ![1, N]⟩ : Shape) .f32)
    (hB : (⟨2, ![1, N]⟩ : Shape).Broadcasts ⟨2, ![M, N]⟩) :
    addf (maximumf (addf (addf (matmul (DotDims.plain M K N) prec (truncf ψ₁ a hψ₁) (truncf ψ₂ W hψ₂) (constant (F := Ideal) ⟨2, ![M, N]⟩ .f32 0x00000000#32))
            (broadcastTo ⟨2, ![M, N]⟩ b hB))
          (matmul (DotDims.plain M K N) prec (truncf ψ₁ ah hψ₁) (truncf ψ₂ W' hψ₂) (constant (F := Ideal) ⟨2, ![M, N]⟩ .f32 0x00000000#32)))
        (broadcast ⟨2, ![M, N]⟩ (Scalar.ofBits (F := Ideal) .f32 0x00000000#32))) ax
      = layer a ah ax W W' b := by
  rw [block_affine_eq prec hψ₁ hψ₂ a W b hB, maximumf_splat_eq]
  funext j
  show max (affine a W b j + matmul (DotDims.plain M K N) prec (truncf ψ₁ ah hψ₁) (truncf ψ₂ W' hψ₂) (constant (F := Ideal) ⟨2, ![M, N]⟩ .f32 0x00000000#32) j)
      (Ideal.ofBits .f32 0x00000000#32) + ax j = _
  rw [blockDot_apply]
  rfl

/-! ## Rows do not mix -/

variable {M' : Nat}

theorem rowsTimes_rows (f : Fin M' → Fin M) (a : (⟨2, ![M', K]⟩ : Shape).Idx → EReal) (h : (⟨2, ![M, K]⟩ : Shape).Idx → EReal)
    (W : (⟨2, ![K, N]⟩ : Shape).Idx → EReal) (ha : ∀ p k, a (ix2 p k) = h (ix2 (f p) k)) (p : Fin M') (q : Fin N) :
    rowsTimes a W (ix2 p q) = rowsTimes h W (ix2 (f p) q) := by
  show rowDot (rowOf a p) W q = rowDot (rowOf h (f p)) W q
  rw [show rowOf a p = rowOf h (f p) from funext (ha p)]

theorem affine_rows (f : Fin M' → Fin M) (a : (⟨2, ![M', K]⟩ : Shape).Idx → EReal) (h : (⟨2, ![M, K]⟩ : Shape).Idx → EReal)
    (W : (⟨2, ![K, N]⟩ : Shape).Idx → EReal) (b : (⟨2, ![1, N]⟩ : Shape).Idx → EReal)
    (ha : ∀ p k, a (ix2 p k) = h (ix2 (f p) k)) (p : Fin M') (q : Fin N) :
    affine a W b (ix2 p q) = affine h W b (ix2 (f p) q) := by
  show rowsTimes a W (ix2 p q) + b (ix2 0 q) = rowsTimes h W (ix2 (f p) q) + b (ix2 0 q)
  rw [rowsTimes_rows f a h W ha]

/-- The layer of a block of rows is the block of rows of the layer. -/
theorem layer_rows (f : Fin M' → Fin M) (a ah : (⟨2, ![M', K]⟩ : Shape).Idx → EReal) (ax : (⟨2, ![M', N]⟩ : Shape).Idx → EReal)
    (agg h : (⟨2, ![M, K]⟩ : Shape).Idx → EReal) (x : (⟨2, ![M, N]⟩ : Shape).Idx → EReal)
    (W W' : (⟨2, ![K, N]⟩ : Shape).Idx → EReal) (b : (⟨2, ![1, N]⟩ : Shape).Idx → EReal)
    (ha : ∀ p k, a (ix2 p k) = agg (ix2 (f p) k)) (hh : ∀ p k, ah (ix2 p k) = h (ix2 (f p) k))
    (hx : ∀ p q, ax (ix2 p q) = x (ix2 (f p) q)) (p : Fin M') (q : Fin N) :
    layer a ah ax W W' b (ix2 p q) = layer agg h x W W' b (ix2 (f p) q) := by
  show max (affine a W b (ix2 p q) + rowsTimes ah W' (ix2 p q)) _ + ax (ix2 p q)
    = max (affine agg W b (ix2 (f p) q) + rowsTimes h W' (ix2 (f p) q)) _ + x (ix2 (f p) q)
  rw [affine_rows f a agg W b ha, rowsTimes_rows f ah h W' hh, hx]

end Cert.ResidualLayer

end
-- ==== Proof.KI_Layer0Value.lean ====
/-
  What layer 0's pipeline leaves in its result array, at the exact (extended-real) values.

  On a block of 4000 rows the body computes the layer  max(agg·W + b + h·W', 0) + x  of its blocks; the three node
  blocks are rows 4000·t … 4000·t + 3999 of their arrays and the weight blocks are the whole weight arrays; a layer's
  row depends on the same row of its node operands only. So what point t writes back is rows 4000·t … 4000·t + 3999 of
  the layer of the WHOLE arrays, and since every row lies in the block of the point (row / 4000), the result array ends
  holding that layer of the whole arrays as the region found them.
-/
import proofs.«108808_j5119601017047_1_alg».proof.Proof.KI_Layer0
import proofs.«108808_j5119601017047_1_alg».proof.Proof.LibResidualLayer
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen Cert.ResidualLayer

variable (V : (c : Dev nD) → (b : Ref sig .tc) → Buf (Elt Ideal) ((c : Thread nD τ).loc b))

theorem zeros : (![0, 0] : Fin 2 → Nat) = fun _ => 0 := funext fun a => by fin_cases a <;> rfl

/-- On its blocks the body computes the layer. -/
theorem result_eq (agg h x : Vec Ideal S4000x64 .f32) (wRel : Vec Ideal S64x64 .f32) (bias : Vec Ideal S1x64 .f32) (wRoot : Vec Ideal S64x64 .f32) :
    result agg h x wRel bias wRoot = layer (M := 4000) (K := 64) (N := 64) agg h x wRel wRoot bias := by
  unfold result
  rw [View.canon_unit_zero zeros]
  simp only [View.ld_unit_zero (S := S4000x64) zeros, View.ld_unit_zero (S := S64x64) zeros, View.ld_unit_zero (S := S1x64) zeros]
  unfold k0_pay1
  simp only [shapeCast_self]
  exact block_layer_eq (M := 4000) (K := 64) (N := 64) none _ _ agg h x wRel wRoot bias _

/-- The layer of the whole arrays the region is entered with. -/
def whole (c : Dev nD) : S100000x64.Idx → EReal :=
  layer (M := 100000) (K := 64) (N := 64) (V c main_v13) (V c main_arg0) (V c main_arg0) (V c main_v15) (V c main_v19) (V c main_v20)

/-- Where the windows' blocks sit, decided over the 25 points: the node windows and the result window at block row t,
    the weight windows at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the arrays that row p of point t's blocks is. -/
def rowAt (t : Fin cfg0.N) (p : Fin 4000) : Fin 100000 :=
  ⟨4000 * t.val + p.val, by have := t.isLt; have := p.isLt; have hN : cfg0.N = 25 := N_0; omega⟩

theorem rows0 (c : Dev nD) (t : Fin cfg0.N) (p : Fin 4000) (k : Fin 64) :
    (blk V c 0 t : S4000x64.Idx → EReal) (ix2 p k) = (V c main_v13 : S100000x64.Idx → EReal) (ix2 (rowAt t p) k) := by
  obtain ⟨e00, e01, e10, e11, e20, e21, -⟩ := block_index t
  unfold blk
  rw [View.read_apply]
  show V c main_v13 _ = V c main_v13 _
  congr 1
  funext a
  apply Fin.ext
  match a with
  | ⟨0, _⟩ => show win0_0.index t (0 : Fin 2) * 4000 + 1 * p.val = 4000 * t.val + p.val; omega
  | ⟨1, _⟩ => show win0_0.index t (1 : Fin 2) * 64 + 1 * k.val = k.val; omega
theorem rows1 (c : Dev nD) (t : Fin cfg0.N) (p : Fin 4000) (k : Fin 64) :
    (blk V c 1 t : S4000x64.Idx → EReal) (ix2 p k) = (V c main_arg0 : S100000x64.Idx → EReal) (ix2 (rowAt t p) k) := by
  obtain ⟨e00, e01, e10, e11, e20, e21, -⟩ := block_index t
  unfold blk
  rw [View.read_apply]
  show V c main_arg0 _ = V c main_arg0 _
  congr 1
  funext a
  apply Fin.ext
  match a with
  | ⟨0, _⟩ => show win0_1.index t (0 : Fin 2) * 4000 + 1 * p.val = 4000 * t.val + p.val; omega
  | ⟨1, _⟩ => show win0_1.index t (1 : Fin 2) * 64 + 1 * k.val = k.val; omega
theorem rows2 (c : Dev nD) (t : Fin cfg0.N) (p : Fin 4000) (k : Fin 64) :
    (blk V c 2 t : S4000x64.Idx → EReal) (ix2 p k) = (V c main_arg0 : S100000x64.Idx → EReal) (ix2 (rowAt t p) k) := by
  obtain ⟨e00, e01, e10, e11, e20, e21, -⟩ := block_index t
  unfold blk
  rw [View.read_apply]
  show V c main_arg0 _ = V c main_arg0 _
  congr 1
  funext a
  apply Fin.ext
  match a with
  | ⟨0, _⟩ => show win0_2.index t (0 : Fin 2) * 4000 + 1 * p.val = 4000 * t.val + p.val; omega
  | ⟨1, _⟩ => show win0_2.index t (1 : Fin 2) * 64 + 1 * k.val = k.val; omega
theorem whole3 (c : Dev nD) (t : Fin cfg0.N) : (blk V c 3 t : S64x64.Idx → EReal) = V c main_v15 := by
  obtain ⟨-, -, -, -, -, -, e30, e31, e40, e41, e50, e51, -⟩ := block_index t
  funext y
  unfold blk
  rw [View.read_apply]
  show V c main_v15 _ = V c main_v15 _
  congr 1
  funext a
  apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem whole4 (c : Dev nD) (t : Fin cfg0.N) : (blk V c 4 t : S1x64.Idx → EReal) = V c main_v20 := by
  obtain ⟨-, -, -, -, -, -, e30, e31, e40, e41, e50, e51, -⟩ := block_index t
  funext y
  unfold blk
  rw [View.read_apply]
  show V c main_v20 _ = V c main_v20 _
  congr 1
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega
theorem whole5 (c : Dev nD) (t : Fin cfg0.N) : (blk V c 5 t : S64x64.Idx → EReal) = V c main_v19 := by
  obtain ⟨-, -, -, -, -, -, e30, e31, e40, e41, e50, e51, -⟩ := block_index t
  funext y
  unfold blk
  rw [View.read_apply]
  show V c main_v19 _ = V c main_v19 _
  congr 1
  funext a
  apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- What point t writes back is block t of the layer of the whole arrays. -/
theorem flushed_eq (c : Dev nD) (t : Fin cfg0.N) :
    (dat V c).flushed 6 t = ((cfg0.win 6).blk t).view.read (Elt Ideal) (whole V c) := by
  show (cfg0.win 6).cut (grid0.coords t) ((dat V c).after 6 t) = _
  rw [after6, result_eq, whole3, whole4, whole5]
  obtain ⟨-, -, -, -, -, -, -, -, -, -, -, -, e60, e61⟩ := block_index t
  funext j
  obtain ⟨p, q, rfl⟩ : ∃ (p : Fin 4000) (q : Fin 64), j = ix2 p q := ⟨j 0, j 1, eq_ix2 j⟩
  rw [View.read_apply]
  have hj : ((cfg0.win 6).blk t).view.emb (ix2 p q) = ix2 (rowAt t p) q := by
    funext a
    apply Fin.ext
    match a with
    | ⟨0, _⟩ => show win0_6.index t (0 : Fin 2) * 4000 + 1 * p.val = 4000 * t.val + p.val; omega
    | ⟨1, _⟩ => show win0_6.index t (1 : Fin 2) * 64 + 1 * q.val = q.val; omega
  rw [hj]
  exact layer_rows (M := 100000) (M' := 4000) (K := 64) (N := 64) (rowAt t) _ _ _ _ _ _ _ _ _
    (rows0 V c t) (rows1 V c t) (rows2 V c t) p q

/-- An index of the result array is in point t's block iff its row is one of the block's 4000. -/
theorem mem_block (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v21).slice (win0_6.rect t)).set ↔ _
  rw [View.set_slice_whole, Rect.mem_set_unit]
  exact Iff.rfl

/-- THE RESULT ARRAY after the 25 write-backs: the layer of the whole arrays. -/
theorem final (c : Dev nD) : (dat V c).arrAt 6 cfg0.N = whole V c :=
  (dat V c).arrAt_eq_of_cover 6 (whole V c) (fun t _ => flushed_eq V c t) fun i => by
    have hi0 : (i 0).val < 100000 := (i 0).isLt
    have hi1 : (i 1).val < 64 := (i 1).isLt
    have hN : cfg0.N = 25 := N_0
    refine ⟨⟨(i 0).val / 4000, by omega⟩, flush0_6 _, ?_⟩
    obtain ⟨-, -, -, -, -, -, -, -, -, -, -, -, e60, e61⟩ := block_index ⟨(i 0).val / 4000, by omega⟩
    rw [mem_block]
    intro a
    match a with
    | ⟨0, _⟩ => show win0_6.index _ (0 : Fin 2) * 4000 ≤ (i 0).val ∧ (i 0).val < win0_6.index _ (0 : Fin 2) * 4000 + 4000; rw [e60]; show (i 0).val / 4000 * 4000 ≤ (i 0).val ∧ (i 0).val < (i 0).val / 4000 * 4000 + 4000; omega
    | ⟨1, _⟩ => show win0_6.index _ (1 : Fin 2) * 64 ≤ (i 1).val ∧ (i 1).val < win0_6.index _ (1 : Fin 2) * 64 + 64; rw [e61]; omega

end Cert.KernelIdeal.Layer0

end
-- ==== Proof.KI_Layer1Value.lean ====
/-
  What layer 1's pipeline leaves in its result array, at the exact (extended-real) values.

  On a block of 4000 rows the body computes the layer  max(agg·W + b + h·W', 0) + x  of its blocks; the three node
  blocks are rows 4000·t … 4000·t + 3999 of their arrays and the weight blocks are the whole weight arrays; a layer's
  row depends on the same row of its node operands only. So what point t writes back is rows 4000·t … 4000·t + 3999 of
  the layer of the WHOLE arrays, and since every row lies in the block of the point (row / 4000), the result array ends
  holding that layer of the whole arrays as the region found them.
-/
import proofs.«108808_j5119601017047_1_alg».proof.Proof.KI_Layer1
import proofs.«108808_j5119601017047_1_alg».proof.Proof.LibResidualLayer
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen Cert.ResidualLayer

variable (V : (c : Dev nD) → (b : Ref sig .tc) → Buf (Elt Ideal) ((c : Thread nD τ).loc b))

theorem zeros : (![0, 0] : Fin 2 → Nat) = fun _ => 0 := funext fun a => by fin_cases a <;> rfl

/-- On its blocks the body computes the layer. -/
theorem result_eq (agg h x : Vec Ideal S4000x64 .f32) (wRel : Vec Ideal S64x64 .f32) (bias : Vec Ideal S1x64 .f32) (wRoot : Vec Ideal S64x64 .f32) :
    result agg h x wRel bias wRoot = layer (M := 4000) (K := 64) (N := 64) agg h x wRel wRoot bias := by
  unfold result
  rw [View.canon_unit_zero zeros]
  simp only [View.ld_unit_zero (S := S4000x64) zeros, View.ld_unit_zero (S := S64x64) zeros, View.ld_unit_zero (S := S1x64) zeros]
  unfold k1_pay1
  simp only [shapeCast_self]
  exact block_layer_eq (M := 4000) (K := 64) (N := 64) none _ _ agg h x wRel wRoot bias _

/-- The layer of the whole arrays the region is entered with. -/
def whole (c : Dev nD) : S100000x64.Idx → EReal :=
  layer (M := 100000) (K := 64) (N := 64) (V c main_v31) (V c main_v21) (V c main_arg0) (V c main_v33) (V c main_v37) (V c main_v38)

/-- Where the windows' blocks sit, decided over the 25 points: the node windows and the result window at block row t,
    the weight windows at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The row of the arrays that row p of point t's blocks is. -/
def rowAt (t : Fin cfg1.N) (p : Fin 4000) : Fin 100000 :=
  ⟨4000 * t.val + p.val, by have := t.isLt; have := p.isLt; have hN : cfg1.N = 25 := N_1; omega⟩

theorem rows0 (c : Dev nD) (t : Fin cfg1.N) (p : Fin 4000) (k : Fin 64) :
    (blk V c 0 t : S4000x64.Idx → EReal) (ix2 p k) = (V c main_v31 : S100000x64.Idx → EReal) (ix2 (rowAt t p) k) := by
  obtain ⟨e00, e01, e10, e11, e20, e21, -⟩ := block_index t
  unfold blk
  rw [View.read_apply]
  show V c main_v31 _ = V c main_v31 _
  congr 1
  funext a
  apply Fin.ext
  match a with
  | ⟨0, _⟩ => show win1_0.index t (0 : Fin 2) * 4000 + 1 * p.val = 4000 * t.val + p.val; omega
  | ⟨1, _⟩ => show win1_0.index t (1 : Fin 2) * 64 + 1 * k.val = k.val; omega
theorem rows1 (c : Dev nD) (t : Fin cfg1.N) (p : Fin 4000) (k : Fin 64) :
    (blk V c 1 t : S4000x64.Idx → EReal) (ix2 p k) = (V c main_v21 : S100000x64.Idx → EReal) (ix2 (rowAt t p) k) := by
  obtain ⟨e00, e01, e10, e11, e20, e21, -⟩ := block_index t
  unfold blk
  rw [View.read_apply]
  show V c main_v21 _ = V c main_v21 _
  congr 1
  funext a
  apply Fin.ext
  match a with
  | ⟨0, _⟩ => show win1_1.index t (0 : Fin 2) * 4000 + 1 * p.val = 4000 * t.val + p.val; omega
  | ⟨1, _⟩ => show win1_1.index t (1 : Fin 2) * 64 + 1 * k.val = k.val; omega
theorem rows2 (c : Dev nD) (t : Fin cfg1.N) (p : Fin 4000) (k : Fin 64) :
    (blk V c 2 t : S4000x64.Idx → EReal) (ix2 p k) = (V c main_arg0 : S100000x64.Idx → EReal) (ix2 (rowAt t p) k) := by
  obtain ⟨e00, e01, e10, e11, e20, e21, -⟩ := block_index t
  unfold blk
  rw [View.read_apply]
  show V c main_arg0 _ = V c main_arg0 _
  congr 1
  funext a
  apply Fin.ext
  match a with
  | ⟨0, _⟩ => show win1_2.index t (0 : Fin 2) * 4000 + 1 * p.val = 4000 * t.val + p.val; omega
  | ⟨1, _⟩ => show win1_2.index t (1 : Fin 2) * 64 + 1 * k.val = k.val; omega
theorem whole3 (c : Dev nD) (t : Fin cfg1.N) : (blk V c 3 t : S64x64.Idx → EReal) = V c main_v33 := by
  obtain ⟨-, -, -, -, -, -, e30, e31, e40, e41, e50, e51, -⟩ := block_index t
  funext y
  unfold blk
  rw [View.read_apply]
  show V c main_v33 _ = V c main_v33 _
  congr 1
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem whole4 (c : Dev nD) (t : Fin cfg1.N) : (blk V c 4 t : S1x64.Idx → EReal) = V c main_v38 := by
  obtain ⟨-, -, -, -, -, -, e30, e31, e40, e41, e50, e51, -⟩ := block_index t
  funext y
  unfold blk
  rw [View.read_apply]
  show V c main_v38 _ = V c main_v38 _
  congr 1
  funext a
  apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega
theorem whole5 (c : Dev nD) (t : Fin cfg1.N) : (blk V c 5 t : S64x64.Idx → EReal) = V c main_v37 := by
  obtain ⟨-, -, -, -, -, -, e30, e31, e40, e41, e50, e51, -⟩ := block_index t
  funext y
  unfold blk
  rw [View.read_apply]
  show V c main_v37 _ = V c main_v37 _
  congr 1
  funext a
  apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- What point t writes back is block t of the layer of the whole arrays. -/
theorem flushed_eq (c : Dev nD) (t : Fin cfg1.N) :
    (dat V c).flushed 6 t = ((cfg1.win 6).blk t).view.read (Elt Ideal) (whole V c) := by
  show (cfg1.win 6).cut (grid1.coords t) ((dat V c).after 6 t) = _
  rw [after6, result_eq, whole3, whole4, whole5]
  obtain ⟨-, -, -, -, -, -, -, -, -, -, -, -, e60, e61⟩ := block_index t
  funext j
  obtain ⟨p, q, rfl⟩ : ∃ (p : Fin 4000) (q : Fin 64), j = ix2 p q := ⟨j 0, j 1, eq_ix2 j⟩
  rw [View.read_apply]
  have hj : ((cfg1.win 6).blk t).view.emb (ix2 p q) = ix2 (rowAt t p) q := by
    funext a
    apply Fin.ext
    match a with
    | ⟨0, _⟩ => show win1_6.index t (0 : Fin 2) * 4000 + 1 * p.val = 4000 * t.val + p.val; omega
    | ⟨1, _⟩ => show win1_6.index t (1 : Fin 2) * 64 + 1 * q.val = q.val; omega
  rw [hj]
  exact layer_rows (M := 100000) (M' := 4000) (K := 64) (N := 64) (rowAt t) _ _ _ _ _ _ _ _ _
    (rows0 V c t) (rows1 V c t) (rows2 V c t) p q

/-- An index of the result array is in point t's block iff its row is one of the block's 4000. -/
theorem mem_block (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v39).slice (win1_6.rect t)).set ↔ _
  rw [View.set_slice_whole, Rect.mem_set_unit]
  exact Iff.rfl

/-- THE RESULT ARRAY after the 25 write-backs: the layer of the whole arrays. -/
theorem final (c : Dev nD) : (dat V c).arrAt 6 cfg1.N = whole V c :=
  (dat V c).arrAt_eq_of_cover 6 (whole V c) (fun t _ => flushed_eq V c t) fun i => by
    have hi0 : (i 0).val < 100000 := (i 0).isLt
    have hi1 : (i 1).val < 64 := (i 1).isLt
    have hN : cfg1.N = 25 := N_1
    refine ⟨⟨(i 0).val / 4000, by omega⟩, flush1_6 _, ?_⟩
    obtain ⟨-, -, -, -, -, -, -, -, -, -, -, -, e60, e61⟩ := block_index ⟨(i 0).val / 4000, by omega⟩
    rw [mem_block]
    intro a
    match a with
    | ⟨0, _⟩ => show win1_6.index _ (0 : Fin 2) * 4000 ≤ (i 0).val ∧ (i 0).val < win1_6.index _ (0 : Fin 2) * 4000 + 4000; rw [e60]; show (i 0).val / 4000 * 4000 ≤ (i 0).val ∧ (i 0).val < (i 0).val / 4000 * 4000 + 4000; omega
    | ⟨1, _⟩ => show win1_6.index _ (1 : Fin 2) * 64 ≤ (i 1).val ∧ (i 1).val < win1_6.index _ (1 : Fin 2) * 64 + 64; rw [e61]; omega

end Cert.KernelIdeal.Layer1

end
-- ==== Proof.KI_Layer2Value.lean ====
/-
  What layer 2's pipeline leaves in its result array, at the exact (extended-real) values.

  On a block of 4000 rows the body computes the layer  max(agg·W + b + h·W', 0) + x  of its blocks; the three node
  blocks are rows 4000·t … 4000·t + 3999 of their arrays and the weight blocks are the whole weight arrays; a layer's
  row depends on the same row of its node operands only. So what point t writes back is rows 4000·t … 4000·t + 3999 of
  the layer of the WHOLE arrays, and since every row lies in the block of the point (row / 4000), the result array ends
  holding that layer of the whole arrays as the region found them.
-/
import proofs.«108808_j5119601017047_1_alg».proof.Proof.KI_Layer2
import proofs.«108808_j5119601017047_1_alg».proof.Proof.LibResidualLayer
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen Cert.ResidualLayer

variable (V : (c : Dev nD) → (b : Ref sig .tc) → Buf (Elt Ideal) ((c : Thread nD τ).loc b))

theorem zeros : (![0, 0] : Fin 2 → Nat) = fun _ => 0 := funext fun a => by fin_cases a <;> rfl

/-- On its blocks the body computes the layer. -/
theorem result_eq (agg h x : Vec Ideal S4000x64 .f32) (wRel : Vec Ideal S64x64 .f32) (bias : Vec Ideal S1x64 .f32) (wRoot : Vec Ideal S64x64 .f32) :
    result agg h x wRel bias wRoot = layer (M := 4000) (K := 64) (N := 64) agg h x wRel wRoot bias := by
  unfold result
  rw [View.canon_unit_zero zeros]
  simp only [View.ld_unit_zero (S := S4000x64) zeros, View.ld_unit_zero (S := S64x64) zeros, View.ld_unit_zero (S := S1x64) zeros]
  unfold k2_pay1
  simp only [shapeCast_self]
  exact block_layer_eq (M := 4000) (K := 64) (N := 64) none _ _ agg h x wRel wRoot bias _

/-- The layer of the whole arrays the region is entered with. -/
def whole (c : Dev nD) : S100000x64.Idx → EReal :=
  layer (M := 100000) (K := 64) (N := 64) (V c main_v49) (V c main_v39) (V c main_arg0) (V c main_v51) (V c main_v55) (V c main_v56)

/-- Where the windows' blocks sit, decided over the 25 points: the node windows and the result window at block row t,
    the weight windows at their one block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The row of the arrays that row p of point t's blocks is. -/
def rowAt (t : Fin cfg2.N) (p : Fin 4000) : Fin 100000 :=
  ⟨4000 * t.val + p.val, by have := t.isLt; have := p.isLt; have hN : cfg2.N = 25 := N_2; omega⟩

theorem rows0 (c : Dev nD) (t : Fin cfg2.N) (p : Fin 4000) (k : Fin 64) :
    (blk V c 0 t : S4000x64.Idx → EReal) (ix2 p k) = (V c main_v49 : S100000x64.Idx → EReal) (ix2 (rowAt t p) k) := by
  obtain ⟨e00, e01, e10, e11, e20, e21, -⟩ := block_index t
  unfold blk
  rw [View.read_apply]
  show V c main_v49 _ = V c main_v49 _
  congr 1
  funext a
  apply Fin.ext
  match a with
  | ⟨0, _⟩ => show win2_0.index t (0 : Fin 2) * 4000 + 1 * p.val = 4000 * t.val + p.val; omega
  | ⟨1, _⟩ => show win2_0.index t (1 : Fin 2) * 64 + 1 * k.val = k.val; omega
theorem rows1 (c : Dev nD) (t : Fin cfg2.N) (p : Fin 4000) (k : Fin 64) :
    (blk V c 1 t : S4000x64.Idx → EReal) (ix2 p k) = (V c main_v39 : S100000x64.Idx → EReal) (ix2 (rowAt t p) k) := by
  obtain ⟨e00, e01, e10, e11, e20, e21, -⟩ := block_index t
  unfold blk
  rw [View.read_apply]
  show V c main_v39 _ = V c main_v39 _
  congr 1
  funext a
  apply Fin.ext
  match a with
  | ⟨0, _⟩ => show win2_1.index t (0 : Fin 2) * 4000 + 1 * p.val = 4000 * t.val + p.val; omega
  | ⟨1, _⟩ => show win2_1.index t (1 : Fin 2) * 64 + 1 * k.val = k.val; omega
theorem rows2 (c : Dev nD) (t : Fin cfg2.N) (p : Fin 4000) (k : Fin 64) :
    (blk V c 2 t : S4000x64.Idx → EReal) (ix2 p k) = (V c main_arg0 : S100000x64.Idx → EReal) (ix2 (rowAt t p) k) := by
  obtain ⟨e00, e01, e10, e11, e20, e21, -⟩ := block_index t
  unfold blk
  rw [View.read_apply]
  show V c main_arg0 _ = V c main_arg0 _
  congr 1
  funext a
  apply Fin.ext
  match a with
  | ⟨0, _⟩ => show win2_2.index t (0 : Fin 2) * 4000 + 1 * p.val = 4000 * t.val + p.val; omega
  | ⟨1, _⟩ => show win2_2.index t (1 : Fin 2) * 64 + 1 * k.val = k.val; omega
theorem whole3 (c : Dev nD) (t : Fin cfg2.N) : (blk V c 3 t : S64x64.Idx → EReal) = V c main_v51 := by
  obtain ⟨-, -, -, -, -, -, e30, e31, e40, e41, e50, e51, -⟩ := block_index t
  funext y
  unfold blk
  rw [View.read_apply]
  show V c main_v51 _ = V c main_v51 _
  congr 1
  funext a
  apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega
theorem whole4 (c : Dev nD) (t : Fin cfg2.N) : (blk V c 4 t : S1x64.Idx → EReal) = V c main_v56 := by
  obtain ⟨-, -, -, -, -, -, e30, e31, e40, e41, e50, e51, -⟩ := block_index t
  funext y
  unfold blk
  rw [View.read_apply]
  show V c main_v56 _ = V c main_v56 _
  congr 1
  funext a
  apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega
theorem whole5 (c : Dev nD) (t : Fin cfg2.N) : (blk V c 5 t : S64x64.Idx → EReal) = V c main_v55 := by
  obtain ⟨-, -, -, -, -, -, e30, e31, e40, e41, e50, e51, -⟩ := block_index t
  funext y
  unfold blk
  rw [View.read_apply]
  show V c main_v55 _ = V c main_v55 _
  congr 1
  funext a
  apply Fin.ext
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- What point t writes back is block t of the layer of the whole arrays. -/
theorem flushed_eq (c : Dev nD) (t : Fin cfg2.N) :
    (dat V c).flushed 6 t = ((cfg2.win 6).blk t).view.read (Elt Ideal) (whole V c) := by
  show (cfg2.win 6).cut (grid2.coords t) ((dat V c).after 6 t) = _
  rw [after6, result_eq, whole3, whole4, whole5]
  obtain ⟨-, -, -, -, -, -, -, -, -, -, -, -, e60, e61⟩ := block_index t
  funext j
  obtain ⟨p, q, rfl⟩ : ∃ (p : Fin 4000) (q : Fin 64), j = ix2 p q := ⟨j 0, j 1, eq_ix2 j⟩
  rw [View.read_apply]
  have hj : ((cfg2.win 6).blk t).view.emb (ix2 p q) = ix2 (rowAt t p) q := by
    funext a
    apply Fin.ext
    match a with
    | ⟨0, _⟩ => show win2_6.index t (0 : Fin 2) * 4000 + 1 * p.val = 4000 * t.val + p.val; omega
    | ⟨1, _⟩ => show win2_6.index t (1 : Fin 2) * 64 + 1 * q.val = q.val; omega
  rw [hj]
  exact layer_rows (M := 100000) (M' := 4000) (K := 64) (N := 64) (rowAt t) _ _ _ _ _ _ _ _ _
    (rows0 V c t) (rows1 V c t) (rows2 V c t) p q

/-- An index of the result array is in point t's block iff its row is one of the block's 4000. -/
theorem mem_block (t : Fin cfg2.N) (i : S100000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v57).slice (win2_6.rect t)).set ↔ _
  rw [View.set_slice_whole, Rect.mem_set_unit]
  exact Iff.rfl

/-- THE RESULT ARRAY after the 25 write-backs: the layer of the whole arrays. -/
theorem final (c : Dev nD) : (dat V c).arrAt 6 cfg2.N = whole V c :=
  (dat V c).arrAt_eq_of_cover 6 (whole V c) (fun t _ => flushed_eq V c t) fun i => by
    have hi0 : (i 0).val < 100000 := (i 0).isLt
    have hi1 : (i 1).val < 64 := (i 1).isLt
    have hN : cfg2.N = 25 := N_2
    refine ⟨⟨(i 0).val / 4000, by omega⟩, flush2_6 _, ?_⟩
    obtain ⟨-, -, -, -, -, -, -, -, -, -, -, -, e60, e61⟩ := block_index ⟨(i 0).val / 4000, by omega⟩
    rw [mem_block]
    intro a
    match a with
    | ⟨0, _⟩ => show win2_6.index _ (0 : Fin 2) * 4000 ≤ (i 0).val ∧ (i 0).val < win2_6.index _ (0 : Fin 2) * 4000 + 4000; rw [e60]; show (i 0).val / 4000 * 4000 ≤ (i 0).val ∧ (i 0).val < (i 0).val / 4000 * 4000 + 4000; omega
    | ⟨1, _⟩ => show win2_6.index _ (1 : Fin 2) * 64 ≤ (i 1).val ∧ (i 1).val < win2_6.index _ (1 : Fin 2) * 64 + 64; rw [e61]; omega

end Cert.KernelIdeal.Layer2

end
-- ==== Proof.KI_Layer3Value.lean ====
/-
  What layer 3's pipeline leaves in its result array, at the exact (extended-real) values.

  On a block of 4000 rows the body computes the layer  max(agg·W + b + h·W', 0) + x  of its blocks; the three node
  blocks are rows 4000·t … 4000·t + 3999 of their arrays and the weight blocks are the whole weight arrays; a layer's
  row depends on the same row of its node operands only. So what point t writes back is rows 4000·t … 4000·t + 3999 of
  the layer of the WHOLE arrays, and since every row lies in the block of the point (row / 4000), the result array ends
  holding that layer of the whole arrays as the region found them.
-/
import proofs.«108808_j5119601017047_1_alg».proof.Proof.KI_Layer3
import proofs.«108808_j5119601017047_1_alg».proof.Proof.LibResidualLayer
import Idealize.ShloMosaic.Lib.Pipeline.Value

set_option maxRecDepth 16384

noncomputable section

namespace Cert.KernelIdeal.Layer3

open Idealize.ShloMosaic Idealize.ShloMosaic.TcCoe Idealize.ShloMosaic.ValueIdx Idealize.SL.Sem
open Idealize.ShloMosaic.Pipeline (Dat)
open Cert.KernelIdeal Cert.KernelIdeal.Gen Cert.ResidualLayer

variable (V : (c : Dev nD) → (b : Ref sig .tc) → Buf (Elt Ideal) ((c : Thread nD τ).loc b))

theorem zeros : (![0, 0] : Fin 2 → Nat) = fun _ => 0 := funext fun a => by fin_cases a <;> rfl

/-- On its blocks the body computes the layer. -/
theorem result_eq (agg h x : Vec Ideal S4000x64 .f32) (wRel : Vec Ideal S64x64 .f32) (bias : Vec Ideal S1x64 .f32) (wRoot : Vec Ideal S64x64 .f32) :
    result agg h x wRel bias wRoot = layer (M := 4000) (K := 64) (N := 64) agg h x wRel wRoot bias := by
  unfold result
  rw [View.canon_unit_zero zeros]
  simp only [View.ld_unit_zero (S := S4000x64) zeros, View.ld_unit_zero (S := S64x64) zeros, View.ld_unit_zero (S := S1x64) zeros]
  unfold k3_pay1
  simp only [shapeCast_self]
  exact block_layer_eq (M := 4000) (K := 64) (N := 64) none _ _ agg h x wRel wRoot bias _

/-- The layer of the whole arrays the region is entered with. -/
def whole (c : Dev nD) : S100000x64.Idx → EReal :=
  layer (M := 100000) (K := 64) (N := 64) (V c main_v67) (V c main_v57) (V c main_arg0) (V c main_v69) (V c main_v73) (V c main_v74)

/-- Where the windows' blocks sit, decided over the 25 points: the node windows and the result window at block row t,
    the weight windows at their one block. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The row of the arrays that row p of point t's blocks is. -/
def rowAt (t : Fin cfg3.N) (p : Fin 4000) : Fin 100000 :=
  ⟨4000 * t.val + p.val, by have := t.isLt; have := p.isLt; have hN : cfg3.N = 25 := N_3; omega⟩

theorem rows0 (c : Dev nD) (t : Fin cfg3.N) (p : Fin 4000) (k : Fin 64) :
    (blk V c 0 t : S4000x64.Idx → EReal) (ix2 p k) = (V c main_v67 : S100000x64.Idx → EReal) (ix2 (rowAt t p) k) := by
  obtain ⟨e00, e01, e10, e11, e20, e21, -⟩ := block_index t
  unfold blk
  rw [View.read_apply]
  show V c main_v67 _ = V c main_v67 _
  congr 1
  funext a
  apply Fin.ext
  match a with
  | ⟨0, _⟩ => show win3_0.index t (0 : Fin 2) * 4000 + 1 * p.val = 4000 * t.val + p.val; omega
  | ⟨1, _⟩ => show win3_0.index t (1 : Fin 2) * 64 + 1 * k.val = k.val; omega
theorem rows1 (c : Dev nD) (t : Fin cfg3.N) (p : Fin 4000) (k : Fin 64) :
    (blk V c 1 t : S4000x64.Idx → EReal) (ix2 p k) = (V c main_v57 : S100000x64.Idx → EReal) (ix2 (rowAt t p) k) := by
  obtain ⟨e00, e01, e10, e11, e20, e21, -⟩ := block_index t
  unfold blk
  rw [View.read_apply]
  show V c main_v57 _ = V c main_v57 _
  congr 1
  funext a
  apply Fin.ext
  match a with
  | ⟨0, _⟩ => show win3_1.index t (0 : Fin 2) * 4000 + 1 * p.val = 4000 * t.val + p.val; omega
  | ⟨1, _⟩ => show win3_1.index t (1 : Fin 2) * 64 + 1 * k.val = k.val; omega
theorem rows2 (c : Dev nD) (t : Fin cfg3.N) (p : Fin 4000) (k : Fin 64) :
    (blk V c 2 t : S4000x64.Idx → EReal) (ix2 p k) = (V c main_arg0 : S100000x64.Idx → EReal) (ix2 (rowAt t p) k) := by
  obtain ⟨e00, e01, e10, e11, e20, e21, -⟩ := block_index t
  unfold blk
  rw [View.read_apply]
  show V c main_arg0 _ = V c main_arg0 _
  congr 1
  funext a
  apply Fin.ext
  match a with
  | ⟨0, _⟩ => show win3_2.index t (0 : Fin 2) * 4000 + 1 * p.val = 4000 * t.val + p.val; omega
  | ⟨1, _⟩ => show win3_2.index t (1 : Fin 2) * 64 + 1 * k.val = k.val; omega
theorem whole3 (c : Dev nD) (t : Fin cfg3.N) : (blk V c 3 t : S64x64.Idx → EReal) = V c main_v69 := by
  obtain ⟨-, -, -, -, -, -, e30, e31, e40, e41, e50, e51, -⟩ := block_index t
  funext y
  unfold blk
  rw [View.read_apply]
  show V c main_v69 _ = V c main_v69 _
  congr 1
  funext a
  apply Fin.ext
  match a with
  | ⟨0, _⟩ => show win3_3.index t (0 : Fin 2) * 64 + 1 * (y 0).val = (y 0).val; omega
  | ⟨1, _⟩ => show win3_3.index t (1 : Fin 2) * 64 + 1 * (y 1).val = (y 1).val; omega
theorem whole4 (c : Dev nD) (t : Fin cfg3.N) : (blk V c 4 t : S1x64.Idx → EReal) = V c main_v74 := by
  obtain ⟨-, -, -, -, -, -, e30, e31, e40, e41, e50, e51, -⟩ := block_index t
  funext y
  unfold blk
  rw [View.read_apply]
  show V c main_v74 _ = V c main_v74 _
  congr 1
  funext a
  apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega
theorem whole5 (c : Dev nD) (t : Fin cfg3.N) : (blk V c 5 t : S64x64.Idx → EReal) = V c main_v73 := by
  obtain ⟨-, -, -, -, -, -, e30, e31, e40, e41, e50, e51, -⟩ := block_index t
  funext y
  unfold blk
  rw [View.read_apply]
  show V c main_v73 _ = V c main_v73 _
  congr 1
  funext a
  apply Fin.ext
  match a with
  | ⟨0, _⟩ => show win3_5.index t (0 : Fin 2) * 64 + 1 * (y 0).val = (y 0).val; omega
  | ⟨1, _⟩ => show win3_5.index t (1 : Fin 2) * 64 + 1 * (y 1).val = (y 1).val; omega

/-- What point t writes back is block t of the layer of the whole arrays. -/
theorem flushed_eq (c : Dev nD) (t : Fin cfg3.N) :
    (dat V c).flushed 6 t = ((cfg3.win 6).blk t).view.read (Elt Ideal) (whole V c) := by
  show (cfg3.win 6).cut (grid3.coords t) ((dat V c).after 6 t) = _
  rw [after6, result_eq, whole3, whole4, whole5]
  obtain ⟨-, -, -, -, -, -, -, -, -, -, -, -, e60, e61⟩ := block_index t
  funext j
  obtain ⟨p, q, rfl⟩ : ∃ (p : Fin 4000) (q : Fin 64), j = ix2 p q := ⟨j 0, j 1, eq_ix2 j⟩
  rw [View.read_apply]
  have hj : ((cfg3.win 6).blk t).view.emb (ix2 p q) = ix2 (rowAt t p) q := by
    funext a
    apply Fin.ext
    match a with
    | ⟨0, _⟩ => show win3_6.index t (0 : Fin 2) * 4000 + 1 * p.val = 4000 * t.val + p.val; omega
    | ⟨1, _⟩ => show win3_6.index t (1 : Fin 2) * 64 + 1 * q.val = q.val; omega
  rw [hj]
  exact layer_rows (M := 100000) (M' := 4000) (K := 64) (N := 64) (rowAt t) _ _ _ _ _ _ _ _ _
    (rows0 V c t) (rows1 V c t) (rows2 V c t) p q

/-- An index of the result array is in point t's block iff its row is one of the block's 4000. -/
theorem mem_block (t : Fin cfg3.N) (i : S100000x64.Idx) :
    i ∈ ((cfg3.win 6).blk t).view.set ↔ ∀ a : Fin 2, win3_6.index t a * S4000x64.size a ≤ (i a).val ∧ (i a).val < win3_6.index t a * S4000x64.size a + S4000x64.size a := by
  show i ∈ ((View.whole main_v75).slice (win3_6.rect t)).set ↔ _
  rw [View.set_slice_whole, Rect.mem_set_unit]
  exact Iff.rfl

/-- THE RESULT ARRAY after the 25 write-backs: the layer of the whole arrays. -/
theorem final (c : Dev nD) : (dat V c).arrAt 6 cfg3.N = whole V c :=
  (dat V c).arrAt_eq_of_cover 6 (whole V c) (fun t _ => flushed_eq V c t) fun i => by
    have hi0 : (i 0).val < 100000 := (i 0).isLt
    have hi1 : (i 1).val < 64 := (i 1).isLt
    have hN : cfg3.N = 25 := N_3
    refine ⟨⟨(i 0).val / 4000, by omega⟩, flush3_6 _, ?_⟩
    obtain ⟨-, -, -, -, -, -, -, -, -, -, -, -, e60, e61⟩ := block_index ⟨(i 0).val / 4000, by omega⟩
    rw [mem_block]
    intro a
    match a with
    | ⟨0, _⟩ => show win3_6.index _ (0 : Fin 2) * 4000 ≤ (i 0).val ∧ (i 0).val < win3_6.index _ (0 : Fin 2) * 4000 + 4000; rw [e60]; show (i 0).val / 4000 * 4000 ≤ (i 0).val ∧ (i 0).val < (i 0).val / 4000 * 4000 + 4000; omega
    | ⟨1, _⟩ => show win3_6.index _ (1 : Fin 2) * 64 ≤ (i 1).val ∧ (i 1).val < win3_6.index _ (1 : Fin 2) * 64 + 64; rw [e61]; omega

end Cert.KernelIdeal.Layer3

end
-- ==== Proof.KI_ProjectValue.lean ====
/-
  What the projection's pipeline leaves in its result array, at the exact (extended-real) values.

  On a block of 4000 rows the body computes  h·w + b  of its blocks (w the 64×1 column, b the 1×1 bias); the node block
  is rows 4000·t … 4000·t + 3999 of the features and the other two blocks are the whole arrays; a row of the result
  depends on the same row of the features only. So point t writes back rows 4000·t … 4000·t + 3999 of  h·w + b  of the
  whole arrays, and the 25 blocks cover the 100000×1 result.
-/
import proofs.«108808_j5119601017047_1_alg».proof.Proof.KI_Project
import proofs.«108808_j5119601017047_1_alg».proof.Proof.LibResidualLayer
import Idealize.ShloMosaic.Lib.Pipeline.Value

set_option maxRecDepth 16384

noncomputable section

namespace Cert.KernelIdeal.Project

open Idealize.ShloMosaic Idealize.ShloMosaic.TcCoe Idealize.ShloMosaic.ValueIdx Idealize.SL.Sem
open Idealize.ShloMosaic.Pipeline (Dat)
open Cert.KernelIdeal Cert.KernelIdeal.Gen Cert.ResidualLayer

variable (V : (c : Dev nD) → (b : Ref sig .tc) → Buf (Elt Ideal) ((c : Thread nD τ).loc b))

theorem zeros : (![0, 0] : Fin 2 → Nat) = fun _ => 0 := funext fun a => by fin_cases a <;> rfl

/-- On its blocks the body computes rows times the column, plus the bias. -/
theorem result_eq (h : Vec Ideal S4000x64 .f32) (w : Vec Ideal S64x1 .f32) (b : Vec Ideal S1x1 .f32) :
    result h w b = affine (M := 4000) (K := 64) (N := 1) h w b := by
  unfold result
  rw [View.canon_unit_zero zeros]
  simp only [View.ld_unit_zero (S := S4000x64) zeros, View.ld_unit_zero (S := S64x1) zeros, View.ld_unit_zero (S := S1x1) zeros]
  unfold k4_pay1
  simp only [shapeCast_self]
  exact block_affine_eq (M := 4000) (K := 64) (N := 1) none _ _ h w b _

/-- The projection of the whole arrays the region is entered with. -/
def whole (c : Dev nD) : S100000x1.Idx → EReal :=
  affine (M := 100000) (K := 64) (N := 1) (V c main_v75) (V c main_arg5) (V c main_v76)

theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

def rowAt (t : Fin cfg4.N) (p : Fin 4000) : Fin 100000 :=
  ⟨4000 * t.val + p.val, by have := t.isLt; have := p.isLt; have hN : cfg4.N = 25 := N_4; omega⟩

theorem rows0 (c : Dev nD) (t : Fin cfg4.N) (p : Fin 4000) (k : Fin 64) :
    (blk V c 0 t : S4000x64.Idx → EReal) (ix2 p k) = (V c main_v75 : S100000x64.Idx → EReal) (ix2 (rowAt t p) k) := by
  obtain ⟨e00, e01, -⟩ := block_index t
  unfold blk
  rw [View.read_apply]
  show V c main_v75 _ = V c main_v75 _
  congr 1
  funext a
  apply Fin.ext
  match a with
  | ⟨0, _⟩ => show win4_0.index t (0 : Fin 2) * 4000 + 1 * p.val = 4000 * t.val + p.val; omega
  | ⟨1, _⟩ => show win4_0.index t (1 : Fin 2) * 64 + 1 * k.val = k.val; omega
theorem whole1 (c : Dev nD) (t : Fin cfg4.N) : (blk V c 1 t : S64x1.Idx → EReal) = V c main_arg5 := by
  obtain ⟨-, -, e10, e11, -⟩ := block_index t
  funext y
  unfold blk
  rw [View.read_apply]
  show V c main_arg5 _ = V c main_arg5 _
  congr 1
  funext a
  apply Fin.ext
  match a with
  | ⟨0, _⟩ => show win4_1.index t (0 : Fin 2) * 64 + 1 * (y 0).val = (y 0).val; omega
  | ⟨1, _⟩ => show win4_1.index t (1 : Fin 2) * 1 + 1 * (y 1).val = (y 1).val; omega
theorem whole2 (c : Dev nD) (t : Fin cfg4.N) : (blk V c 2 t : S1x1.Idx → EReal) = V c main_v76 := by
  obtain ⟨-, -, -, -, e20, e21, -⟩ := block_index t
  funext y
  unfold blk
  rw [View.read_apply]
  show V c main_v76 _ = V c main_v76 _
  congr 1
  funext a
  apply Fin.ext
  match a with
  | ⟨0, _⟩ => show win4_2.index t (0 : Fin 2) * 1 + 1 * (y 0).val = (y 0).val; omega
  | ⟨1, _⟩ => show win4_2.index t (1 : Fin 2) * 1 + 1 * (y 1).val = (y 1).val; omega

/-- What point t writes back is block t of the projection of the whole arrays. -/
theorem flushed_eq (c : Dev nD) (t : Fin cfg4.N) :
    (dat V c).flushed 3 t = ((cfg4.win 3).blk t).view.read (Elt Ideal) (whole V c) := by
  show (cfg4.win 3).cut (grid4.coords t) ((dat V c).after 3 t) = _
  rw [after3, result_eq, whole1, whole2]
  obtain ⟨-, -, -, -, -, -, e30, e31⟩ := block_index t
  funext j
  obtain ⟨p, q, rfl⟩ : ∃ (p : Fin 4000) (q : Fin 1), j = ix2 p q := ⟨j 0, j 1, eq_ix2 j⟩
  rw [View.read_apply]
  have hj : ((cfg4.win 3).blk t).view.emb (ix2 p q) = ix2 (rowAt t p) q := by
    funext a
    apply Fin.ext
    match a with
    | ⟨0, _⟩ => show win4_3.index t (0 : Fin 2) * 4000 + 1 * p.val = 4000 * t.val + p.val; omega
    | ⟨1, _⟩ => show win4_3.index t (1 : Fin 2) * 1 + 1 * q.val = q.val; omega
  rw [hj]
  exact affine_rows (M := 100000) (M' := 4000) (K := 64) (N := 1) (rowAt t) _ _ _ _ (rows0 V c t) p q

theorem mem_block (t : Fin cfg4.N) (i : S100000x1.Idx) :
    i ∈ ((cfg4.win 3).blk t).view.set ↔ ∀ a : Fin 2, win4_3.index t a * S4000x1.size a ≤ (i a).val ∧ (i a).val < win4_3.index t a * S4000x1.size a + S4000x1.size a := by
  show i ∈ ((View.whole main_v77).slice (win4_3.rect t)).set ↔ _
  rw [View.set_slice_whole, Rect.mem_set_unit]
  exact Iff.rfl

/-- THE RESULT ARRAY after the 25 write-backs: the projection of the whole arrays. -/
theorem final (c : Dev nD) : (dat V c).arrAt 3 cfg4.N = whole V c :=
  (dat V c).arrAt_eq_of_cover 3 (whole V c) (fun t _ => flushed_eq V c t) fun i => by
    have hi0 : (i 0).val < 100000 := (i 0).isLt
    have hi1 : (i 1).val < 1 := (i 1).isLt
    have hN : cfg4.N = 25 := N_4
    refine ⟨⟨(i 0).val / 4000, by omega⟩, flush4_3 _, ?_⟩
    obtain ⟨-, -, -, -, -, -, e30, e31⟩ := block_index ⟨(i 0).val / 4000, by omega⟩
    rw [mem_block]
    intro a
    match a with
    | ⟨0, _⟩ => show win4_3.index _ (0 : Fin 2) * 4000 ≤ (i 0).val ∧ (i 0).val < win4_3.index _ (0 : Fin 2) * 4000 + 4000; rw [e30]; show (i 0).val / 4000 * 4000 ≤ (i 0).val ∧ (i 0).val < (i 0).val / 4000 * 4000 + 4000; omega
    | ⟨1, _⟩ => show win4_3.index _ (1 : Fin 2) * 1 ≤ (i 1).val ∧ (i 1).val < win4_3.index _ (1 : Fin 2) * 1 + 1; rw [e31]; omega

end Cert.KernelIdeal.Project

end
-- ==== Proof.KI_Network.lean ====
/-
  The whole network as one function of its seven arguments, at the exact (extended-real) values.

  x : 100000×64 node features; e : 2×800000 edge list (row 0 the sources, row 1 the targets); four layers' weights
  W_rel, W_root : 4×64×64 and biases b_rel : 4×64; the projection's column w : 64×1 and bias b : 1.

      h₀ = x,     h_{l+1} = max( agg(h_l)·W_rel[l] + b_rel[l] + h_l·W_root[l], 0 ) + x,     out = h₄·w + b,

  where agg(h) adds, into row t of a zero array, row s of h for every edge s → t (a negative source counted from the
  end): a gather of rows followed by an accumulating scatter. Both programs spell agg, the slices of the weight stacks
  and the index vectors with the same host operations, so here they are named once and never opened; what differs between
  the programs — how a layer and the projection are computed — is the general `layer` and `affine`.
-/
import proofs.«108808_j5119601017047_1_alg».proof.KernelIdeal
import proofs.«108808_j5119601017047_1_alg».proof.Proof.Gen.KernelIdeal
import proofs.«108808_j5119601017047_1_alg».proof.Proof.LibResidualLayer

noncomputable section

namespace Cert.KernelIdeal.Network

open Idealize.ShloMosaic Cert.KernelIdeal Cert.KernelIdeal.Facts₀ Cert.KernelIdeal.Facts Cert.ResidualLayer

abbrev NodeArr : Type := (⟨S100000x64, .f32⟩ : BufTy).Contents (Elt Ideal)
abbrev EdgeArr : Type := (⟨S2x800000, .i32⟩ : BufTy).Contents (Elt Ideal)
abbrev IdxVec : Type := (⟨S800000, .i32⟩ : BufTy).Contents (Elt Ideal)
abbrev MatStack : Type := (⟨S4x64x64, .f32⟩ : BufTy).Contents (Elt Ideal)
abbrev VecStack : Type := (⟨S4x64, .f32⟩ : BufTy).Contents (Elt Ideal)

/-- The edges' sources and targets: rows 0 and 1 of the edge list. -/
def srcOf (e : EdgeArr) : IdxVec :=
  shapeCast S800000 (extractStridedSlice S1x800000 ![0, 0] e slices_S2x800000_S1x800000_0_0) shapeCasts_S1x800000_S800000
def dstOf (e : EdgeArr) : IdxVec :=
  shapeCast S800000 (extractStridedSlice S1x800000 ![1, 0] e slices_S2x800000_S1x800000_1_0) shapeCasts_S1x800000_S800000

/-- The aggregation of h along the edges with sources s and targets d: rows of h gathered at the sources (a negative
    source first raised by 100000), added into a zero array at the targets. -/
def aggregateAt (h : NodeArr) (s d : IdxVec) : NodeArr :=
  Host.scatterAdd (F := Ideal) scatter_S100000x64_S800000x1_S800000x64_1_0_0_1
    (broadcastInDim S100000x64 ![] bcast_S_S100000x64 (constant (F := Ideal) S_ .f32 0x00000000#32))
    (broadcastInDim S800000x1 ![0] bcast_S800000_S800000x1_0 d)
    (Host.gather gather_S100000x64_S800000x1_S800000x64_1_0_n_n_0_1_164 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 100000#32))) s)))

/-- Layer 0's matrices and bias row, cut out of the stacks. -/
def wRel0 (a : MatStack) : (⟨S64x64, .f32⟩ : BufTy).Contents (Elt Ideal) :=
  shapeCast S64x64 (extractStridedSlice S1x64x64 ![0, 0, 0] a slices_S4x64x64_S1x64x64_0_0_0) shapeCasts_S1x64x64_S64x64
def wRoot0 (a : MatStack) : (⟨S64x64, .f32⟩ : BufTy).Contents (Elt Ideal) :=
  shapeCast S64x64 (extractStridedSlice S1x64x64 ![0, 0, 0] a slices_S4x64x64_S1x64x64_0_0_0) shapeCasts_S1x64x64_S64x64
def biasVec0 (a : VecStack) : (⟨S64, .f32⟩ : BufTy).Contents (Elt Ideal) :=
  shapeCast S64 (extractStridedSlice S1x64 ![0, 0] a slices_S4x64_S1x64_0_0) shapeCasts_S1x64_S64
def biasRow0 (a : VecStack) : (⟨S1x64, .f32⟩ : BufTy).Contents (Elt Ideal) :=
  shapeCast S1x64 (biasVec0 a) shapeCasts_S64_S1x64
/-- Layer 1's matrices and bias row, cut out of the stacks. -/
def wRel1 (a : MatStack) : (⟨S64x64, .f32⟩ : BufTy).Contents (Elt Ideal) :=
  shapeCast S64x64 (extractStridedSlice S1x64x64 ![1, 0, 0] a slices_S4x64x64_S1x64x64_1_0_0) shapeCasts_S1x64x64_S64x64
def wRoot1 (a : MatStack) : (⟨S64x64, .f32⟩ : BufTy).Contents (Elt Ideal) :=
  shapeCast S64x64 (extractStridedSlice S1x64x64 ![1, 0, 0] a slices_S4x64x64_S1x64x64_1_0_0) shapeCasts_S1x64x64_S64x64
def biasVec1 (a : VecStack) : (⟨S64, .f32⟩ : BufTy).Contents (Elt Ideal) :=
  shapeCast S64 (extractStridedSlice S1x64 ![1, 0] a slices_S4x64_S1x64_1_0) shapeCasts_S1x64_S64
def biasRow1 (a : VecStack) : (⟨S1x64, .f32⟩ : BufTy).Contents (Elt Ideal) :=
  shapeCast S1x64 (biasVec1 a) shapeCasts_S64_S1x64
/-- Layer 2's matrices and bias row, cut out of the stacks. -/
def wRel2 (a : MatStack) : (⟨S64x64, .f32⟩ : BufTy).Contents (Elt Ideal) :=
  shapeCast S64x64 (extractStridedSlice S1x64x64 ![2, 0, 0] a slices_S4x64x64_S1x64x64_2_0_0) shapeCasts_S1x64x64_S64x64
def wRoot2 (a : MatStack) : (⟨S64x64, .f32⟩ : BufTy).Contents (Elt Ideal) :=
  shapeCast S64x64 (extractStridedSlice S1x64x64 ![2, 0, 0] a slices_S4x64x64_S1x64x64_2_0_0) shapeCasts_S1x64x64_S64x64
def biasVec2 (a : VecStack) : (⟨S64, .f32⟩ : BufTy).Contents (Elt Ideal) :=
  shapeCast S64 (extractStridedSlice S1x64 ![2, 0] a slices_S4x64_S1x64_2_0) shapeCasts_S1x64_S64
def biasRow2 (a : VecStack) : (⟨S1x64, .f32⟩ : BufTy).Contents (Elt Ideal) :=
  shapeCast S1x64 (biasVec2 a) shapeCasts_S64_S1x64
/-- Layer 3's matrices and bias row, cut out of the stacks. -/
def wRel3 (a : MatStack) : (⟨S64x64, .f32⟩ : BufTy).Contents (Elt Ideal) :=
  shapeCast S64x64 (extractStridedSlice S1x64x64 ![3, 0, 0] a slices_S4x64x64_S1x64x64_3_0_0) shapeCasts_S1x64x64_S64x64
def wRoot3 (a : MatStack) : (⟨S64x64, .f32⟩ : BufTy).Contents (Elt Ideal) :=
  shapeCast S64x64 (extractStridedSlice S1x64x64 ![3, 0, 0] a slices_S4x64x64_S1x64x64_3_0_0) shapeCasts_S1x64x64_S64x64
def biasVec3 (a : VecStack) : (⟨S64, .f32⟩ : BufTy).Contents (Elt Ideal) :=
  shapeCast S64 (extractStridedSlice S1x64 ![3, 0] a slices_S4x64_S1x64_3_0) shapeCasts_S1x64_S64
def biasRow3 (a : VecStack) : (⟨S1x64, .f32⟩ : BufTy).Contents (Elt Ideal) :=
  shapeCast S1x64 (biasVec3 a) shapeCasts_S64_S1x64

variable (x : NodeArr) (e : EdgeArr) (wr : MatStack) (br : VecStack) (wo : MatStack)

/-- The features after each layer. -/
def feat1 : NodeArr :=
  layer (M := 100000) (K := 64) (N := 64) (aggregateAt x (srcOf e) (dstOf e)) x x (wRel0 wr) (wRoot0 wo) (biasRow0 br)
def feat2 : NodeArr :=
  layer (M := 100000) (K := 64) (N := 64) (aggregateAt (feat1 x e wr br wo) (srcOf e) (dstOf e)) (feat1 x e wr br wo) x (wRel1 wr) (wRoot1 wo) (biasRow1 br)
def feat3 : NodeArr :=
  layer (M := 100000) (K := 64) (N := 64) (aggregateAt (feat2 x e wr br wo) (srcOf e) (dstOf e)) (feat2 x e wr br wo) x (wRel2 wr) (wRoot2 wo) (biasRow2 br)
def feat4 : NodeArr :=
  layer (M := 100000) (K := 64) (N := 64) (aggregateAt (feat3 x e wr br wo) (srcOf e) (dstOf e)) (feat3 x e wr br wo) x (wRel3 wr) (wRoot3 wo) (biasRow3 br)

/-- The network's output: the projection of the last features, as a length-100000 vector. -/
def output (w : (⟨S64x1, .f32⟩ : BufTy).Contents (Elt Ideal)) (b : (⟨S1, .f32⟩ : BufTy).Contents (Elt Ideal)) :
    (⟨S100000, .f32⟩ : BufTy).Contents (Elt Ideal) :=
  shapeCast S100000 (affine (M := 100000) (K := 64) (N := 1) (feat4 x e wr br wo) w (shapeCast S1x1 b shapeCasts_S1_S1x1)) shapeCasts_S100000x1_S100000

end Cert.KernelIdeal.Network

end
-- ==== Proof.KI_Value.lean ====
/-
  The kernel program computes the network.

  The buffers are followed through the program's eleven items. A stretch of host operations leaves, in the buffers it
  writes, the operations' results over what was there: the edge list's two rows, the aggregation of the current
  features along the edges, the layer's matrices and bias row cut out of the stacks — all in the spelling the network's
  closed form names. A region leaves in its result array the layer (or the projection) of the whole arrays it was
  entered with. Nothing else writes the index vectors, the arguments or an earlier layer's features, so they are read
  where they were made. Composed: the last buffer holds the network's output of the launch contents.
-/
import proofs.«108808_j5119601017047_1_alg».proof.Proof.KI_Run
import proofs.«108808_j5119601017047_1_alg».proof.Proof.KI_Layer0Value
import proofs.«108808_j5119601017047_1_alg».proof.Proof.KI_Layer1Value
import proofs.«108808_j5119601017047_1_alg».proof.Proof.KI_Layer2Value
import proofs.«108808_j5119601017047_1_alg».proof.Proof.KI_Layer3Value
import proofs.«108808_j5119601017047_1_alg».proof.Proof.KI_ProjectValue
import proofs.«108808_j5119601017047_1_alg».proof.Proof.KI_Network
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Network Cert.ResidualLayer

variable (m : (ℓ : Loc nD τ sig) → Buf (Elt Ideal) ℓ) (c : Dev nD)

/-! ## What the first stretch of host operations leaves -/

set_option maxHeartbeats 4000000 in
theorem src_made : B1 m c (Proc.devRef .tc main_v1) = srcOf (m ((c : Thread nD τ).loc main_arg1)) := by
  dsimp only [B1]
  after_results
  rfl
set_option maxHeartbeats 4000000 in
theorem dst_made : B1 m c (Proc.devRef .tc main_v3) = dstOf (m ((c : Thread nD τ).loc main_arg1)) := by
  dsimp only [B1]
  after_results
  rfl

/-- The index vectors and the arguments are read, at every later boundary, where they were made. -/
theorem src_at2 : B2 m c (Proc.devRef .tc main_v1) = srcOf (m ((c : Thread nD τ).loc main_arg1)) := ((B2_keep m c main_v1 (by decide)).trans <| rfl : B2 m c (Proc.devRef .tc main_v1) = B1 m c (Proc.devRef .tc main_v1)).trans (src_made m c)
theorem dst_at2 : B2 m c (Proc.devRef .tc main_v3) = dstOf (m ((c : Thread nD τ).loc main_arg1)) := ((B2_keep m c main_v3 (by decide)).trans <| rfl : B2 m c (Proc.devRef .tc main_v3) = B1 m c (Proc.devRef .tc main_v3)).trans (dst_made m c)
theorem src_at4 : B4 m c (Proc.devRef .tc main_v1) = srcOf (m ((c : Thread nD τ).loc main_arg1)) := ((B4_keep m c main_v1 (by decide)).trans <| (B3_keep m c main_v1 (by decide)).trans <| (B2_keep m c main_v1 (by decide)).trans <| rfl : B4 m c (Proc.devRef .tc main_v1) = B1 m c (Proc.devRef .tc main_v1)).trans (src_made m c)
theorem dst_at4 : B4 m c (Proc.devRef .tc main_v3) = dstOf (m ((c : Thread nD τ).loc main_arg1)) := ((B4_keep m c main_v3 (by decide)).trans <| (B3_keep m c main_v3 (by decide)).trans <| (B2_keep m c main_v3 (by decide)).trans <| rfl : B4 m c (Proc.devRef .tc main_v3) = B1 m c (Proc.devRef .tc main_v3)).trans (dst_made m c)
theorem src_at6 : B6 m c (Proc.devRef .tc main_v1) = srcOf (m ((c : Thread nD τ).loc main_arg1)) := ((B6_keep m c main_v1 (by decide)).trans <| (B5_keep m c main_v1 (by decide)).trans <| (B4_keep m c main_v1 (by decide)).trans <| (B3_keep m c main_v1 (by decide)).trans <| (B2_keep m c main_v1 (by decide)).trans <| rfl : B6 m c (Proc.devRef .tc main_v1) = B1 m c (Proc.devRef .tc main_v1)).trans (src_made m c)
theorem dst_at6 : B6 m c (Proc.devRef .tc main_v3) = dstOf (m ((c : Thread nD τ).loc main_arg1)) := ((B6_keep m c main_v3 (by decide)).trans <| (B5_keep m c main_v3 (by decide)).trans <| (B4_keep m c main_v3 (by decide)).trans <| (B3_keep m c main_v3 (by decide)).trans <| (B2_keep m c main_v3 (by decide)).trans <| rfl : B6 m c (Proc.devRef .tc main_v3) = B1 m c (Proc.devRef .tc main_v3)).trans (dst_made m c)
theorem arg0_at1 : B1 m c (Proc.devRef .tc main_arg0) = (m ((c : Thread nD τ).loc main_arg0)) := (B1_keep m c main_arg0 (by decide)).trans <| rfl
theorem arg0_at3 : B3 m c (Proc.devRef .tc main_arg0) = (m ((c : Thread nD τ).loc main_arg0)) := (B3_keep m c main_arg0 (by decide)).trans <| (B2_keep m c main_arg0 (by decide)).trans <| (B1_keep m c main_arg0 (by decide)).trans <| rfl
theorem arg0_at5 : B5 m c (Proc.devRef .tc main_arg0) = (m ((c : Thread nD τ).loc main_arg0)) := (B5_keep m c main_arg0 (by decide)).trans <| (B4_keep m c main_arg0 (by decide)).trans <| (B3_keep m c main_arg0 (by decide)).trans <| (B2_keep m c main_arg0 (by decide)).trans <| (B1_keep m c main_arg0 (by decide)).trans <| rfl
theorem arg0_at7 : B7 m c (Proc.devRef .tc main_arg0) = (m ((c : Thread nD τ).loc main_arg0)) := (B7_keep m c main_arg0 (by decide)).trans <| (B6_keep m c main_arg0 (by decide)).trans <| (B5_keep m c main_arg0 (by decide)).trans <| (B4_keep m c main_arg0 (by decide)).trans <| (B3_keep m c main_arg0 (by decide)).trans <| (B2_keep m c main_arg0 (by decide)).trans <| (B1_keep m c main_arg0 (by decide)).trans <| rfl
theorem arg2_at2 : B2 m c (Proc.devRef .tc main_arg2) = (m ((c : Thread nD τ).loc main_arg2)) := (B2_keep m c main_arg2 (by decide)).trans <| (B1_keep m c main_arg2 (by decide)).trans <| rfl
theorem arg2_at4 : B4 m c (Proc.devRef .tc main_arg2) = (m ((c : Thread nD τ).loc main_arg2)) := (B4_keep m c main_arg2 (by decide)).trans <| (B3_keep m c main_arg2 (by decide)).trans <| (B2_keep m c main_arg2 (by decide)).trans <| (B1_keep m c main_arg2 (by decide)).trans <| rfl
theorem arg2_at6 : B6 m c (Proc.devRef .tc main_arg2) = (m ((c : Thread nD τ).loc main_arg2)) := (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide)).trans <| rfl
theorem arg3_at2 : B2 m c (Proc.devRef .tc main_arg3) = (m ((c : Thread nD τ).loc main_arg3)) := (B2_keep m c main_arg3 (by decide)).trans <| (B1_keep m c main_arg3 (by decide)).trans <| rfl
theorem arg3_at4 : B4 m c (Proc.devRef .tc main_arg3) = (m ((c : Thread nD τ).loc main_arg3)) := (B4_keep m c main_arg3 (by decide)).trans <| (B3_keep m c main_arg3 (by decide)).trans <| (B2_keep m c main_arg3 (by decide)).trans <| (B1_keep m c main_arg3 (by decide)).trans <| rfl
theorem arg3_at6 : B6 m c (Proc.devRef .tc main_arg3) = (m ((c : Thread nD τ).loc main_arg3)) := (B6_keep m c main_arg3 (by decide)).trans <| (B5_keep m c main_arg3 (by decide)).trans <| (B4_keep m c main_arg3 (by decide)).trans <| (B3_keep m c main_arg3 (by decide)).trans <| (B2_keep m c main_arg3 (by decide)).trans <| (B1_keep m c main_arg3 (by decide)).trans <| rfl
theorem arg4_at2 : B2 m c (Proc.devRef .tc main_arg4) = (m ((c : Thread nD τ).loc main_arg4)) := (B2_keep m c main_arg4 (by decide)).trans <| (B1_keep m c main_arg4 (by decide)).trans <| rfl
theorem arg4_at4 : B4 m c (Proc.devRef .tc main_arg4) = (m ((c : Thread nD τ).loc main_arg4)) := (B4_keep m c main_arg4 (by decide)).trans <| (B3_keep m c main_arg4 (by decide)).trans <| (B2_keep m c main_arg4 (by decide)).trans <| (B1_keep m c main_arg4 (by decide)).trans <| rfl
theorem arg4_at6 : B6 m c (Proc.devRef .tc main_arg4) = (m ((c : Thread nD τ).loc main_arg4)) := (B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide)).trans <| rfl
theorem arg5_at9 : B9 m c (Proc.devRef .tc main_arg5) = (m ((c : Thread nD τ).loc main_arg5)) := (B9_keep m c main_arg5 (by decide)).trans <| (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide)).trans <| rfl
theorem arg6_at8 : B8 m c (Proc.devRef .tc main_arg6) = (m ((c : Thread nD τ).loc main_arg6)) := (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide)).trans <| rfl

/-! ## Layer by layer -/

set_option maxHeartbeats 4000000 in
theorem agg0_made : B1 m c (Proc.devRef .tc main_v13) = aggregateAt (m ((c : Thread nD τ).loc main_arg0)) (srcOf (m ((c : Thread nD τ).loc main_arg1))) (dstOf (m ((c : Thread nD τ).loc main_arg1))) := by
  dsimp only [B1]
  after_results
  rfl
set_option maxHeartbeats 4000000 in
theorem wrel0_made : B1 m c (Proc.devRef .tc main_v15) = wRel0 (m ((c : Thread nD τ).loc main_arg2)) := by
  dsimp only [B1]
  after_results
  rfl
set_option maxHeartbeats 4000000 in
theorem bias0_made : B1 m c (Proc.devRef .tc main_v20) = biasRow0 (m ((c : Thread nD τ).loc main_arg3)) := by
  dsimp only [B1]
  after_results
  rfl
set_option maxHeartbeats 4000000 in
theorem wroot0_made : B1 m c (Proc.devRef .tc main_v19) = wRoot0 (m ((c : Thread nD τ).loc main_arg4)) := by
  dsimp only [B1]
  after_results
  rfl

/-- Layer 0 leaves the features after it. -/
theorem feat1_at2 : B2 m c (Proc.devRef .tc main_v21) = feat1 (m ((c : Thread nD τ).loc main_arg0)) (m ((c : Thread nD τ).loc main_arg1)) (m ((c : Thread nD τ).loc main_arg2)) (m ((c : Thread nD τ).loc main_arg3)) (m ((c : Thread nD τ).loc main_arg4)) := by
  rw [B2_result, Layer0.final]
  unfold Layer0.whole feat1
  show layer (B1 m c (Proc.devRef .tc main_v13)) (B1 m c (Proc.devRef .tc main_arg0)) (B1 m c (Proc.devRef .tc main_arg0)) (B1 m c (Proc.devRef .tc main_v15)) (B1 m c (Proc.devRef .tc main_v19)) (B1 m c (Proc.devRef .tc main_v20)) = _
  rw [agg0_made, arg0_at1, wrel0_made, wroot0_made, bias0_made]

set_option maxHeartbeats 4000000 in
theorem agg1_made : B3 m c (Proc.devRef .tc main_v31) = aggregateAt (feat1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  have e : B3 m c (Proc.devRef .tc main_v31) = aggregateAt (B2 m c (Proc.devRef .tc main_v21)) (B2 m c (Proc.devRef .tc main_v1)) (B2 m c (Proc.devRef .tc main_v3)) := by
    show StableHlo.after hostOps1 (B2 m c) _ = _
    after_results
    rfl
  rw [e, feat1_at2, src_at2, dst_at2]
set_option maxHeartbeats 4000000 in
theorem wrel1_made : B3 m c (Proc.devRef .tc main_v33) = wRel1 (m ((c : Thread nD τ).loc main_arg2)) := by
  have e : B3 m c (Proc.devRef .tc main_v33) = wRel1 (B2 m c (Proc.devRef .tc main_arg2)) := by
    show StableHlo.after hostOps1 (B2 m c) _ = _
    after_results
    rfl
  rw [e, arg2_at2]
set_option maxHeartbeats 4000000 in
theorem bias1_made : B3 m c (Proc.devRef .tc main_v38) = biasRow1 (m ((c : Thread nD τ).loc main_arg3)) := by
  have e : B3 m c (Proc.devRef .tc main_v38) = biasRow1 (B2 m c (Proc.devRef .tc main_arg3)) := by
    show StableHlo.after hostOps1 (B2 m c) _ = _
    after_results
    rfl
  rw [e, arg3_at2]
set_option maxHeartbeats 4000000 in
theorem wroot1_made : B3 m c (Proc.devRef .tc main_v37) = wRoot1 (m ((c : Thread nD τ).loc main_arg4)) := by
  have e : B3 m c (Proc.devRef .tc main_v37) = wRoot1 (B2 m c (Proc.devRef .tc main_arg4)) := by
    show StableHlo.after hostOps1 (B2 m c) _ = _
    after_results
    rfl
  rw [e, arg4_at2]
theorem feat1_at3 : B3 m c (Proc.devRef .tc main_v21) = feat1 (m ((c : Thread nD τ).loc main_arg0)) (m ((c : Thread nD τ).loc main_arg1)) (m ((c : Thread nD τ).loc main_arg2)) (m ((c : Thread nD τ).loc main_arg3)) (m ((c : Thread nD τ).loc main_arg4)) :=
  (B3_keep m c main_v21 (by decide)).trans (feat1_at2 m c)

/-- Layer 1 leaves the features after it. -/
theorem feat2_at4 : B4 m c (Proc.devRef .tc main_v39) = feat2 (m ((c : Thread nD τ).loc main_arg0)) (m ((c : Thread nD τ).loc main_arg1)) (m ((c : Thread nD τ).loc main_arg2)) (m ((c : Thread nD τ).loc main_arg3)) (m ((c : Thread nD τ).loc main_arg4)) := by
  rw [B4_result, Layer1.final]
  unfold Layer1.whole feat2
  show layer (B3 m c (Proc.devRef .tc main_v31)) (B3 m c (Proc.devRef .tc main_v21)) (B3 m c (Proc.devRef .tc main_arg0)) (B3 m c (Proc.devRef .tc main_v33)) (B3 m c (Proc.devRef .tc main_v37)) (B3 m c (Proc.devRef .tc main_v38)) = _
  rw [agg1_made, feat1_at3, arg0_at3, wrel1_made, wroot1_made, bias1_made]

set_option maxHeartbeats 4000000 in
theorem agg2_made : B5 m c (Proc.devRef .tc main_v49) = aggregateAt (feat2 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  have e : B5 m c (Proc.devRef .tc main_v49) = aggregateAt (B4 m c (Proc.devRef .tc main_v39)) (B4 m c (Proc.devRef .tc main_v1)) (B4 m c (Proc.devRef .tc main_v3)) := by
    show StableHlo.after hostOps2 (B4 m c) _ = _
    after_results
    rfl
  rw [e, feat2_at4, src_at4, dst_at4]
set_option maxHeartbeats 4000000 in
theorem wrel2_made : B5 m c (Proc.devRef .tc main_v51) = wRel2 (m ((c : Thread nD τ).loc main_arg2)) := by
  have e : B5 m c (Proc.devRef .tc main_v51) = wRel2 (B4 m c (Proc.devRef .tc main_arg2)) := by
    show StableHlo.after hostOps2 (B4 m c) _ = _
    after_results
    rfl
  rw [e, arg2_at4]
set_option maxHeartbeats 4000000 in
theorem bias2_made : B5 m c (Proc.devRef .tc main_v56) = biasRow2 (m ((c : Thread nD τ).loc main_arg3)) := by
  have e : B5 m c (Proc.devRef .tc main_v56) = biasRow2 (B4 m c (Proc.devRef .tc main_arg3)) := by
    show StableHlo.after hostOps2 (B4 m c) _ = _
    after_results
    rfl
  rw [e, arg3_at4]
set_option maxHeartbeats 4000000 in
theorem wroot2_made : B5 m c (Proc.devRef .tc main_v55) = wRoot2 (m ((c : Thread nD τ).loc main_arg4)) := by
  have e : B5 m c (Proc.devRef .tc main_v55) = wRoot2 (B4 m c (Proc.devRef .tc main_arg4)) := by
    show StableHlo.after hostOps2 (B4 m c) _ = _
    after_results
    rfl
  rw [e, arg4_at4]
theorem feat2_at5 : B5 m c (Proc.devRef .tc main_v39) = feat2 (m ((c : Thread nD τ).loc main_arg0)) (m ((c : Thread nD τ).loc main_arg1)) (m ((c : Thread nD τ).loc main_arg2)) (m ((c : Thread nD τ).loc main_arg3)) (m ((c : Thread nD τ).loc main_arg4)) :=
  (B5_keep m c main_v39 (by decide)).trans (feat2_at4 m c)

/-- Layer 2 leaves the features after it. -/
theorem feat3_at6 : B6 m c (Proc.devRef .tc main_v57) = feat3 (m ((c : Thread nD τ).loc main_arg0)) (m ((c : Thread nD τ).loc main_arg1)) (m ((c : Thread nD τ).loc main_arg2)) (m ((c : Thread nD τ).loc main_arg3)) (m ((c : Thread nD τ).loc main_arg4)) := by
  rw [B6_result, Layer2.final]
  unfold Layer2.whole feat3
  show layer (B5 m c (Proc.devRef .tc main_v49)) (B5 m c (Proc.devRef .tc main_v39)) (B5 m c (Proc.devRef .tc main_arg0)) (B5 m c (Proc.devRef .tc main_v51)) (B5 m c (Proc.devRef .tc main_v55)) (B5 m c (Proc.devRef .tc main_v56)) = _
  rw [agg2_made, feat2_at5, arg0_at5, wrel2_made, wroot2_made, bias2_made]

set_option maxHeartbeats 4000000 in
theorem agg3_made : B7 m c (Proc.devRef .tc main_v67) = aggregateAt (feat3 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  have e : B7 m c (Proc.devRef .tc main_v67) = aggregateAt (B6 m c (Proc.devRef .tc main_v57)) (B6 m c (Proc.devRef .tc main_v1)) (B6 m c (Proc.devRef .tc main_v3)) := by
    show StableHlo.after hostOps3 (B6 m c) _ = _
    after_results
    rfl
  rw [e, feat3_at6, src_at6, dst_at6]
set_option maxHeartbeats 4000000 in
theorem wrel3_made : B7 m c (Proc.devRef .tc main_v69) = wRel3 (m ((c : Thread nD τ).loc main_arg2)) := by
  have e : B7 m c (Proc.devRef .tc main_v69) = wRel3 (B6 m c (Proc.devRef .tc main_arg2)) := by
    show StableHlo.after hostOps3 (B6 m c) _ = _
    after_results
    rfl
  rw [e, arg2_at6]
set_option maxHeartbeats 4000000 in
theorem bias3_made : B7 m c (Proc.devRef .tc main_v74) = biasRow3 (m ((c : Thread nD τ).loc main_arg3)) := by
  have e : B7 m c (Proc.devRef .tc main_v74) = biasRow3 (B6 m c (Proc.devRef .tc main_arg3)) := by
    show StableHlo.after hostOps3 (B6 m c) _ = _
    after_results
    rfl
  rw [e, arg3_at6]
set_option maxHeartbeats 4000000 in
theorem wroot3_made : B7 m c (Proc.devRef .tc main_v73) = wRoot3 (m ((c : Thread nD τ).loc main_arg4)) := by
  have e : B7 m c (Proc.devRef .tc main_v73) = wRoot3 (B6 m c (Proc.devRef .tc main_arg4)) := by
    show StableHlo.after hostOps3 (B6 m c) _ = _
    after_results
    rfl
  rw [e, arg4_at6]
theorem feat3_at7 : B7 m c (Proc.devRef .tc main_v57) = feat3 (m ((c : Thread nD τ).loc main_arg0)) (m ((c : Thread nD τ).loc main_arg1)) (m ((c : Thread nD τ).loc main_arg2)) (m ((c : Thread nD τ).loc main_arg3)) (m ((c : Thread nD τ).loc main_arg4)) :=
  (B7_keep m c main_v57 (by decide)).trans (feat3_at6 m c)

/-- Layer 3 leaves the features after it. -/
theorem feat4_at8 : B8 m c (Proc.devRef .tc main_v75) = feat4 (m ((c : Thread nD τ).loc main_arg0)) (m ((c : Thread nD τ).loc main_arg1)) (m ((c : Thread nD τ).loc main_arg2)) (m ((c : Thread nD τ).loc main_arg3)) (m ((c : Thread nD τ).loc main_arg4)) := by
  rw [B8_result, Layer3.final]
  unfold Layer3.whole feat4
  show layer (B7 m c (Proc.devRef .tc main_v67)) (B7 m c (Proc.devRef .tc main_v57)) (B7 m c (Proc.devRef .tc main_arg0)) (B7 m c (Proc.devRef .tc main_v69)) (B7 m c (Proc.devRef .tc main_v73)) (B7 m c (Proc.devRef .tc main_v74)) = _
  rw [agg3_made, feat3_at7, arg0_at7, wrel3_made, wroot3_made, bias3_made]

/-! ## The projection and the return -/

theorem feat4_at9 : B9 m c (Proc.devRef .tc main_v75) = feat4 (m ((c : Thread nD τ).loc main_arg0)) (m ((c : Thread nD τ).loc main_arg1)) (m ((c : Thread nD τ).loc main_arg2)) (m ((c : Thread nD τ).loc main_arg3)) (m ((c : Thread nD τ).loc main_arg4)) :=
  (B9_keep m c main_v75 (by decide)).trans (feat4_at8 m c)
set_option maxHeartbeats 4000000 in
theorem bias_made : B9 m c (Proc.devRef .tc main_v76) = shapeCast S1x1 (m ((c : Thread nD τ).loc main_arg6)) shapeCasts_S1_S1x1 := by
  have e : B9 m c (Proc.devRef .tc main_v76) = shapeCast S1x1 (B8 m c (Proc.devRef .tc main_arg6)) shapeCasts_S1_S1x1 := by
    show StableHlo.after hostOps4 (B8 m c) _ = _
    after_results
    rfl
  rw [e, arg6_at8]

/-- THE RESULT: the last buffer holds the network's output of the launch contents. -/
theorem result_eq : B11 m c (Proc.devRef .tc main_v78) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : B11 m c (Proc.devRef .tc main_v78) = shapeCast S100000 (B10 m c (Proc.devRef .tc main_v77)) shapeCasts_S100000x1_S100000 := by
    show StableHlo.after hostOps5 (B10 m c) _ = _
    after_results
    rfl
  rw [e, B10_result, Project.final]
  unfold Project.whole output
  show shapeCast S100000 (affine (B9 m c (Proc.devRef .tc main_v75)) (B9 m c (Proc.devRef .tc main_arg5)) (B9 m c (Proc.devRef .tc main_v76))) shapeCasts_S100000x1_S100000 = _
  rw [feat4_at9, arg5_at9, bias_made]

end Cert.KernelIdeal.Whole

end
-- ==== Proof.RI_Value.lean ====
/-
  The reference program computes the network.

  Stage by stage (the generated reading of the reference's host operations): the edge list's two rows, the aggregation
  (a gather of rows and an accumulating scatter) and the slices of the weight stacks are spelt with the very operations
  the network's closed form names, so they agree by unfolding; each layer is two dot_generals, the bias spread over the
  rows, the maximum with a spread zero and the sum with x, which is the general layer in the host's spelling; the output
  is the last features times the column plus the spread bias number, recast as a vector.
-/
import proofs.«108808_j5119601017047_1_alg».proof.Proof.Gen.ReferenceIdeal.Read
import proofs.«108808_j5119601017047_1_alg».proof.Proof.KI_Network

set_option maxRecDepth 16384

noncomputable section

namespace Cert.ReferenceIdeal.Net

open Idealize.ShloMosaic Idealize.ShloMosaic.TcCoe Idealize.SL.Sem
open Cert.ReferenceIdeal Cert.ReferenceIdeal.Read Cert.KernelIdeal.Network Cert.ResidualLayer
open Cert.KernelIdeal.Facts₀ Cert.KernelIdeal.Facts

variable (x0 : (⟨S100000x64, .f32⟩ : BufTy).Contents (Elt Ideal)) (x1 : (⟨S2x800000, .i32⟩ : BufTy).Contents (Elt Ideal))
  (x2 : (⟨S4x64x64, .f32⟩ : BufTy).Contents (Elt Ideal)) (x3 : (⟨S4x64, .f32⟩ : BufTy).Contents (Elt Ideal))
  (x4 : (⟨S4x64x64, .f32⟩ : BufTy).Contents (Elt Ideal)) (x5 : (⟨S64x1, .f32⟩ : BufTy).Contents (Elt Ideal))
  (x6 : (⟨S1, .f32⟩ : BufTy).Contents (Elt Ideal))

/-! ## Layer 0 -/

theorem agg0_eq : val_main_v13 (F := Ideal) x0 x1
    = aggregateAt x0 (srcOf x1) (dstOf x1) := rfl
theorem wrel0_eq : val_main_v15 (F := Ideal) x2 = wRel0 x2 := rfl
theorem wroot0_eq : val_main_v23 (F := Ideal) x4 = wRoot0 x4 := rfl
theorem bvec0_eq : val_main_v18 (F := Ideal) x3 = biasVec0 x3 := rfl

set_option maxHeartbeats 2000000 in
theorem feat1_eq : val_main_v27 (F := Ideal) x0 x1 x2 x3 x4 = feat1 x0 x1 x2 x3 x4 := by
  unfold val_main_v27 val_main_v26 val_main_v25 val_main_v21 val_main_v24 val_main_v16 val_main_v20 val_main_v19
    val_main_call0_v0 val_main_call0_cst feat1
  rw [agg0_eq, wrel0_eq, wroot0_eq, bvec0_eq]
  exact host_layer_eq (M := 100000) (K := 64) (N := 64) none _ _ _ _ _ _ _ _ _ _

/-! ## Layer 1 -/

theorem agg1_eq : val_main_v37 (F := Ideal) x0 x1 x2 x3 x4
    = aggregateAt (val_main_v27 (F := Ideal) x0 x1 x2 x3 x4) (srcOf x1) (dstOf x1) := rfl
theorem wrel1_eq : val_main_v39 (F := Ideal) x2 = wRel1 x2 := rfl
theorem wroot1_eq : val_main_v47 (F := Ideal) x4 = wRoot1 x4 := rfl
theorem bvec1_eq : val_main_v42 (F := Ideal) x3 = biasVec1 x3 := rfl

set_option maxHeartbeats 2000000 in
theorem feat2_eq : val_main_v51 (F := Ideal) x0 x1 x2 x3 x4 = feat2 x0 x1 x2 x3 x4 := by
  unfold val_main_v51 val_main_v50 val_main_v49 val_main_v45 val_main_v48 val_main_v40 val_main_v44 val_main_v43
    val_main_call1_v0 val_main_call1_cst feat2
  rw [agg1_eq, wrel1_eq, wroot1_eq, bvec1_eq, feat1_eq]
  exact host_layer_eq (M := 100000) (K := 64) (N := 64) none _ _ _ _ _ _ _ _ _ _

/-! ## Layer 2 -/

theorem agg2_eq : val_main_v61 (F := Ideal) x0 x1 x2 x3 x4
    = aggregateAt (val_main_v51 (F := Ideal) x0 x1 x2 x3 x4) (srcOf x1) (dstOf x1) := rfl
theorem wrel2_eq : val_main_v63 (F := Ideal) x2 = wRel2 x2 := rfl
theorem wroot2_eq : val_main_v71 (F := Ideal) x4 = wRoot2 x4 := rfl
theorem bvec2_eq : val_main_v66 (F := Ideal) x3 = biasVec2 x3 := rfl

set_option maxHeartbeats 2000000 in
theorem feat3_eq : val_main_v75 (F := Ideal) x0 x1 x2 x3 x4 = feat3 x0 x1 x2 x3 x4 := by
  unfold val_main_v75 val_main_v74 val_main_v73 val_main_v69 val_main_v72 val_main_v64 val_main_v68 val_main_v67
    val_main_call2_v0 val_main_call2_cst feat3
  rw [agg2_eq, wrel2_eq, wroot2_eq, bvec2_eq, feat2_eq]
  exact host_layer_eq (M := 100000) (K := 64) (N := 64) none _ _ _ _ _ _ _ _ _ _

/-! ## Layer 3 -/

theorem agg3_eq : val_main_v85 (F := Ideal) x0 x1 x2 x3 x4
    = aggregateAt (val_main_v75 (F := Ideal) x0 x1 x2 x3 x4) (srcOf x1) (dstOf x1) := rfl
theorem wrel3_eq : val_main_v87 (F := Ideal) x2 = wRel3 x2 := rfl
theorem wroot3_eq : val_main_v95 (F := Ideal) x4 = wRoot3 x4 := rfl
theorem bvec3_eq : val_main_v90 (F := Ideal) x3 = biasVec3 x3 := rfl

set_option maxHeartbeats 2000000 in
theorem feat4_eq : val_main_v99 (F := Ideal) x0 x1 x2 x3 x4 = feat4 x0 x1 x2 x3 x4 := by
  unfold val_main_v99 val_main_v98 val_main_v97 val_main_v93 val_main_v96 val_main_v88 val_main_v92 val_main_v91
    val_main_call3_v0 val_main_call3_cst feat4
  rw [agg3_eq, wrel3_eq, wroot3_eq, bvec3_eq, feat3_eq]
  exact host_layer_eq (M := 100000) (K := 64) (N := 64) none _ _ _ _ _ _ _ _ _ _

/-! ## The output -/

set_option maxHeartbeats 2000000 in
theorem output_eq : val_main_v104 (F := Ideal) x0 x1 x2 x3 x4 x5 x6 = output x0 x1 x2 x3 x4 x5 x6 := by
  unfold val_main_v104 val_main_v103 val_main_v102 val_main_v101 val_main_v100 output
  rw [feat4_eq]
  exact congrArg (fun y => shapeCast S100000 y shapeCasts_S100000x1_S100000)
    (host_affine_eq (M := 100000) (K := 64) (N := 1) none _ _ _ _ _ _)

/-- The reference run's result, named by the network's closed form of the launch contents. -/
theorem result_eq (m : (ℓ : Loc nD τ sig) → Buf (Elt Ideal) ℓ) (c : Dev nD) :
    Cert.ReferenceIdeal.Value.res_main_v104 m c
      = output (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (val_main_v104_eq m c).trans (output_eq _ _ _ _ _ _ _)

end Cert.ReferenceIdeal.Net

end
-- ==== Proof.lean ====
/-
  A four-layer message-passing network with a residual,  h_{l+1} = max(agg(h_l)·W_rel[l] + b_rel[l] + h_l·W_root[l], 0) + x,
  followed by a projection  h₄·w + b,  on 100000 nodes with 64 features and 800000 edges: the kernel program against its
  plain reference, at the exact (extended-real) values.

  The kernel program keeps the aggregation along the edges (a gather of rows and an accumulating scatter) on the host and
  runs each layer, and the projection, as a staged pipeline over 25 blocks of 4000 nodes: a block's rows times the two
  64×64 matrices (operands first changed to a narrower float format, which at the exact values keeps them), the bias row
  spread over the block, the rectifier, the block of x added. The reference computes each layer on the whole arrays. A row
  of a layer's result depends on the same row of its node operands only, and a product into a zero accumulator and the
  host's dot_general are the same sum over k < 64; so the 25 blocks laid end to end are the layer of the whole arrays,
  layer after layer, and both programs end with the one function `Network.output` of the seven arguments. No law beyond
  that reading is used: the two sides are the same sums in the same order, and finiteness of the inputs is never opened.

  Frames: each kernel program is eleven items in a row (six stretches of host operations, five regions), every region
  entered from and left at "every unscoped buffer at named contents"; in the first layer the input features stand behind
  two windows of one pipeline, and the array is split between them for the region's duration. No item writes an argument.
  The reference is host operations only. The idealization rewrote nothing, so `preserves` has nothing to state.
-/
import proofs.«108808_j5119601017047_1_alg».proof.Defs
import proofs.«108808_j5119601017047_1_alg».proof.Proof.Gen.Kernel
import proofs.«108808_j5119601017047_1_alg».proof.Proof.Gen.KernelIdeal
import proofs.«108808_j5119601017047_1_alg».proof.Proof.Gen.ReferenceIdeal
import proofs.«108808_j5119601017047_1_alg».proof.Proof.Gen.Pre_finite_inputs
import proofs.«108808_j5119601017047_1_alg».proof.Proof.Gen.ReferenceIdeal.Run
import proofs.«108808_j5119601017047_1_alg».proof.Proof.Gen.ReferenceIdeal.Read
import proofs.«108808_j5119601017047_1_alg».proof.Proof.K_Run
import proofs.«108808_j5119601017047_1_alg».proof.Proof.KI_Value
import proofs.«108808_j5119601017047_1_alg».proof.Proof.RI_Value
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Whole.frame (F := Bits) m ρ

/-- So does the kernel program read at the exact values. -/
theorem frame_kernelIdeal : Cert.frame_KernelIdeal := fun m ρ _ => Cert.KernelIdeal.Whole.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact values both programs end with the network's output of the arguments. -/
theorem algebraic : Cert.algebraic_KernelIdeal_ReferenceIdeal := by
  intro m ρ m' ρ' _ hagree
  refine ⟨fun c => Cert.KernelIdeal.Network.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨?_, ?_⟩) (Cert.KernelIdeal.Whole.run (F := Ideal) m ρ)
    · exact (h c _ (Cert.KernelIdeal.Whole.mem_uc Cert.KernelIdeal.main_v78 (by decide))).trans (Cert.KernelIdeal.Whole.result_eq m c)
    · exact ⟨
        (h c _ (Cert.KernelIdeal.Whole.mem_uc Cert.KernelIdeal.main_arg0 (by decide))).trans (Cert.KernelIdeal.Whole.B11_launch m c Cert.KernelIdeal.main_arg0 (by decide) (by decide) (by decide) (by decide) (by decide) (by decide) (by decide) (by decide) (by decide) (by decide) (by decide)),
        (h c _ (Cert.KernelIdeal.Whole.mem_uc Cert.KernelIdeal.main_arg1 (by decide))).trans (Cert.KernelIdeal.Whole.B11_launch m c Cert.KernelIdeal.main_arg1 (by decide) (by decide) (by decide) (by decide) (by decide) (by decide) (by decide) (by decide) (by decide) (by decide) (by decide)),
        (h c _ (Cert.KernelIdeal.Whole.mem_uc Cert.KernelIdeal.main_arg2 (by decide))).trans (Cert.KernelIdeal.Whole.B11_launch m c Cert.KernelIdeal.main_arg2 (by decide) (by decide) (by decide) (by decide) (by decide) (by decide) (by decide) (by decide) (by decide) (by decide) (by decide)),
        (h c _ (Cert.KernelIdeal.Whole.mem_uc Cert.KernelIdeal.main_arg3 (by decide))).trans (Cert.KernelIdeal.Whole.B11_launch m c Cert.KernelIdeal.main_arg3 (by decide) (by decide) (by decide) (by decide) (by decide) (by decide) (by decide) (by decide) (by decide) (by decide) (by decide)),
        (h c _ (Cert.KernelIdeal.Whole.mem_uc Cert.KernelIdeal.main_arg4 (by decide))).trans (Cert.KernelIdeal.Whole.B11_launch m c Cert.KernelIdeal.main_arg4 (by decide) (by decide) (by decide) (by decide) (by decide) (by decide) (by decide) (by decide) (by decide) (by decide) (by decide)),
        (h c _ (Cert.KernelIdeal.Whole.mem_uc Cert.KernelIdeal.main_arg5 (by decide))).trans (Cert.KernelIdeal.Whole.B11_launch m c Cert.KernelIdeal.main_arg5 (by decide) (by decide) (by decide) (by decide) (by decide) (by decide) (by decide) (by decide) (by decide) (by decide) (by decide)),
        (h c _ (Cert.KernelIdeal.Whole.mem_uc Cert.KernelIdeal.main_arg6 (by decide))).trans (Cert.KernelIdeal.Whole.B11_launch m c Cert.KernelIdeal.main_arg6 (by decide) (by decide) (by decide) (by decide) (by decide) (by decide) (by decide) (by decide) (by decide) (by decide) (by decide))⟩
  · refine (θ_run Cert.ReferenceIdeal.defs _ _).mono (fun _ h c => ⟨(h c).1.trans ((Cert.ReferenceIdeal.Net.result_eq m' c).trans ?_), (h c).2⟩)
      (Cert.ReferenceIdeal.Value.run (F := Ideal) m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
